-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S800000 : Shape := ⟨1, ![800000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg14 : FVec F S128 .f32) (main_arg15 : FVec F S64x128 .f32) (main_arg16 : FVec F S64 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S64x128 .f32 := Host.absf main_arg15
  let main_cst_28 : FVec F S_ .f32 := constant S_ .f32 0x7F800000#32
  let main_v75 : FVec F S64x128 .f32 := broadcastInDim S64x128 ![] bcast_S_S64x128 main_cst_28
  let main_v76 : IVec S64x128 1 := cmpf .olt main_v74 main_v75
  let main_c_29 : IVec S_ 1 := constantI S_ 1 1#1
  let main_v77 : IVec S_ 1 := (fun x v => Host.reduce IntOp.andi x v reducesTo_S64x128_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg11 : FVec F S128 .f32) (main_arg12 : FVec F S128x128 .f32) (main_arg13 : FVec F S128x128 .f32) (main_arg14 : FVec F S128 .f32) (main_arg15 : FVec F S64x128 .f32) (main_arg16 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_v63 main_v67

def fn_part2 {F : FTy → Type} [FloatOps F] (main_arg7 : FVec F S128 .f32) (main_arg8 : FVec F S128x128 .f32) (main_arg9 : FVec F S128 .f32) (main_arg10 : FVec F S128 .f32) (main_arg11 : FVec F S128 .f32) (main_arg12 : FVec F S128x128 .f32) (main_arg13 : FVec F S128x128 .f32) (main_arg14 : FVec F S128 .f32) (main_arg15 : FVec F S64x128 .f32) (main_arg16 : FVec F S64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_v48 main_v49 main_v50

def fn_part1 {F : FTy → Type} [FloatOps F] (main_arg4 : FVec F S128 .f32) (main_arg5 : FVec F S128x128 .f32) (main_arg6 : FVec F S128x128 .f32) (main_arg7 : FVec F S128 .f32) (main_arg8 : FVec F S128x128 .f32) (main_arg9 : FVec F S128 .f32) (main_arg10 : FVec F S128 .f32) (main_arg11 : FVec F S128 .f32) (main_arg12 : FVec F S128x128 .f32) (main_arg13 : FVec F S128x128 .f32) (main_arg14 : FVec F S128 .f32) (main_arg15 : FVec F S64x128 .f32) (main_arg16 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S100000x128 .f32) (main_arg1 : FVec F S128x128 .f32) (main_arg2 : FVec F S128 .f32) (main_arg3 : FVec F S128 .f32) (main_arg4 : FVec F S128 .f32) (main_arg5 : FVec F S128x128 .f32) (main_arg6 : FVec F S128x128 .f32) (main_arg7 : FVec F S128 .f32) (main_arg8 : FVec F S128x128 .f32) (main_arg9 : FVec F S128 .f32) (main_arg10 : FVec F S128 .f32) (main_arg11 : FVec F S128 .f32) (main_arg12 : FVec F S128x128 .f32) (main_arg13 : FVec F S128x128 .f32) (main_arg14 : FVec F S128 .f32) (main_arg15 : FVec F S64x128 .f32) (main_arg16 : FVec F S64 .f32) (main_arg17 : IVec S800000 32) (main_arg18 : IVec S800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S800000 : Shape := ⟨1, ![800000]⟩
abbrev S128x64 : Shape := ⟨2, ![128, 64]⟩
abbrev S1x128 : Shape := ⟨2, ![1, 128]⟩
abbrev S1x64 : Shape := ⟨2, ![1, 64]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S100000x64 : Shape := ⟨2, ![100000, 64]⟩
abbrev S5000x64 : Shape := ⟨2, ![5000, 64]⟩

abbrev nBuf : Space → Nat
  | .hbm => 112
  | .vmem => 56
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128, .f32⟩
  | .hbm, ⟨15, _⟩ => ⟨S64x128, .f32⟩
  | .hbm, ⟨16, _⟩ => ⟨S64, .f32⟩
  | .hbm, ⟨17, _⟩ => ⟨S800000, .i32⟩
  | .hbm, ⟨18, _⟩ => ⟨S800000, .i32⟩
  | .hbm, ⟨19, _⟩ => ⟨S128x128, .f32⟩
  | .hbm, ⟨20, _⟩ => ⟨S128x128, .f32⟩
  | .hbm, ⟨21, _⟩ => ⟨S128x64, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x64, .f32⟩
  | .hbm, ⟨35, _⟩ => ⟨S100000x128, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S_, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S100000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S100000x128, .f32⟩
  | .hbm, ⟨58, _⟩ => ⟨S800000x1, .i32⟩
  | .hbm, ⟨59, _⟩ => ⟨S100000x128, .f32⟩
  | .hbm, ⟨60, _⟩ => ⟨S_, .f32⟩
  | .hbm, ⟨61, _⟩ => ⟨S800000, .f32⟩
  | .hbm, ⟨62, _⟩ => ⟨S_, .f32⟩
  | .hbm, ⟨63, _⟩ => ⟨S100000, .f32⟩
  | .hbm, ⟨64, _⟩ => ⟨S800000x1, .i32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S1x128, .f32⟩
  | .hbm, ⟨76, _⟩ => ⟨S_, .f32⟩
  | .hbm, ⟨77, _⟩ => ⟨S1x128, .f32⟩
  | .hbm, ⟨78, _⟩ => ⟨S1x128, .f32⟩
  | .hbm, ⟨79, _⟩ => ⟨S_, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S100000x128, .f32⟩
  | .hbm, ⟨85, _⟩ => ⟨S_, .i32⟩
  | .hbm, ⟨86, _⟩ => ⟨S800000, .i32⟩
  | .hbm, ⟨87, _⟩ => ⟨S800000, .i1⟩
  | .hbm, ⟨88, _⟩ => ⟨S_, .i32⟩
  | .hbm, ⟨89, _⟩ => ⟨S800000, .i32⟩
  | .hbm, ⟨90, _⟩ => ⟨S800000, .i32⟩
  | .hbm, ⟨91, _⟩ => ⟨S800000, .i32⟩
  | .hbm, ⟨92, _⟩ => ⟨S800000x1, .i32⟩
  | .hbm, ⟨93, _⟩ => ⟨S800000x128, .f32⟩
  | .hbm, ⟨94, _⟩ => ⟨S_, .f32⟩
  | .hbm, ⟨95, _⟩ => ⟨S100000x128, .f32⟩
  | .hbm, ⟨96, _⟩ => ⟨S800000x1, .i32⟩
  | .hbm, ⟨97, _⟩ => ⟨S100000x128, .f32⟩
  | .hbm, ⟨98, _⟩ => ⟨S_, .f32⟩
  | .hbm, ⟨99, _⟩ => ⟨S800000, .f32⟩
  | .hbm, ⟨100, _⟩ => ⟨S_, .f32⟩
  | .hbm, ⟨101, _⟩ => ⟨S100000, .f32⟩
  | .hbm, ⟨102, _⟩ => ⟨S800000x1, .i32⟩
  | .hbm, ⟨103, _⟩ => ⟨S100000, .f32⟩
  | .hbm, ⟨104, _⟩ => ⟨S_, .f32⟩
  | .hbm, ⟨105, _⟩ => ⟨S100000, .f32⟩
  | .hbm, ⟨106, _⟩ => ⟨S100000, .f32⟩
  | .hbm, ⟨107, _⟩ => ⟨S100000x1, .f32⟩
  | .hbm, ⟨108, _⟩ => ⟨S100000x128, .f32⟩
  | .hbm, ⟨109, _⟩ => ⟨S100000x128, .f32⟩
  | .hbm, ⟨110, _⟩ => ⟨S100000x128, .f32⟩
  | .hbm, ⟨111, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S1x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S128x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S128x128, .f32⟩
  | .local _ .vmem, ⟨28, _⟩ => ⟨S1x128, .f32⟩
  | .local _ .vmem, ⟨29, _⟩ => ⟨S5000x128, .f32⟩
  | .local _ .vmem, ⟨30, _⟩ => ⟨S5000x128, .f32⟩
  | .local _ .vmem, ⟨31, _⟩ => ⟨S1x128, .f32⟩
  | .local _ .vmem, ⟨32, _⟩ => ⟨S1x128, .f32⟩
  | .local _ .vmem, ⟨33, _⟩ => ⟨S5000x128, .f32⟩
  | .local _ .vmem, ⟨34, _⟩ => ⟨S5000x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S128x128, .f32⟩
  | .local _ .vmem, ⟨46, _⟩ => ⟨S128x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S128x64, .f32⟩
  | .local _ .vmem, ⟨53, _⟩ => ⟨S1x64, .f32⟩
  | .local _ .vmem, ⟨54, _⟩ => ⟨S5000x64, .f32⟩
  | .local _ .vmem, ⟨55, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16_0 : Ref sig .tc := ⟨.hbm, 35, rfl⟩
abbrev main_v16_1 : Ref sig .tc := ⟨.hbm, 36, rfl⟩
abbrev main_v16_2 : Ref sig .tc := ⟨.hbm, 37, rfl⟩
abbrev main_cst : Ref sig .tc := ⟨.hbm, 38, rfl⟩
abbrev main_v17 : Ref sig .tc := ⟨.hbm, 39, rfl⟩
abbrev main_v18 : Ref sig .tc := ⟨.hbm, 40, rfl⟩
abbrev main_cst_0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c : Ref sig .tc := ⟨.hbm, 47, rfl⟩
abbrev main_v24 : Ref sig .tc := ⟨.hbm, 48, rfl⟩
abbrev main_v25 : Ref sig .tc := ⟨.hbm, 49, rfl⟩
abbrev main_c_1 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_3 : Ref sig .tc := ⟨.hbm, 60, rfl⟩
abbrev main_v34 : Ref sig .tc := ⟨.hbm, 61, rfl⟩
abbrev main_cst_4 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_5 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44_0 : Ref sig .tc := ⟨.hbm, 73, rfl⟩
abbrev main_v44_1 : Ref sig .tc := ⟨.hbm, 74, rfl⟩
abbrev main_v44_2 : Ref sig .tc := ⟨.hbm, 75, rfl⟩
abbrev main_cst_6 : Ref sig .tc := ⟨.hbm, 76, rfl⟩
abbrev main_v45 : Ref sig .tc := ⟨.hbm, 77, rfl⟩
abbrev main_v46 : Ref sig .tc := ⟨.hbm, 78, rfl⟩
abbrev main_cst_7 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_c_8 : Ref sig .tc := ⟨.hbm, 85, rfl⟩
abbrev main_v52 : Ref sig .tc := ⟨.hbm, 86, rfl⟩
abbrev main_v53 : Ref sig .tc := ⟨.hbm, 87, rfl⟩
abbrev main_c_9 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_10 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_11 : Ref sig .tc := ⟨.hbm, 98, rfl⟩
abbrev main_v62 : Ref sig .tc := ⟨.hbm, 99, rfl⟩
abbrev main_cst_12 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_13 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg5_0 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg5_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg5_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg2_0 : Ref sig .tc := ⟨.vmem, 53, rfl⟩
abbrev cc6_stg3_0 : Ref sig .tc := ⟨.vmem, 54, rfl⟩
abbrev cc6_stg3_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem3_1 : DmaSem sig := 30
abbrev cc3_sem4_0 : DmaSem sig := 31
abbrev cc3_sem5_0 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem5_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem5_1 : DmaSem sig := 49
abbrev cc6_sem0_0 : DmaSem sig := 50
abbrev cc6_sem0_1 : DmaSem sig := 51
abbrev cc6_sem1_0 : DmaSem sig := 52
abbrev cc6_sem2_0 : DmaSem sig := 53
abbrev cc6_sem3_0 : DmaSem sig := 54
abbrev cc6_sem3_1 : DmaSem sig := 55

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  transposes_S128x128_S128x128_1_0 : S128x128.Transposes [1, 0] S128x128
  transposes_S64x128_S128x64_1_0 : S64x128.Transposes [1, 0] S128x64
  shapeCasts_S128_S1x128 : S128.ShapeCasts S1x128
  shapeCasts_S64_S1x64 : S64.ShapeCasts S1x64
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  shapeCasts_S5000x128_S5000x128 : S5000x128.ShapeCasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  dot_S5000x128_S128x128_S5000x128_1_0_0_1_n_n_wf : DotDims.WF S5000x128 S128x128 S5000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S100000x64.size a
  hwx6_3 : ∀ i : grid6.Coords, EltTy.bits .f32 = 32 ∨ (Rect.block (s := S100000x64) S5000x64.size (cc6_transform_3 i) (hinb6_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v16_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v23) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v10) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v43) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v11) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44_0) S5000x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v44_1) S1x128.size cc3_transform_4 reads3_4 true true 1 stage3_4 sem3_4
    hrank3 hreads3_4 hinb3_4 nbuf3_4 (Memref.isWhole_whole _) hwx3_4 hstage3_4

abbrev win3_5 : Pipeline.Window sig grid3 :=
  Pipeline.Window.ofSpec (Memref.whole main_v44_2) S1x128.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v44_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v46) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v50) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v12) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v13) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v51) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v51) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v5) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v6) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v14) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v71) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v71) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v2) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v15) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v72) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S128x64 : Shape := ⟨2, ![128, 64]⟩
abbrev S100000x64 : Shape := ⟨2, ![100000, 64]⟩
abbrev S1x64 : Shape := ⟨2, ![1, 64]⟩

abbrev nBuf : Space → Nat
  | .hbm => 175
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128, .f32⟩
  | 10 => ⟨S128, .f32⟩
  | 11 => ⟨S128, .f32⟩
  | 12 => ⟨S128x128, .f32⟩
  | 13 => ⟨S128x128, .f32⟩
  | 14 => ⟨S128, .f32⟩
  | 15 => ⟨S64x128, .f32⟩
  | 16 => ⟨S64, .f32⟩
  | 17 => ⟨S800000, .i32⟩
  | 18 => ⟨S800000, .i32⟩
  | 19 => ⟨S128x128, .f32⟩
  | 20 => ⟨S100000x128, .f32⟩
  | 21 => ⟨S1x128, .f32⟩
  | 22 => ⟨S100000x128, .f32⟩
  | 23 => ⟨S100000x128, .f32⟩
  | 24 => ⟨S_, .f32⟩
  | 25 => ⟨S128, .f32⟩
  | 26 => ⟨S_, .f32⟩
  | 27 => ⟨S128, .f32⟩
  | 28 => ⟨S128, .f32⟩
  | 29 => ⟨S1x128, .f32⟩
  | 30 => ⟨S100000x128, .f32⟩
  | 31 => ⟨S100000x128, .f32⟩
  | 32 => ⟨S100000x128, .f32⟩
  | 33 => ⟨S_, .f32⟩
  | 34 => ⟨S128, .f32⟩
  | 35 => ⟨S_, .f32⟩
  | 36 => ⟨S128, .f32⟩
  | 37 => ⟨S128, .f32⟩
  | 38 => ⟨S1x128, .f32⟩
  | 39 => ⟨S100000x128, .f32⟩
  | 40 => ⟨S100000x128, .f32⟩
  | 41 => ⟨S_, .f32⟩
  | 42 => ⟨S128, .f32⟩
  | 43 => ⟨S128, .f32⟩
  | 44 => ⟨S128, .f32⟩
  | 45 => ⟨S1x128, .f32⟩
  | 46 => ⟨S100000x128, .f32⟩
  | 47 => ⟨S100000x128, .f32⟩
  | 48 => ⟨S1x128, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S_, .f32⟩
  | 67 => ⟨S100000x128, .f32⟩
  | 68 => ⟨S800000x1, .i32⟩
  | 69 => ⟨S100000x128, .f32⟩
  | 70 => ⟨S_, .f32⟩
  | 71 => ⟨S800000, .f32⟩
  | 72 => ⟨S_, .f32⟩
  | 73 => ⟨S100000, .f32⟩
  | 74 => ⟨S800000x1, .i32⟩
  | 75 => ⟨S100000, .f32⟩
  | 76 => ⟨S_, .f32⟩
  | 77 => ⟨S100000, .f32⟩
  | 78 => ⟨S100000, .f32⟩
  | 79 => ⟨S100000x1, .f32⟩
  | 80 => ⟨S100000x128, .f32⟩
  | 81 => ⟨S100000x128, .f32⟩
  | 82 => ⟨S128x128, .f32⟩
  | 83 => ⟨S100000x128, .f32⟩
  | 84 => ⟨S128x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S128x128, .f32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S128, .f32⟩
  | 100 => ⟨S_, .f32⟩
  | 101 => ⟨S128, .f32⟩
  | 102 => ⟨S128, .f32⟩
  | 103 => ⟨S1x128, .f32⟩
  | 104 => ⟨S100000x128, .f32⟩
  | 105 => ⟨S100000x128, .f32⟩
  | 106 => ⟨S100000x128, .f32⟩
  | 107 => ⟨S_, .f32⟩
  | 108 => ⟨S128, .f32⟩
  | 109 => ⟨S_, .f32⟩
  | 110 => ⟨S128, .f32⟩
  | 111 => ⟨S128, .f32⟩
  | 112 => ⟨S1x128, .f32⟩
  | 113 => ⟨S100000x128, .f32⟩
  | 114 => ⟨S100000x128, .f32⟩
  | 115 => ⟨S_, .f32⟩
  | 116 => ⟨S128, .f32⟩
  | 117 => ⟨S128, .f32⟩
  | 118 => ⟨S128, .f32⟩
  | 119 => ⟨S1x128, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S100000x128, .f32⟩
  | 2 => ⟨S100000x128, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x128, .f32⟩
  | 12 => ⟨S_, .f32⟩
  | 13 => ⟨S100000x128, .f32⟩
  | 14 => ⟨S800000x1, .i32⟩
  | 15 => ⟨S100000x128, .f32⟩
  | 16 => ⟨S_, .f32⟩
  | 17 => ⟨S800000, .f32⟩
  | 18 => ⟨S_, .f32⟩
  | 19 => ⟨S100000, .f32⟩
  | 20 => ⟨S800000x1, .i32⟩
  | 21 => ⟨S100000, .f32⟩
  | 22 => ⟨S_, .f32⟩
  | 23 => ⟨S100000, .f32⟩
  | 24 => ⟨S100000, .f32⟩
  | 25 => ⟨S100000x1, .f32⟩
  | 26 => ⟨S100000x128, .f32⟩
  | 27 => ⟨S100000x128, .f32⟩
  | 28 => ⟨S128x128, .f32⟩
  | 29 => ⟨S100000x128, .f32⟩
  | 30 => ⟨S128x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S100000x128, .f32⟩
  | 38 => ⟨S100000x128, .f32⟩
  | 39 => ⟨S128x64, .f32⟩
  | 40 => ⟨S100000x64, .f32⟩
  | 41 => ⟨S1x64, .f32⟩
  | 42 => ⟨S100000x64, .f32⟩
  | 43 => ⟨S100000x64, .f32⟩
  | 44 => ⟨S_, .f32⟩
  | 45 => ⟨S100000x64, .f32⟩
  | 46 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_cst_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call0_cst : Ref sig .tc := ⟨.hbm, 54, rfl⟩
abbrev main_call0_v0 : Ref sig .tc := ⟨.hbm, 55, rfl⟩
abbrev main_v30 : Ref sig .tc := ⟨.hbm, 56, rfl⟩
abbrev main_c : Ref sig .tc := ⟨.hbm, 57, rfl⟩
abbrev main_v31 : Ref sig .tc := ⟨.hbm, 58, rfl⟩
abbrev main_v32 : Ref sig .tc := ⟨.hbm, 59, rfl⟩
abbrev main_c_4 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_5 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_6 : Ref sig .tc := ⟨.hbm, 70, rfl⟩
abbrev main_v41 : Ref sig .tc := ⟨.hbm, 71, rfl⟩
abbrev main_cst_7 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_8 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_call1_cst : Ref sig .tc := ⟨.hbm, 90, rfl⟩
abbrev main_call1_v0 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_9 : Ref sig .tc := ⟨.hbm, 98, rfl⟩
abbrev main_v64 : Ref sig .tc := ⟨.hbm, 99, rfl⟩
abbrev main_cst_10 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_11 : Ref sig .tc := ⟨.hbm, 107, rfl⟩
abbrev main_v71 : Ref sig .tc := ⟨.hbm, 108, rfl⟩
abbrev main_cst_12 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_13 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_call2_cst : Ref sig .tc := ⟨.hbm, 128, rfl⟩
abbrev main_call2_v0 : Ref sig .tc := ⟨.hbm, 129, rfl⟩
abbrev main_v89 : Ref sig .tc := ⟨.hbm, 130, rfl⟩
abbrev main_c_14 : Ref sig .tc := ⟨.hbm, 131, rfl⟩
abbrev main_v90 : Ref sig .tc := ⟨.hbm, 132, rfl⟩
abbrev main_v91 : Ref sig .tc := ⟨.hbm, 133, rfl⟩
abbrev main_c_15 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_16 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_17 : Ref sig .tc := ⟨.hbm, 144, rfl⟩
abbrev main_v100 : Ref sig .tc := ⟨.hbm, 145, rfl⟩
abbrev main_cst_18 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_19 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_call3_cst : Ref sig .tc := ⟨.hbm, 164, rfl⟩
abbrev main_call3_v0 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_call4_cst : Ref sig .tc := ⟨.hbm, 172, rfl⟩
abbrev main_call4_v0 : Ref sig .tc := ⟨.hbm, 173, rfl⟩
abbrev main_v123 : Ref sig .tc := ⟨.hbm, 174, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S100000x128 : S_.BroadcastsInDim S100000x128 (![] : Fin 0 → Fin S100000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x64_S100000x64_1_0_0_1_n_n_wf : DotDims.WF S100000x128 S128x64 S100000x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The kernel program's run with its result named. The program is seven kernel regions among stretches of host
  operations; every weakly fair execution from a memory with zero counters terminates, nothing faulting, and in the
  final state each buffer that outlives a region holds the last boundary's contents. Read at the result buffer this
  names the program's result (the contents after the seventh region); read at the nineteen argument buffers it says
  they end as launched.
-/
import proofs.«150060_j45646912422072_1_alg».proof.Proof.Gen.KernelIdeal.Frame
import proofs.«150060_j45646912422072_1_alg».proof.Proof.Gen.KernelIdeal.Launch
import proofs.«150060_j45646912422072_1_alg».proof.Proof.Gen.KernelIdeal.Skeleton
import proofs.«150060_j45646912422072_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates; its result buffer ends at the contents the last region
    leaves, and every argument ends as launched. -/
theorem run_named : θ_run defs (onTc (τ := τ) (main (F := F))) ⟨m, fun _ => 0, ρ⟩ (fun r => ∀ c : Dev nD,
      r.2.mem ((c.tc : Thread nD τ).loc main_v72) = W12 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v72 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c)⟩)

end Cert.KernelIdeal.Run

end
-- ==== Proof.KernelFold.lean ====
import proofs.«150060_j45646912422072_1_alg».proof.Proof.Gen.KernelIdeal.Frame
import Idealize.ShloMosaic.Lib.StableHlo.Run

set_option maxRecDepth 16384

noncomputable section

namespace Cert.KernelIdeal.Fold

open Idealize.ShloMosaic Idealize.ShloMosaic.TcCoe
open Cert.KernelIdeal Cert.KernelIdeal.Gen

variable {F : FTy → Type} [FloatOps F]
variable (m : (ℓ : Loc nD τ sig) → Buf (Elt F) ℓ) (ρ : Dev nD → PrngReg)

/-! # What each region finds in its operands

The buffer contents at the segment boundaries of the program are a fold through its host operations and its
regions. This file walks every operand of every region back through that fold: to the launch memory for the
arguments, through the one host operation that computes it for a transposed weight, a reshaped vector, a column
mean, a column variance or a neighbourhood mean, and to the final arrays of the region that wrote it for an
activation. -/

/-! ## The buffers each host stretch writes -/

/-- The first host stretch writes the transposed weights and the reshaped vectors. -/
abbrev written0 : List (Ref sig .tc) :=
  [main_v0, main_v1, main_v2, main_v3, main_v4, main_v5, main_v6, main_v7, main_v8, main_v9, main_v10,
   main_v11, main_v12, main_v13, main_v14, main_v15]
/-- The second host stretch writes the first layer's column mean and variance and their intermediates. -/
abbrev written1 : List (Ref sig .tc) :=
  [main_cst, main_v17, main_v18, main_cst_0, main_v19, main_v20, main_v21, main_v22]
/-- The third host stretch writes the first layer's neighbourhood mean and its intermediates. -/
abbrev written2 : List (Ref sig .tc) :=
  [main_c, main_v24, main_v25, main_c_1, main_v26, main_v27, main_v28, main_v29, main_v30, main_cst_2, main_v31,
   main_v32, main_v33, main_cst_3, main_v34, main_cst_4, main_v35, main_v36, main_v37, main_cst_5, main_v38,
   main_v39, main_v40, main_v41, main_v42]
/-- The fourth host stretch writes the second layer's column mean and variance and their intermediates. -/
abbrev written4 : List (Ref sig .tc) :=
  [main_cst_6, main_v45, main_v46, main_cst_7, main_v47, main_v48, main_v49, main_v50]
/-- The fifth host stretch writes the second layer's neighbourhood mean and its intermediates. -/
abbrev written5 : List (Ref sig .tc) :=
  [main_c_8, main_v52, main_v53, main_c_9, main_v54, main_v55, main_v56, main_v57, main_v58, main_cst_10, main_v59,
   main_v60, main_v61, main_cst_11, main_v62, main_cst_12, main_v63, main_v64, main_v65, main_cst_13, main_v66,
   main_v67, main_v68, main_v69, main_v70]

theorem hostOps0_writes : (hostOps0 : List (HloOp τ sig (Elt F))).Forall fun op =>
    op.writes ⊆ (written0.map (Proc.devRef (τ := τ) .tc)).toFinset := by
  simp only [hostOps0, List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

theorem hostOps1_writes : (hostOps1 : List (HloOp τ sig (Elt F))).Forall fun op =>
    op.writes ⊆ (written1.map (Proc.devRef (τ := τ) .tc)).toFinset := by
  simp only [hostOps1, List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

theorem hostOps2_writes : (hostOps2 : List (HloOp τ sig (Elt F))).Forall fun op =>
    op.writes ⊆ (written2.map (Proc.devRef (τ := τ) .tc)).toFinset := by
  simp only [hostOps2, List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

theorem hostOps4_writes : (hostOps4 : List (HloOp τ sig (Elt F))).Forall fun op =>
    op.writes ⊆ (written4.map (Proc.devRef (τ := τ) .tc)).toFinset := by
  simp only [hostOps4, List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

theorem hostOps5_writes : (hostOps5 : List (HloOp τ sig (Elt F))).Forall fun op =>
    op.writes ⊆ (written5.map (Proc.devRef (τ := τ) .tc)).toFinset := by
  simp only [hostOps5, List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-! ## A buffer a segment does not write keeps its contents -/

theorem W1_keep (c : Dev nD) (r : Ref sig .tc) (h : r ∉ written0 := by decide) :
    W1 m ρ c (Proc.devRef .tc r) = W0 m ρ c (Proc.devRef .tc r) :=
  StableHlo.after_of_writes_sub hostOps0 _ hostOps0_writes h
theorem W3_keep (c : Dev nD) (r : Ref sig .tc) (h : r ∉ written1 := by decide) :
    W3 m ρ c (Proc.devRef .tc r) = W2 m ρ c (Proc.devRef .tc r) :=
  StableHlo.after_of_writes_sub hostOps1 _ hostOps1_writes h
theorem W5_keep (c : Dev nD) (r : Ref sig .tc) (h : r ∉ written2 := by decide) :
    W5 m ρ c (Proc.devRef .tc r) = W4 m ρ c (Proc.devRef .tc r) :=
  StableHlo.after_of_writes_sub hostOps2 _ hostOps2_writes h
theorem W8_keep (c : Dev nD) (r : Ref sig .tc) (h : r ∉ written4 := by decide) :
    W8 m ρ c (Proc.devRef .tc r) = W7 m ρ c (Proc.devRef .tc r) :=
  StableHlo.after_of_writes_sub hostOps4 _ hostOps4_writes h
theorem W10_keep (c : Dev nD) (r : Ref sig .tc) (h : r ∉ written5 := by decide) :
    W10 m ρ c (Proc.devRef .tc r) = W9 m ρ c (Proc.devRef .tc r) :=
  StableHlo.after_of_writes_sub hostOps5 _ hostOps5_writes h

/-- Through region 0 and the second host stretch. -/
theorem W3_eq_W1 (c : Dev nD) (r : Ref sig .tc) (h0 : ∀ w, Pipeline.arrRef spec0 w ≠ r := by decide)
    (h1 : r ∉ written1 := by decide) : W3 m ρ c (Proc.devRef .tc r) = W1 m ρ c (Proc.devRef .tc r) :=
  (W3_keep m ρ c r h1).trans (W2_of_ne m ρ c r h0)
/-- Through region 1 and the third host stretch. -/
theorem W5_eq_W3 (c : Dev nD) (r : Ref sig .tc) (h0 : ∀ w, Pipeline.arrRef spec1 w ≠ r := by decide)
    (h1 : r ∉ written2 := by decide) : W5 m ρ c (Proc.devRef .tc r) = W3 m ρ c (Proc.devRef .tc r) :=
  (W5_keep m ρ c r h1).trans (W4_of_ne m ρ c r h0)
/-- Through regions 2 and 3 and the fourth host stretch. -/
theorem W8_eq_W5 (c : Dev nD) (r : Ref sig .tc) (h0 : ∀ w, Pipeline.arrRef spec2 w ≠ r := by decide)
    (h1 : ∀ w, Pipeline.arrRef spec3 w ≠ r := by decide) (h2 : r ∉ written4 := by decide) :
    W8 m ρ c (Proc.devRef .tc r) = W5 m ρ c (Proc.devRef .tc r) :=
  (W8_keep m ρ c r h2).trans ((W7_of_ne m ρ c r h1).trans (W6_of_ne m ρ c r h0))
/-- Through region 4 and the fifth host stretch. -/
theorem W10_eq_W8 (c : Dev nD) (r : Ref sig .tc) (h0 : ∀ w, Pipeline.arrRef spec4 w ≠ r := by decide)
    (h1 : r ∉ written5 := by decide) : W10 m ρ c (Proc.devRef .tc r) = W8 m ρ c (Proc.devRef .tc r) :=
  (W10_keep m ρ c r h1).trans (W9_of_ne m ρ c r h0)

/-! ## What the first host stretch computes: each weight transposed, each vector as a row -/

theorem W1_main_v0 (c : Dev nD) : W1 m ρ c (Proc.devRef .tc main_v0) =
    (transpose S128x128 [1, 0] (m ((c : Thread nD τ).loc main_arg1) : (⟨S128x128, .f32⟩ : BufTy).Contents (Elt F)) transposes_S128x128_S128x128_1_0 : (⟨S128x128, .f32⟩ : BufTy).Contents (Elt F)) := by
  show StableHlo.after hostOps0 _ (Proc.devRef .tc main_v0) = _
  after_results

theorem W1_main_v1 (c : Dev nD) : W1 m ρ c (Proc.devRef .tc main_v1) =
    (transpose S128x128 [1, 0] (m ((c : Thread nD τ).loc main_arg8) : (⟨S128x128, .f32⟩ : BufTy).Contents (Elt F)) transposes_S128x128_S128x128_1_0 : (⟨S128x128, .f32⟩ : BufTy).Contents (Elt F)) := by
  show StableHlo.after hostOps0 _ (Proc.devRef .tc main_v1) = _
  after_results

theorem W1_main_v2 (c : Dev nD) : W1 m ρ c (Proc.devRef .tc main_v2) =
    (transpose S128x64 [1, 0] (m ((c : Thread nD τ).loc main_arg15) : (⟨S64x128, .f32⟩ : BufTy).Contents (Elt F)) transposes_S64x128_S128x64_1_0 : (⟨S128x64, .f32⟩ : BufTy).Contents (Elt F)) := by
  show StableHlo.after hostOps0 _ (Proc.devRef .tc main_v2) = _
  after_results

theorem W1_main_v3 (c : Dev nD) : W1 m ρ c (Proc.devRef .tc main_v3) =
    (transpose S128x128 [1, 0] (m ((c : Thread nD τ).loc main_arg5) : (⟨S128x128, .f32⟩ : BufTy).Contents (Elt F)) transposes_S128x128_S128x128_1_0 : (⟨S128x128, .f32⟩ : BufTy).Contents (Elt F)) := by
  show StableHlo.after hostOps0 _ (Proc.devRef .tc main_v3) = _
  after_results

theorem W1_main_v4 (c : Dev nD) : W1 m ρ c (Proc.devRef .tc main_v4) =
    (transpose S128x128 [1, 0] (m ((c : Thread nD τ).loc main_arg6) : (⟨S128x128, .f32⟩ : BufTy).Contents (Elt F)) transposes_S128x128_S128x128_1_0 : (⟨S128x128, .f32⟩ : BufTy).Contents (Elt F)) := by
  show StableHlo.after hostOps0 _ (Proc.devRef .tc main_v4) = _
  after_results

theorem W1_main_v5 (c : Dev nD) : W1 m ρ c (Proc.devRef .tc main_v5) =
    (transpose S128x128 [1, 0] (m ((c : Thread nD τ).loc main_arg12) : (⟨S128x128, .f32⟩ : BufTy).Contents (Elt F)) transposes_S128x128_S128x128_1_0 : (⟨S128x128, .f32⟩ : BufTy).Contents (Elt F)) := by
  show StableHlo.after hostOps0 _ (Proc.devRef .tc main_v5) = _
  after_results

theorem W1_main_v6 (c : Dev nD) : W1 m ρ c (Proc.devRef .tc main_v6) =
    (transpose S128x128 [1, 0] (m ((c : Thread nD τ).loc main_arg13) : (⟨S128x128, .f32⟩ : BufTy).Contents (Elt F)) transposes_S128x128_S128x128_1_0 : (⟨S128x128, .f32⟩ : BufTy).Contents (Elt F)) := by
  show StableHlo.after hostOps0 _ (Proc.devRef .tc main_v6) = _
  after_results

theorem W1_main_v7 (c : Dev nD) : W1 m ρ c (Proc.devRef .tc main_v7) =
    (shapeCast S1x128 (m ((c : Thread nD τ).loc main_arg2) : (⟨S128, .f32⟩ : BufTy).Contents (Elt F)) shapeCasts_S128_S1x128 : (⟨S1x128, .f32⟩ : BufTy).Contents (Elt F)) := by
  show StableHlo.after hostOps0 _ (Proc.devRef .tc main_v7) = _
  after_results
  rfl

theorem W1_main_v8 (c : Dev nD) : W1 m ρ c (Proc.devRef .tc main_v8) =
    (shapeCast S1x128 (m ((c : Thread nD τ).loc main_arg3) : (⟨S128, .f32⟩ : BufTy).Contents (Elt F)) shapeCasts_S128_S1x128 : (⟨S1x128, .f32⟩ : BufTy).Contents (Elt F)) := by
  show StableHlo.after hostOps0 _ (Proc.devRef .tc main_v8) = _
  after_results
  rfl

theorem W1_main_v9 (c : Dev nD) : W1 m ρ c (Proc.devRef .tc main_v9) =
    (shapeCast S1x128 (m ((c : Thread nD τ).loc main_arg4) : (⟨S128, .f32⟩ : BufTy).Contents (Elt F)) shapeCasts_S128_S1x128 : (⟨S1x128, .f32⟩ : BufTy).Contents (Elt F)) := by
  show StableHlo.after hostOps0 _ (Proc.devRef .tc main_v9) = _
  after_results
  rfl

theorem W1_main_v10 (c : Dev nD) : W1 m ρ c (Proc.devRef .tc main_v10) =
    (shapeCast S1x128 (m ((c : Thread nD τ).loc main_arg7) : (⟨S128, .f32⟩ : BufTy).Contents (Elt F)) shapeCasts_S128_S1x128 : (⟨S1x128, .f32⟩ : BufTy).Contents (Elt F)) := by
  show StableHlo.after hostOps0 _ (Proc.devRef .tc main_v10) = _
  after_results
  rfl

theorem W1_main_v11 (c : Dev nD) : W1 m ρ c (Proc.devRef .tc main_v11) =
    (shapeCast S1x128 (m ((c : Thread nD τ).loc main_arg9) : (⟨S128, .f32⟩ : BufTy).Contents (Elt F)) shapeCasts_S128_S1x128 : (⟨S1x128, .f32⟩ : BufTy).Contents (Elt F)) := by
  show StableHlo.after hostOps0 _ (Proc.devRef .tc main_v11) = _
  after_results
  rfl

theorem W1_main_v12 (c : Dev nD) : W1 m ρ c (Proc.devRef .tc main_v12) =
    (shapeCast S1x128 (m ((c : Thread nD τ).loc main_arg10) : (⟨S128, .f32⟩ : BufTy).Contents (Elt F)) shapeCasts_S128_S1x128 : (⟨S1x128, .f32⟩ : BufTy).Contents (Elt F)) := by
  show StableHlo.after hostOps0 _ (Proc.devRef .tc main_v12) = _
  after_results
  rfl

theorem W1_main_v13 (c : Dev nD) : W1 m ρ c (Proc.devRef .tc main_v13) =
    (shapeCast S1x128 (m ((c : Thread nD τ).loc main_arg11) : (⟨S128, .f32⟩ : BufTy).Contents (Elt F)) shapeCasts_S128_S1x128 : (⟨S1x128, .f32⟩ : BufTy).Contents (Elt F)) := by
  show StableHlo.after hostOps0 _ (Proc.devRef .tc main_v13) = _
  after_results
  rfl

theorem W1_main_v14 (c : Dev nD) : W1 m ρ c (Proc.devRef .tc main_v14) =
    (shapeCast S1x128 (m ((c : Thread nD τ).loc main_arg14) : (⟨S128, .f32⟩ : BufTy).Contents (Elt F)) shapeCasts_S128_S1x128 : (⟨S1x128, .f32⟩ : BufTy).Contents (Elt F)) := by
  show StableHlo.after hostOps0 _ (Proc.devRef .tc main_v14) = _
  after_results
  rfl

theorem W1_main_v15 (c : Dev nD) : W1 m ρ c (Proc.devRef .tc main_v15) =
    (shapeCast S1x64 (m ((c : Thread nD τ).loc main_arg16) : (⟨S64, .f32⟩ : BufTy).Contents (Elt F)) shapeCasts_S64_S1x64 : (⟨S1x64, .f32⟩ : BufTy).Contents (Elt F)) := by
  show StableHlo.after hostOps0 _ (Proc.devRef .tc main_v15) = _
  after_results
  rfl

/-! ## The neighbourhood mean

Each edge `e` carries the row `X[src e]` (a negative source index read from the end) to the node `dst e`; a node's
rows are added up and divided by the number of edges that end in it, or by one when none does. -/

/-- The mean over incoming edges of the rows of `X` at the edges' sources, as the host operations compute it. -/
def aggrTerm (X : (⟨S100000x128, .f32⟩ : BufTy).Contents (Elt F)) (src dst : (⟨S800000, .i32⟩ : BufTy).Contents (Elt F)) : (⟨S100000x128, .f32⟩ : BufTy).Contents (Elt F) :=
  (Host.divf : (⟨S100000x128, .f32⟩ : BufTy).Contents (Elt F) → (⟨S100000x128, .f32⟩ : BufTy).Contents (Elt F) → (⟨S100000x128, .f32⟩ : BufTy).Contents (Elt F))
    (Host.scatterAdd scatter_S100000x128_S800000x1_S800000x128_1_0_0_1
      (broadcastInDim S100000x128 ![] bcast_S_S100000x128 (constant (F := F) S_ .f32 0x00000000#32) : (⟨S100000x128, .f32⟩ : BufTy).Contents (Elt F))
      (broadcastInDim S800000x1 ![0] bcast_S800000_S800000x1_0 dst : (⟨S800000x1, .i32⟩ : BufTy).Contents (Elt F))
      (Host.gather gather_S100000x128_S800000x1_S800000x128_1_0_n_n_0_1_1128 X
        (broadcastInDim S800000x1 ![0] bcast_S800000_S800000x1_0
          ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
            ((cmpi .slt : (⟨S800000, .i32⟩ : BufTy).Contents (Elt F) → (⟨S800000, .i32⟩ : BufTy).Contents (Elt F) → (⟨S800000, .i1⟩ : BufTy).Contents (Elt F)) src
              (broadcastInDim S800000 ![] bcast_S_S800000 (constantI S_ 32 0#32 : (⟨S_, .i32⟩ : BufTy).Contents (Elt F)) : (⟨S800000, .i32⟩ : BufTy).Contents (Elt F)))
            ((addi : (⟨S800000, .i32⟩ : BufTy).Contents (Elt F) → (⟨S800000, .i32⟩ : BufTy).Contents (Elt F) → (⟨S800000, .i32⟩ : BufTy).Contents (Elt F)) src
              (broadcastInDim S800000 ![] bcast_S_S800000 (constantI S_ 32 100000#32 : (⟨S_, .i32⟩ : BufTy).Contents (Elt F)) : (⟨S800000, .i32⟩ : BufTy).Contents (Elt F)))
            src) : (⟨S800000x1, .i32⟩ : BufTy).Contents (Elt F)) : (⟨S800000x128, .f32⟩ : BufTy).Contents (Elt F)))
    (broadcastInDim S100000x128 ![0, 1] bcast_S100000x1_S100000x128_0_1
      (broadcastInDim S100000x1 ![0] bcast_S100000_S100000x1_0
        ((maximumf : (⟨S100000, .f32⟩ : BufTy).Contents (Elt F) → (⟨S100000, .f32⟩ : BufTy).Contents (Elt F) → (⟨S100000, .f32⟩ : BufTy).Contents (Elt F))
          (Host.scatterAdd scatter_S100000_S800000x1_S800000_n_0_0_1
            (broadcastInDim S100000 ![] bcast_S_S100000 (constant (F := F) S_ .f32 0x00000000#32) : (⟨S100000, .f32⟩ : BufTy).Contents (Elt F))
            (broadcastInDim S800000x1 ![0] bcast_S800000_S800000x1_0 dst : (⟨S800000x1, .i32⟩ : BufTy).Contents (Elt F))
            (broadcastInDim S800000 ![] bcast_S_S800000 (constant (F := F) S_ .f32 0x3F800000#32) : (⟨S800000, .f32⟩ : BufTy).Contents (Elt F)))
          (broadcastInDim S100000 ![] bcast_S_S100000 (constant (F := F) S_ .f32 0x3F800000#32) : (⟨S100000, .f32⟩ : BufTy).Contents (Elt F))) : (⟨S100000x1, .f32⟩ : BufTy).Contents (Elt F)) : (⟨S100000x128, .f32⟩ : BufTy).Contents (Elt F))

/-! ## Region 0 (first layer, the linear map and its column sums) -/

theorem entry0_main_arg0 (c : Dev nD) : V1 m ρ c main_arg0 = m ((c : Thread nD τ).loc main_arg0) :=
  (W1_keep m ρ c main_arg0).trans rfl

theorem entry0_main_v0 (c : Dev nD) : V1 m ρ c main_v0 =
    (transpose S128x128 [1, 0] (m ((c : Thread nD τ).loc main_arg1) : (⟨S128x128, .f32⟩ : BufTy).Contents (Elt F)) transposes_S128x128_S128x128_1_0 : (⟨S128x128, .f32⟩ : BufTy).Contents (Elt F)) :=
  W1_main_v0 m ρ c

theorem entry0_main_v7 (c : Dev nD) : V1 m ρ c main_v7 =
    (shapeCast S1x128 (m ((c : Thread nD τ).loc main_arg2) : (⟨S128, .f32⟩ : BufTy).Contents (Elt F)) shapeCasts_S128_S1x128 : (⟨S1x128, .f32⟩ : BufTy).Contents (Elt F)) :=
  W1_main_v7 m ρ c

/-! ## Region 1 (first layer, normalisation): the column mean and variance from region 0's sums -/

theorem entry1_main_v16_0 (c : Dev nD) : V3 m ρ c main_v16_0 = (dat0 (V1 m ρ) c).arrAt 3 cfg0.N :=
  (W3_keep m ρ c main_v16_0).trans (W2_arr m ρ c 3)

theorem entry1_main_v18 (c : Dev nD) : V3 m ρ c main_v18 =
    (Host.divf : (⟨S1x128, .f32⟩ : BufTy).Contents (Elt F) → (⟨S1x128, .f32⟩ : BufTy).Contents (Elt F) → (⟨S1x128, .f32⟩ : BufTy).Contents (Elt F)) ((dat0 (V1 m ρ) c).arrAt 4 cfg0.N)
      (broadcastInDim S1x128 ![] bcast_S_S1x128 (constant (F := F) S_ .f32 0x47C35000#32) : (⟨S1x128, .f32⟩ : BufTy).Contents (Elt F)) := by
  have hs : W2 m ρ c (Proc.devRef .tc main_v16_1) = (dat0 (V1 m ρ) c).arrAt 4 cfg0.N := W2_arr m ρ c 4
  show StableHlo.after hostOps1 _ (Proc.devRef .tc main_v18) = _
  after_results
  rw [hs]

theorem entry1_main_v22 (c : Dev nD) : V3 m ρ c main_v22 =
    (subf : (⟨S1x128, .f32⟩ : BufTy).Contents (Elt F) → (⟨S1x128, .f32⟩ : BufTy).Contents (Elt F) → (⟨S1x128, .f32⟩ : BufTy).Contents (Elt F))
      ((Host.divf : (⟨S1x128, .f32⟩ : BufTy).Contents (Elt F) → (⟨S1x128, .f32⟩ : BufTy).Contents (Elt F) → (⟨S1x128, .f32⟩ : BufTy).Contents (Elt F)) ((dat0 (V1 m ρ) c).arrAt 5 cfg0.N)
      (broadcastInDim S1x128 ![] bcast_S_S1x128 (constant (F := F) S_ .f32 0x47C35000#32) : (⟨S1x128, .f32⟩ : BufTy).Contents (Elt F)))
      ((mulf : (⟨S1x128, .f32⟩ : BufTy).Contents (Elt F) → (⟨S1x128, .f32⟩ : BufTy).Contents (Elt F) → (⟨S1x128, .f32⟩ : BufTy).Contents (Elt F))
        ((Host.divf : (⟨S1x128, .f32⟩ : BufTy).Contents (Elt F) → (⟨S1x128, .f32⟩ : BufTy).Contents (Elt F) → (⟨S1x128, .f32⟩ : BufTy).Contents (Elt F)) ((dat0 (V1 m ρ) c).arrAt 4 cfg0.N)
      (broadcastInDim S1x128 ![] bcast_S_S1x128 (constant (F := F) S_ .f32 0x47C35000#32) : (⟨S1x128, .f32⟩ : BufTy).Contents (Elt F)))
        ((Host.divf : (⟨S1x128, .f32⟩ : BufTy).Contents (Elt F) → (⟨S1x128, .f32⟩ : BufTy).Contents (Elt F) → (⟨S1x128, .f32⟩ : BufTy).Contents (Elt F)) ((dat0 (V1 m ρ) c).arrAt 4 cfg0.N)
      (broadcastInDim S1x128 ![] bcast_S_S1x128 (constant (F := F) S_ .f32 0x47C35000#32) : (⟨S1x128, .f32⟩ : BufTy).Contents (Elt F)))) := by
  have hs : W2 m ρ c (Proc.devRef .tc main_v16_1) = (dat0 (V1 m ρ) c).arrAt 4 cfg0.N := W2_arr m ρ c 4
  have hq : W2 m ρ c (Proc.devRef .tc main_v16_2) = (dat0 (V1 m ρ) c).arrAt 5 cfg0.N := W2_arr m ρ c 5
  show StableHlo.after hostOps1 _ (Proc.devRef .tc main_v22) = _
  after_results
  rw [hs, hq]

theorem entry1_main_v8 (c : Dev nD) : V3 m ρ c main_v8 =
    (shapeCast S1x128 (m ((c : Thread nD τ).loc main_arg3) : (⟨S128, .f32⟩ : BufTy).Contents (Elt F)) shapeCasts_S128_S1x128 : (⟨S1x128, .f32⟩ : BufTy).Contents (Elt F)) :=
  (W3_eq_W1 m ρ c main_v8).trans (W1_main_v8 m ρ c)

theorem entry1_main_v9 (c : Dev nD) : V3 m ρ c main_v9 =
    (shapeCast S1x128 (m ((c : Thread nD τ).loc main_arg4) : (⟨S128, .f32⟩ : BufTy).Contents (Elt F)) shapeCasts_S128_S1x128 : (⟨S1x128, .f32⟩ : BufTy).Contents (Elt F)) :=
  (W3_eq_W1 m ρ c main_v9).trans (W1_main_v9 m ρ c)

/-! ## Region 2 (first layer, the two linear maps of the activation and of its neighbourhood mean) -/

theorem W4_main_arg17 (c : Dev nD) : W4 m ρ c (Proc.devRef .tc main_arg17) = m ((c : Thread nD τ).loc main_arg17) :=
  ((W4_of_ne m ρ c main_arg17 (by decide)).trans (W3_eq_W1 m ρ c main_arg17)).trans ((W1_keep m ρ c main_arg17).trans rfl)

theorem W4_main_arg18 (c : Dev nD) : W4 m ρ c (Proc.devRef .tc main_arg18) = m ((c : Thread nD τ).loc main_arg18) :=
  ((W4_of_ne m ρ c main_arg18 (by decide)).trans (W3_eq_W1 m ρ c main_arg18)).trans ((W1_keep m ρ c main_arg18).trans rfl)

theorem entry2_main_v23 (c : Dev nD) : V5 m ρ c main_v23 = (dat1 (V3 m ρ) c).arrAt 5 cfg1.N :=
  (W5_keep m ρ c main_v23).trans (W4_arr m ρ c 5)

set_option maxHeartbeats 2000000 in  -- twenty-five host operations are folded here
theorem entry2_main_v42 (c : Dev nD) : V5 m ρ c main_v42 =
    aggrTerm ((dat1 (V3 m ρ) c).arrAt 5 cfg1.N) (m ((c : Thread nD τ).loc main_arg17)) (m ((c : Thread nD τ).loc main_arg18)) := by
  have hx : W4 m ρ c (Proc.devRef .tc main_v23) = (dat1 (V3 m ρ) c).arrAt 5 cfg1.N := W4_arr m ρ c 5
  have h17 := W4_main_arg17 m ρ c
  have h18 := W4_main_arg18 m ρ c
  show StableHlo.after hostOps2 _ (Proc.devRef .tc main_v42) = _
  after_results_simp
  rw [hx, h17, h18]
  rfl

theorem entry2_main_v3 (c : Dev nD) : V5 m ρ c main_v3 =
    (transpose S128x128 [1, 0] (m ((c : Thread nD τ).loc main_arg5) : (⟨S128x128, .f32⟩ : BufTy).Contents (Elt F)) transposes_S128x128_S128x128_1_0 : (⟨S128x128, .f32⟩ : BufTy).Contents (Elt F)) :=
  ((W5_eq_W3 m ρ c main_v3).trans (W3_eq_W1 m ρ c main_v3)).trans (W1_main_v3 m ρ c)

theorem entry2_main_v4 (c : Dev nD) : V5 m ρ c main_v4 =
    (transpose S128x128 [1, 0] (m ((c : Thread nD τ).loc main_arg6) : (⟨S128x128, .f32⟩ : BufTy).Contents (Elt F)) transposes_S128x128_S128x128_1_0 : (⟨S128x128, .f32⟩ : BufTy).Contents (Elt F)) :=
  ((W5_eq_W3 m ρ c main_v4).trans (W3_eq_W1 m ρ c main_v4)).trans (W1_main_v4 m ρ c)

theorem entry2_main_v10 (c : Dev nD) : V5 m ρ c main_v10 =
    (shapeCast S1x128 (m ((c : Thread nD τ).loc main_arg7) : (⟨S128, .f32⟩ : BufTy).Contents (Elt F)) shapeCasts_S128_S1x128 : (⟨S1x128, .f32⟩ : BufTy).Contents (Elt F)) :=
  ((W5_eq_W3 m ρ c main_v10).trans (W3_eq_W1 m ρ c main_v10)).trans (W1_main_v10 m ρ c)

/-! ## Region 3 (second layer, the linear map and its column sums): entered straight from region 2 -/

theorem entry3_main_v43 (c : Dev nD) : V6 m ρ c main_v43 = (dat2 (V5 m ρ) c).arrAt 5 cfg2.N :=
  W6_arr m ρ c 5

theorem entry3_main_v1 (c : Dev nD) : V6 m ρ c main_v1 =
    (transpose S128x128 [1, 0] (m ((c : Thread nD τ).loc main_arg8) : (⟨S128x128, .f32⟩ : BufTy).Contents (Elt F)) transposes_S128x128_S128x128_1_0 : (⟨S128x128, .f32⟩ : BufTy).Contents (Elt F)) :=
  ((W6_of_ne m ρ c main_v1 (by decide)).trans ((W5_eq_W3 m ρ c main_v1).trans (W3_eq_W1 m ρ c main_v1))).trans (W1_main_v1 m ρ c)

theorem entry3_main_v11 (c : Dev nD) : V6 m ρ c main_v11 =
    (shapeCast S1x128 (m ((c : Thread nD τ).loc main_arg9) : (⟨S128, .f32⟩ : BufTy).Contents (Elt F)) shapeCasts_S128_S1x128 : (⟨S1x128, .f32⟩ : BufTy).Contents (Elt F)) :=
  ((W6_of_ne m ρ c main_v11 (by decide)).trans ((W5_eq_W3 m ρ c main_v11).trans (W3_eq_W1 m ρ c main_v11))).trans (W1_main_v11 m ρ c)

/-! ## Region 4 (second layer, normalisation) -/

theorem entry4_main_v44_0 (c : Dev nD) : V8 m ρ c main_v44_0 = (dat3 (V6 m ρ) c).arrAt 3 cfg3.N :=
  (W8_keep m ρ c main_v44_0).trans (W7_arr m ρ c 3)

theorem entry4_main_v46 (c : Dev nD) : V8 m ρ c main_v46 =
    (Host.divf : (⟨S1x128, .f32⟩ : BufTy).Contents (Elt F) → (⟨S1x128, .f32⟩ : BufTy).Contents (Elt F) → (⟨S1x128, .f32⟩ : BufTy).Contents (Elt F)) ((dat3 (V6 m ρ) c).arrAt 4 cfg3.N)
      (broadcastInDim S1x128 ![] bcast_S_S1x128 (constant (F := F) S_ .f32 0x47C35000#32) : (⟨S1x128, .f32⟩ : BufTy).Contents (Elt F)) := by
  have hs : W7 m ρ c (Proc.devRef .tc main_v44_1) = (dat3 (V6 m ρ) c).arrAt 4 cfg3.N := W7_arr m ρ c 4
  show StableHlo.after hostOps4 _ (Proc.devRef .tc main_v46) = _
  after_results
  rw [hs]

set_option maxHeartbeats 1000000 in
theorem entry4_main_v50 (c : Dev nD) : V8 m ρ c main_v50 =
    (subf : (⟨S1x128, .f32⟩ : BufTy).Contents (Elt F) → (⟨S1x128, .f32⟩ : BufTy).Contents (Elt F) → (⟨S1x128, .f32⟩ : BufTy).Contents (Elt F))
      ((Host.divf : (⟨S1x128, .f32⟩ : BufTy).Contents (Elt F) → (⟨S1x128, .f32⟩ : BufTy).Contents (Elt F) → (⟨S1x128, .f32⟩ : BufTy).Contents (Elt F)) ((dat3 (V6 m ρ) c).arrAt 5 cfg3.N)
      (broadcastInDim S1x128 ![] bcast_S_S1x128 (constant (F := F) S_ .f32 0x47C35000#32) : (⟨S1x128, .f32⟩ : BufTy).Contents (Elt F)))
      ((mulf : (⟨S1x128, .f32⟩ : BufTy).Contents (Elt F) → (⟨S1x128, .f32⟩ : BufTy).Contents (Elt F) → (⟨S1x128, .f32⟩ : BufTy).Contents (Elt F))
        ((Host.divf : (⟨S1x128, .f32⟩ : BufTy).Contents (Elt F) → (⟨S1x128, .f32⟩ : BufTy).Contents (Elt F) → (⟨S1x128, .f32⟩ : BufTy).Contents (Elt F)) ((dat3 (V6 m ρ) c).arrAt 4 cfg3.N)
      (broadcastInDim S1x128 ![] bcast_S_S1x128 (constant (F := F) S_ .f32 0x47C35000#32) : (⟨S1x128, .f32⟩ : BufTy).Contents (Elt F)))
        ((Host.divf : (⟨S1x128, .f32⟩ : BufTy).Contents (Elt F) → (⟨S1x128, .f32⟩ : BufTy).Contents (Elt F) → (⟨S1x128, .f32⟩ : BufTy).Contents (Elt F)) ((dat3 (V6 m ρ) c).arrAt 4 cfg3.N)
      (broadcastInDim S1x128 ![] bcast_S_S1x128 (constant (F := F) S_ .f32 0x47C35000#32) : (⟨S1x128, .f32⟩ : BufTy).Contents (Elt F)))) := by
  have hs : W7 m ρ c (Proc.devRef .tc main_v44_1) = (dat3 (V6 m ρ) c).arrAt 4 cfg3.N := W7_arr m ρ c 4
  have hq : W7 m ρ c (Proc.devRef .tc main_v44_2) = (dat3 (V6 m ρ) c).arrAt 5 cfg3.N := W7_arr m ρ c 5
  show StableHlo.after hostOps4 _ (Proc.devRef .tc main_v50) = _
  after_results
  rw [hs, hq]

theorem entry4_main_v12 (c : Dev nD) : V8 m ρ c main_v12 =
    (shapeCast S1x128 (m ((c : Thread nD τ).loc main_arg10) : (⟨S128, .f32⟩ : BufTy).Contents (Elt F)) shapeCasts_S128_S1x128 : (⟨S1x128, .f32⟩ : BufTy).Contents (Elt F)) :=
  ((W8_eq_W5 m ρ c main_v12).trans ((W5_eq_W3 m ρ c main_v12).trans (W3_eq_W1 m ρ c main_v12))).trans (W1_main_v12 m ρ c)

theorem entry4_main_v13 (c : Dev nD) : V8 m ρ c main_v13 =
    (shapeCast S1x128 (m ((c : Thread nD τ).loc main_arg11) : (⟨S128, .f32⟩ : BufTy).Contents (Elt F)) shapeCasts_S128_S1x128 : (⟨S1x128, .f32⟩ : BufTy).Contents (Elt F)) :=
  ((W8_eq_W5 m ρ c main_v13).trans ((W5_eq_W3 m ρ c main_v13).trans (W3_eq_W1 m ρ c main_v13))).trans (W1_main_v13 m ρ c)

/-! ## Region 5 (second layer, the two linear maps) -/

theorem W9_main_arg17 (c : Dev nD) : W9 m ρ c (Proc.devRef .tc main_arg17) = m ((c : Thread nD τ).loc main_arg17) :=
  ((W9_of_ne m ρ c main_arg17 (by decide)).trans ((W8_eq_W5 m ρ c main_arg17).trans ((W5_eq_W3 m ρ c main_arg17).trans (W3_eq_W1 m ρ c main_arg17)))).trans ((W1_keep m ρ c main_arg17).trans rfl)

theorem W9_main_arg18 (c : Dev nD) : W9 m ρ c (Proc.devRef .tc main_arg18) = m ((c : Thread nD τ).loc main_arg18) :=
  ((W9_of_ne m ρ c main_arg18 (by decide)).trans ((W8_eq_W5 m ρ c main_arg18).trans ((W5_eq_W3 m ρ c main_arg18).trans (W3_eq_W1 m ρ c main_arg18)))).trans ((W1_keep m ρ c main_arg18).trans rfl)

theorem entry5_main_v51 (c : Dev nD) : V10 m ρ c main_v51 = (dat4 (V8 m ρ) c).arrAt 5 cfg4.N :=
  (W10_keep m ρ c main_v51).trans (W9_arr m ρ c 5)

set_option maxHeartbeats 4000000 in  -- twenty-five host operations are folded here
theorem entry5_main_v70 (c : Dev nD) : V10 m ρ c main_v70 =
    aggrTerm ((dat4 (V8 m ρ) c).arrAt 5 cfg4.N) (m ((c : Thread nD τ).loc main_arg17)) (m ((c : Thread nD τ).loc main_arg18)) := by
  have hx : W9 m ρ c (Proc.devRef .tc main_v51) = (dat4 (V8 m ρ) c).arrAt 5 cfg4.N := W9_arr m ρ c 5
  have h17 := W9_main_arg17 m ρ c
  have h18 := W9_main_arg18 m ρ c
  show StableHlo.after hostOps5 _ (Proc.devRef .tc main_v70) = _
  after_results
  rw [hx, h17, h18]
  rfl

theorem entry5_main_v5 (c : Dev nD) : V10 m ρ c main_v5 =
    (transpose S128x128 [1, 0] (m ((c : Thread nD τ).loc main_arg12) : (⟨S128x128, .f32⟩ : BufTy).Contents (Elt F)) transposes_S128x128_S128x128_1_0 : (⟨S128x128, .f32⟩ : BufTy).Contents (Elt F)) :=
  ((W10_eq_W8 m ρ c main_v5).trans ((W8_eq_W5 m ρ c main_v5).trans ((W5_eq_W3 m ρ c main_v5).trans (W3_eq_W1 m ρ c main_v5)))).trans (W1_main_v5 m ρ c)

theorem entry5_main_v6 (c : Dev nD) : V10 m ρ c main_v6 =
    (transpose S128x128 [1, 0] (m ((c : Thread nD τ).loc main_arg13) : (⟨S128x128, .f32⟩ : BufTy).Contents (Elt F)) transposes_S128x128_S128x128_1_0 : (⟨S128x128, .f32⟩ : BufTy).Contents (Elt F)) :=
  ((W10_eq_W8 m ρ c main_v6).trans ((W8_eq_W5 m ρ c main_v6).trans ((W5_eq_W3 m ρ c main_v6).trans (W3_eq_W1 m ρ c main_v6)))).trans (W1_main_v6 m ρ c)

theorem entry5_main_v14 (c : Dev nD) : V10 m ρ c main_v14 =
    (shapeCast S1x128 (m ((c : Thread nD τ).loc main_arg14) : (⟨S128, .f32⟩ : BufTy).Contents (Elt F)) shapeCasts_S128_S1x128 : (⟨S1x128, .f32⟩ : BufTy).Contents (Elt F)) :=
  ((W10_eq_W8 m ρ c main_v14).trans ((W8_eq_W5 m ρ c main_v14).trans ((W5_eq_W3 m ρ c main_v14).trans (W3_eq_W1 m ρ c main_v14)))).trans (W1_main_v14 m ρ c)

/-! ## Region 6 (the output layer): entered straight from region 5 -/

theorem entry6_main_v71 (c : Dev nD) : V11 m ρ c main_v71 = (dat5 (V10 m ρ) c).arrAt 5 cfg5.N :=
  W11_arr m ρ c 5

theorem entry6_main_v2 (c : Dev nD) : V11 m ρ c main_v2 =
    (transpose S128x64 [1, 0] (m ((c : Thread nD τ).loc main_arg15) : (⟨S64x128, .f32⟩ : BufTy).Contents (Elt F)) transposes_S64x128_S128x64_1_0 : (⟨S128x64, .f32⟩ : BufTy).Contents (Elt F)) :=
  ((W11_of_ne m ρ c main_v2 (by decide)).trans ((W10_eq_W8 m ρ c main_v2).trans ((W8_eq_W5 m ρ c main_v2).trans ((W5_eq_W3 m ρ c main_v2).trans (W3_eq_W1 m ρ c main_v2))))).trans (W1_main_v2 m ρ c)

theorem entry6_main_v15 (c : Dev nD) : V11 m ρ c main_v15 =
    (shapeCast S1x64 (m ((c : Thread nD τ).loc main_arg16) : (⟨S64, .f32⟩ : BufTy).Contents (Elt F)) shapeCasts_S64_S1x64 : (⟨S1x64, .f32⟩ : BufTy).Contents (Elt F)) :=
  ((W11_of_ne m ρ c main_v15 (by decide)).trans ((W10_eq_W8 m ρ c main_v15).trans ((W8_eq_W5 m ρ c main_v15).trans ((W5_eq_W3 m ρ c main_v15).trans (W3_eq_W1 m ρ c main_v15))))).trans (W1_main_v15 m ρ c)

/-! ## The result -/

theorem result (c : Dev nD) : W12 m ρ c (Proc.devRef .tc main_v72) = (dat6 (V11 m ρ) c).arrAt 3 cfg6.N :=
  W12_arr m ρ c 3

end Cert.KernelIdeal.Fold
-- ==== Proof.PayLin.lean ====
/-
  The arithmetic of the dense-layer kernels read at an index, over the extended reals.

  One grid point of such a kernel holds a block `x` of 5000 rows, the 128×128 matrix `w` (already transposed) and the
  bias row `b`. The block it writes is `y p q = (∑ k, x p k · w k q) + b 0 q`: the roundings to bf16 on the way into the
  matrix unit are the identity on the extended reals, and the product into a zero accumulator is the plain sum. Its
  two running totals are the incoming totals plus the column sums `∑ p, y p q` and `∑ p, (y p q)²` of that block.
-/
import proofs.«150060_j45646912422072_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayLin

open Cert.KernelIdeal Cert.KernelIdeal.Gen Idealize.ShloMosaic Idealize.ShloMosaic.ValueIdx

/-- Row `p`, column `q` of a 5000×128 block times a 128×128 matrix into the zero accumulator: the sum over the
    contracted coordinate. -/
theorem matmul_zero_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ =>
      show (dot_S5000x128_S128x128_S5000x128_1_0_0_1_n_n.lhsIdx (ix2 p q) _ 0).val = p.val
      unfold DotDims.lhsIdx
      rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
      rfl
    | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl (ix2 p q) _).trans hk
    | ⟨1, _⟩ =>
      show (dot_S5000x128_S128x128_S5000x128_1_0_0_1_n_n.rhsIdx (ix2 p q) _ 1).val = q.val
      unfold DotDims.rhsIdx
      rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
      rfl)
  rw [el, er]

/-- The dense block of the first dense kernel at row `p`, column `q`. -/
theorem pay3_apply (x : Vec Ideal S5000x128 .f32) (w : Vec Ideal S128x128 .f32) (b : Vec Ideal S1x128 .f32)
    (p : Fin 5000) (q : Fin 128) :
    k0_pay3 (F := Ideal) x w b (ix2 p q) = (∑ k : Fin 128, x (ix2 p k) * w (ix2 k q)) + b (ix2 (0 : Fin 1) q) := by
  unfold k0_pay3
  refine (addf_apply _ _ (ix2 p q)).trans ?_
  refine congrArg₂ (· + ·) ?_ ?_
  · refine (matmul_zero_apply _ _ p q).trans ?_
    refine Finset.sum_congr rfl fun k _ => ?_
    simp only [shapeCast_self]
    rfl
  · refine (broadcastTo_1b_ab_apply _ _ p q).trans ?_
    rw [shapeCast_self]

/-- The dense block of the second dense kernel at row `p`, column `q`: the same function. -/
theorem pay3'_apply (x : Vec Ideal S5000x128 .f32) (w : Vec Ideal S128x128 .f32) (b : Vec Ideal S1x128 .f32)
    (p : Fin 5000) (q : Fin 128) :
    k3_pay3 (F := Ideal) x w b (ix2 p q) = (∑ k : Fin 128, x (ix2 p k) * w (ix2 k q)) + b (ix2 (0 : Fin 1) q) := by
  unfold k3_pay3
  refine (addf_apply _ _ (ix2 p q)).trans ?_
  refine congrArg₂ (· + ·) ?_ ?_
  · refine (matmul_zero_apply _ _ p q).trans ?_
    refine Finset.sum_congr rfl fun k _ => ?_
    simp only [shapeCast_self]
    rfl
  · refine (broadcastTo_1b_ab_apply _ _ p q).trans ?_
    rw [shapeCast_self]

/-- A column sum of a 5000×128 block laid out as a [1,128] row, at column `q`. -/
theorem colsum_row_apply (y : FVec Ideal S5000x128 .f32) (h : S5000x128.Reduces [0] S128)
    (hφ : FKind.Formats .f32) (hacc : (0x00000000#32 : BitVec 32) = FKind.add.neutral .f32 hφ)
    (hc : S128.ShapeCasts S1x128) (u : Fin 1) (q : Fin 128) :
    shapeCast S1x128 (multiReduction .add [0] S128 y 0x00000000#32 h hφ hacc) hc (ix2 u q) = ∑ p : Fin 5000, y (ix2 p q) := by
  refine (shapeCast_a_1a_apply _ hc u q).trans ?_
  refine (Ideal.multiReduction_add_single y 0x00000000#32 h hφ hacc (ix1 q)).trans ?_
  refine Finset.sum_congr rfl fun p _ => congrArg y ?_
  funext a
  match a with
  | ⟨0, _⟩ => rfl
  | ⟨1, _⟩ => rfl

/-- The first running total after a block: the incoming total plus the block's column sum. -/
theorem pay4_apply (x : Vec Ideal S5000x128 .f32) (w : Vec Ideal S128x128 .f32) (b acc : Vec Ideal S1x128 .f32)
    (q : Fin 128) :
    k0_pay4 (F := Ideal) x w b acc (ix2 (0 : Fin 1) q) = acc (ix2 (0 : Fin 1) q) + ∑ p : Fin 5000, k0_pay3 (F := Ideal) x w b (ix2 p q) := by
  unfold k0_pay4
  dsimp only
  refine (addf_apply _ _ _).trans ?_
  refine congrArg₂ (· + ·) ?_ ?_
  · rw [shapeCast_self]
  · exact colsum_row_apply _ _ _ _ _ 0 q

/-- The second running total after a block: the incoming total plus the column sum of the block's squares. -/
theorem pay5_apply (x : Vec Ideal S5000x128 .f32) (w : Vec Ideal S128x128 .f32) (b acc : Vec Ideal S1x128 .f32)
    (q : Fin 128) :
    k0_pay5 (F := Ideal) x w b acc (ix2 (0 : Fin 1) q)
      = acc (ix2 (0 : Fin 1) q) + ∑ p : Fin 5000, k0_pay3 (F := Ideal) x w b (ix2 p q) * k0_pay3 (F := Ideal) x w b (ix2 p q) := by
  unfold k0_pay5
  dsimp only
  refine (addf_apply _ _ _).trans ?_
  refine congrArg₂ (· + ·) ?_ ?_
  · rw [shapeCast_self]
  · refine (colsum_row_apply _ _ _ _ _ 0 q).trans ?_
    exact Finset.sum_congr rfl fun p _ => mulf_apply _ _ _

theorem pay4'_apply (x : Vec Ideal S5000x128 .f32) (w : Vec Ideal S128x128 .f32) (b acc : Vec Ideal S1x128 .f32)
    (q : Fin 128) :
    k3_pay4 (F := Ideal) x w b acc (ix2 (0 : Fin 1) q) = acc (ix2 (0 : Fin 1) q) + ∑ p : Fin 5000, k3_pay3 (F := Ideal) x w b (ix2 p q) := by
  unfold k3_pay4
  dsimp only
  refine (addf_apply _ _ _).trans ?_
  refine congrArg₂ (· + ·) ?_ ?_
  · rw [shapeCast_self]
  · exact colsum_row_apply _ _ _ _ _ 0 q

theorem pay5'_apply (x : Vec Ideal S5000x128 .f32) (w : Vec Ideal S128x128 .f32) (b acc : Vec Ideal S1x128 .f32)
    (q : Fin 128) :
    k3_pay5 (F := Ideal) x w b acc (ix2 (0 : Fin 1) q)
      = acc (ix2 (0 : Fin 1) q) + ∑ p : Fin 5000, k3_pay3 (F := Ideal) x w b (ix2 p q) * k3_pay3 (F := Ideal) x w b (ix2 p q) := by
  unfold k3_pay5
  dsimp only
  refine (addf_apply _ _ _).trans ?_
  refine congrArg₂ (· + ·) ?_ ?_
  · rw [shapeCast_self]
  · refine (colsum_row_apply _ _ _ _ _ 0 q).trans ?_
    exact Finset.sum_congr rfl fun p _ => mulf_apply _ _ _

/-- The zero row the first point stores into each running total. -/
theorem pay1_apply (i : S1x128.Idx) : k0_pay1 (F := Ideal) i = Ideal.ofBits .f32 0x00000000#32 := rfl
theorem pay2_apply (i : S1x128.Idx) : k0_pay2 (F := Ideal) i = Ideal.ofBits .f32 0x00000000#32 := rfl
theorem pay1'_apply (i : S1x128.Idx) : k3_pay1 (F := Ideal) i = Ideal.ofBits .f32 0x00000000#32 := rfl
theorem pay2'_apply (i : S1x128.Idx) : k3_pay2 (F := Ideal) i = Ideal.ofBits .f32 0x00000000#32 := rfl

end Cert.KernelIdeal.PayLin

end
-- ==== Proof.ColumnSums.lean ====
/-
  Column sums taken block by block, no program in sight.

  A kernel that streams 100000 rows in 20 blocks of 5000 keeps a running total: it starts from a zero word `z`,
  and after block `t` holds the previous total plus that block's own sum. In a commutative additive monoid (the
  extended reals under their addition are one) the total after the last block is `z` plus the sum over all rows,
  row `5000·t + p` being row `p` of block `t`. No finiteness is needed: only associativity and commutativity.
-/
import Mathlib.Algebra.BigOperators.Fin
import Mathlib.Algebra.BigOperators.Group.Finset.Basic
import Mathlib.Logic.Equiv.Fin.Basic

open scoped BigOperators

namespace Cert.ColumnSums

variable {M : Type*} [AddCommMonoid M]

/-- A running total that starts at `z + b 0` and adds `b (n+1)` at step `n+1`, for the steps below `N`, is after step
    `n < N` equal to `z` plus the terms up to `n`. -/
theorem running_total (z : M) (b acc : ℕ → M) (N : ℕ) (h0 : acc 0 = z + b 0)
    (hs : ∀ n, n + 1 < N → acc (n + 1) = acc n + b (n + 1)) (n : ℕ) (hn : n < N) :
    acc n = z + ∑ i ∈ Finset.range (n + 1), b i := by
  induction n with
  | zero => simp [h0]
  | succ n ih => rw [hs n hn, ih (Nat.lt_of_succ_lt hn), Finset.sum_range_succ _ (n + 1), add_assoc]

/-- The sum over `m·n` rows is the sum over `m` blocks of the sums over each block's `n` rows. -/
theorem sum_blocks (m n : ℕ) (g : ℕ → M) :
    ∑ t ∈ Finset.range m, ∑ p : Fin n, g (n * t + p.val) = ∑ r : Fin (m * n), g r.val := by
  rw [← Fin.sum_univ_eq_sum_range (fun t => ∑ p : Fin n, g (n * t + p.val)) m,
    ← Equiv.sum_comp finProdFinEquiv (fun r : Fin (m * n) => g r.val), Fintype.sum_prod_type]
  refine Finset.sum_congr rfl fun j _ => Finset.sum_congr rfl fun p _ => congrArg g ?_
  simp [finProdFinEquiv, Nat.add_comm, Nat.mul_comm]

/-- The running total after the last of 20 blocks of 5000 rows is `z` plus the sum over all 100000 rows. -/
theorem total_20x5000 (z : M) (g : ℕ → M) (acc : ℕ → M)
    (h0 : acc 0 = z + ∑ p : Fin 5000, g (5000 * 0 + p.val))
    (hs : ∀ n, n + 1 < 20 → acc (n + 1) = acc n + ∑ p : Fin 5000, g (5000 * (n + 1) + p.val)) :
    acc 19 = z + ∑ r : Fin 100000, g r.val := by
  rw [running_total z (fun t => ∑ p : Fin 5000, g (5000 * t + p.val)) acc 20 h0 hs 19 (by decide)]
  exact congrArg (z + ·) (sum_blocks 20 5000 g)

end Cert.ColumnSums
-- ==== Proof.RegionLin0.lean ====
/-
  What the first dense kernel leaves in its three output arrays.

  The kernel streams the 100000 rows of `X` in 20 blocks of 5000. At every point it writes the block
  `y = x · W + b` of the dense layer, so the dense output ends as the dense layer of the whole arrays. Its two
  one-row outputs are running totals written back after the last point only: at the first point the body stores a
  zero row, reads it back and adds the block's column sums of `y` (of `y²`); at each later point it adds the block's
  sums to what the point before left. Over the extended reals addition is associative and commutative, so the totals
  end at the zero word plus the sums over all 100000 rows.
-/
import proofs.«150060_j45646912422072_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«150060_j45646912422072_1_alg».proof.Proof.PayLin
import proofs.«150060_j45646912422072_1_alg».proof.Proof.ColumnSums

set_option maxRecDepth 16384

noncomputable section

open Idealize.ShloMosaic Idealize.ShloMosaic.TcCoe Idealize.SL.Sem
open Idealize.ShloMosaic.Pipeline (Dat)

namespace Cert.KernelIdeal.Lin0

open Cert.KernelIdeal Cert.KernelIdeal.Gen

section
variable {F : FTy → Type} [FloatOps F]

theorem hz : (![0, 0] : Fin 2 → Nat) = fun _ => 0 := funext fun a => by fin_cases a <;> rfl

/-- At the first point the block written is the dense block of the point's inputs. -/
theorem outA3 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond0_0 i) (x0 : Vec F S5000x128 .f32) (x1 : Vec F S128x128 .f32) (x2 : Vec F S1x128 .f32) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  rw [View.canon_unit_zero hz]
  simp only [View.readAt_eq_ld, h1.read_unread, h2.read_unread, h3.read_unread, View.ld_unit_zero (S := S5000x128) hz, View.ld_unit_zero (S := S128x128) hz, View.ld_unit_zero (S := S1x128) hz]

/-- At the first point the first running total is the zero row plus the block's column sums: the body stores the zero
    row and reads it back before adding. -/
theorem outA4 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond0_0 i) (x0 : Vec F S5000x128 .f32) (x1 : Vec F S128x128 .f32) (x2 : Vec F S1x128 .f32) :
    out0_A_4 c i a1 h1 a2 h2 a3 h3 a4 h4 a5 h5 a6 h6 hc x0 x1 x2 = k0_pay4 x0 x1 x2 k0_pay1 := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S5000x128) hz, View.ld_unit_zero (S := S128x128) hz, View.ld_unit_zero (S := S1x128) hz]

/-- At the first point the second running total is the zero row plus the column sums of the block's squares. -/
theorem outA5 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond0_0 i) (x0 : Vec F S5000x128 .f32) (x1 : Vec F S128x128 .f32) (x2 : Vec F S1x128 .f32) :
    out0_A_5 c i a1 h1 a2 h2 a3 h3 a4 h4 a5 h5 a6 h6 hc x0 x1 x2 = k0_pay5 x0 x1 x2 k0_pay2 := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S5000x128) hz, View.ld_unit_zero (S := S128x128) hz, View.ld_unit_zero (S := S1x128) hz]

/-- At a later point the block written is again the dense block of the point's inputs. -/
theorem outB3 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond0_0 i) (x0 : Vec F S5000x128 .f32) (x1 : Vec F S128x128 .f32) (x2 : Vec F S1x128 .f32) (xo4 xo5 : Vec F S1x128 .f32) :
    out0_B_3 c i a1 h1 a2 h2 a3 h3 a4 h4 a5 h5 a6 h6 hc x0 x1 x2 xo4 xo5 = k0_pay3 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, View.ld_unit_zero (S := S5000x128) hz, View.ld_unit_zero (S := S128x128) hz, View.ld_unit_zero (S := S1x128) hz]

/-- At a later point the first running total is the total found plus the block's column sums. -/
theorem outB4 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond0_0 i) (x0 : Vec F S5000x128 .f32) (x1 : Vec F S128x128 .f32) (x2 : Vec F S1x128 .f32) (xo4 xo5 : Vec F S1x128 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, View.ld_unit_zero (S := S5000x128) hz, View.ld_unit_zero (S := S128x128) hz, View.ld_unit_zero (S := S1x128) hz, h5.read_unread, h6.read_unread]

/-- At a later point the second running total is the total found plus the column sums of the block's squares. -/
theorem outB5 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond0_0 i) (x0 : Vec F S5000x128 .f32) (x1 : Vec F S128x128 .f32) (x2 : Vec F S1x128 .f32) (xo4 xo5 : Vec F S1x128 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, View.ld_unit_zero (S := S5000x128) hz, View.ld_unit_zero (S := S128x128) hz, View.ld_unit_zero (S := S1x128) hz, h5.read_unread, h6.read_unread]

end

open Idealize.ShloMosaic.ValueIdx

/-- The dense layer as one function of its three arrays: row `r`, column `q` is `(∑ k, X r k · W k q) + B 0 q`. -/
def Glin0 (X : S100000x128.Idx → EReal) (W : S128x128.Idx → EReal) (B : S1x128.Idx → EReal) : S100000x128.Idx → EReal :=
  fun i => (∑ k : Fin 128, X (ix2 (i 0) k) * W (ix2 k (i 1))) + B (ix2 (0 : Fin 1) (i 1))

/-- The printed index maps over the grid: the two row-block windows sit at block `(t, 0)` at point `t`, every other
    window at block `(0, 0)`. -/
theorem idx_facts : ∀ t : Fin cfg0.N,
    win0_0.index t (0 : Fin 2) = t.val ∧ win0_0.index t (1 : Fin 2) = 0
    ∧ win0_3.index t (0 : Fin 2) = t.val ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

section
variable (V : (c : Dev nD) → (b : Ref sig .tc) → Buf (Elt Ideal) ((c : Thread nD τ).loc b))

/-- The running totals after point `n`: at the first point the zero row plus the block's column sums, then each
    point's sums added to what the point before left. -/
def tot (c : Dev nD) : (n : ℕ) → n < cfg0.N → Vec Ideal S1x128 .f32 × Vec Ideal S1x128 .f32
  | 0, h => (k0_pay4 (iblk0 V c 0 ⟨0, h⟩) (iblk0 V c 1 ⟨0, h⟩) (iblk0 V c 2 ⟨0, h⟩) (k0_pay1 (F := Ideal)),
             k0_pay5 (iblk0 V c 0 ⟨0, h⟩) (iblk0 V c 1 ⟨0, h⟩) (iblk0 V c 2 ⟨0, h⟩) (k0_pay2 (F := Ideal)))
  | n + 1, h => (k0_pay4 (iblk0 V c 0 ⟨n + 1, h⟩) (iblk0 V c 1 ⟨n + 1, h⟩) (iblk0 V c 2 ⟨n + 1, h⟩) (tot c n (Nat.lt_of_succ_lt h)).1,
                 k0_pay5 (iblk0 V c 0 ⟨n + 1, h⟩) (iblk0 V c 1 ⟨n + 1, h⟩) (iblk0 V c 2 ⟨n + 1, h⟩) (tot c n (Nat.lt_of_succ_lt h)).2)

/-- What the three output buffers hold after point `n`: the point's dense block and the two running totals — by
    induction on the point. -/
theorem outsAt_eq (c : Dev nD) : ∀ (n : ℕ) (h : n < cfg0.N),
    outsAt0 V c n h = (k0_pay3 (iblk0 V c 0 ⟨n, h⟩) (iblk0 V c 1 ⟨n, h⟩) (iblk0 V c 2 ⟨n, h⟩), (tot V c n h).1, (tot V c n h).2)
  | 0, h => by
    rw [outsAt0_A V c ⟨0, h⟩ rfl, outA3, outA4, outA5]
    rfl
  | n + 1, h => by
    have hN : cfg0.N = 20 := N_0
    have hB : ¬(⟨n + 1, h⟩ : Fin cfg0.N).val % 20 = 0 := by dsimp only; omega
    rw [outsAt0_B V c ⟨n + 1, h⟩ hB, outB3, outB4, outB5]
    show (_, k0_pay4 _ _ _ (outsAt0 V c n _).2.1, k0_pay5 _ _ _ (outsAt0 V c n _).2.2) = _
    rw [outsAt_eq c n]
    rfl

/-- A row-block read: entry `(p, k)` of input block 0 at point `t` is the array's entry at row `5000 t + p`, the row of
    the output block's entry `j` when `p = j 0`. -/
theorem blk_x (c : Dev nD) (t : Fin cfg0.N) (j : S5000x128.Idx) (k : Fin 128) :
    (iblk0 V c 0 t : Vec Ideal S5000x128 .f32) (ix2 (j 0) k)
      = (V c (Pipeline.arrRef spec0 0) : S100000x128.Idx → EReal) (ix2 ((((cfg0.win 3).blk t).view.emb j : S100000x128.Idx) 0) k) := by
  obtain ⟨e00, e01, e30, e31, -⟩ := idx_facts t
  show (V c (Pipeline.arrRef spec0 0) : S100000x128.Idx → EReal) (((cfg0.win 0).blk t).view.emb (ix2 (j 0) k)) = _
  refine congrArg (V c (Pipeline.arrRef spec0 0) : S100000x128.Idx → EReal) ?_
  funext a; apply Fin.ext
  match a with
  | ⟨0, _⟩ => show win0_0.index t (0 : Fin 2) * 5000 + 1 * (j 0).val = win0_3.index t (0 : Fin 2) * 5000 + 1 * (j 0).val; rw [e00, e30]
  | ⟨1, _⟩ => show win0_0.index t (1 : Fin 2) * 128 + 1 * k.val = k.val; rw [e01]; omega

/-- The output block's entry `j` sits in column `j 1` of the array. -/
theorem col3 (t : Fin cfg0.N) (j : S5000x128.Idx) :
    ((((cfg0.win 3).blk t).view.emb j : S100000x128.Idx) 1 : Fin 128) = j 1 := by
  obtain ⟨-, -, -, e31, -⟩ := idx_facts t
  apply Fin.ext
  show win0_3.index t (1 : Fin 2) * 128 + 1 * (j 1).val = (j 1).val
  rw [e31]; omega

/-- The matrix window's block is its whole array at every point. -/
theorem blk_w (c : Dev nD) (t : Fin cfg0.N) :
    (iblk0 V c 1 t : Vec Ideal S128x128 .f32) = (V c (Pipeline.arrRef spec0 1) : S128x128.Idx → EReal) := by
  obtain ⟨-, -, -, -, e0, e1, -⟩ := idx_facts t
  funext y
  show (V c (Pipeline.arrRef spec0 1) : S128x128.Idx → EReal) (((cfg0.win 1).blk t).view.emb y) = _
  refine congrArg (V c (Pipeline.arrRef spec0 1) : S128x128.Idx → EReal) ?_
  funext a; apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The bias window's block is its whole array at every point. -/
theorem blk_b (c : Dev nD) (t : Fin cfg0.N) :
    (iblk0 V c 2 t : Vec Ideal S1x128 .f32) = (V c (Pipeline.arrRef spec0 2) : S1x128.Idx → EReal) := by
  obtain ⟨-, -, -, -, -, -, e0, e1, -⟩ := idx_facts t
  funext y
  show (V c (Pipeline.arrRef spec0 2) : S1x128.Idx → EReal) (((cfg0.win 2).blk t).view.emb y) = _
  refine congrArg (V c (Pipeline.arrRef spec0 2) : S1x128.Idx → EReal) ?_
  funext a; apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- The dense block at a block index is the dense layer at the array index, once the blocks are read where the arrays
    are. -/
theorem lin_point (X : S100000x128.Idx → EReal) (W : S128x128.Idx → EReal) (B : S1x128.Idx → EReal)
    (x0 : Vec Ideal S5000x128 .f32) (x1 : Vec Ideal S128x128 .f32) (x2 : Vec Ideal S1x128 .f32)
    (j : S5000x128.Idx) (i : S100000x128.Idx)
    (hX : ∀ k : Fin 128, x0 (ix2 (j 0) k) = X (ix2 (i 0) k)) (hq : (i 1 : Fin 128) = j 1) (h1 : x1 = W) (h2 : x2 = B) :
    k0_pay3 (F := Ideal) x0 x1 x2 j = Glin0 X W B i := by
  subst h1 h2
  obtain ⟨p, q, rfl⟩ : ∃ (p : Fin 5000) (q : Fin 128), j = ix2 p q := ⟨j 0, j 1, eq_ix2 j⟩
  rw [PayLin.pay3_apply]
  unfold Glin0
  rw [hq]
  exact congrArg (· + x2 (ix2 (0 : Fin 1) q)) (Finset.sum_congr rfl fun k _ => by rw [hX k])

/-- What point `t` writes back to the dense output is block `t` of the dense layer of the arrays the region finds. -/
theorem flushed3_eq (c : Dev nD) (t : Fin cfg0.N) :
    (dat0 (F := Ideal) V c).flushed 3 t = ((cfg0.win 3).blk t).view.read (Elt Ideal)
      (Glin0 (V c (Pipeline.arrRef spec0 0)) (V c (Pipeline.arrRef spec0 1)) (V c (Pipeline.arrRef spec0 2))) := by
  show (cfg0.win 3).cut (grid0.coords t) ((dat0 V c).after 3 t) = _
  rw [after0_3, outsAt_eq]
  funext j
  exact lin_point (V c (Pipeline.arrRef spec0 0)) (V c (Pipeline.arrRef spec0 1)) (V c (Pipeline.arrRef spec0 2))
    (iblk0 V c 0 t) (iblk0 V c 1 t) (iblk0 V c 2 t) j (((cfg0.win 3).blk t).view.emb j)
    (fun k => blk_x V c t j k) (col3 t j) (blk_w V c t) (blk_b V c t)

theorem mem_blk3 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16_0).slice (win0_3.rect t)).set ↔ _
  rw [View.set_slice_whole, Rect.mem_set_unit]
  exact Iff.rfl

/-- Row `r` lies in the block of point `r / 5000`, and every point writes the dense output back. -/
theorem cover3 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_3 _, ?_⟩
  obtain ⟨-, -, e30, e31, -⟩ := idx_facts ⟨(i 0).val / 5000, by rw [hN]; omega⟩
  rw [mem_blk3]
  intro a
  match a with
  | ⟨0, _⟩ =>
    show win0_3.index _ (0 : Fin 2) * 5000 ≤ (i 0).val ∧ (i 0).val < win0_3.index _ (0 : Fin 2) * 5000 + 5000
    rw [e30]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e31]; omega

/-- THE DENSE OUTPUT after the region: the dense layer of the three arrays the region finds, at every index. -/
theorem final3 (c : Dev nD) :
    (dat0 (F := Ideal) V c).arrAt 3 cfg0.N
      = Glin0 (V c (Pipeline.arrRef spec0 0)) (V c (Pipeline.arrRef spec0 1)) (V c (Pipeline.arrRef spec0 2)) :=
  (dat0 (F := Ideal) V c).arrAt_eq_of_cover 3 _ (fun t _ => flushed3_eq V c t) cover3

end

section
variable (V : (c : Dev nD) → (b : Ref sig .tc) → Buf (Elt Ideal) ((c : Thread nD τ).loc b))

/-- The last point of the grid. -/
abbrev tlast : Fin cfg0.N := ⟨19, by rw [show cfg0.N = 20 from N_0]; decide⟩

/-- The one-row output window 4's block is the whole array at every point. -/
theorem whole_blk4 (t : Fin cfg0.N) (y : S1x128.Idx) : (((cfg0.win 4).blk t).view.emb y : S1x128.Idx) = y := by
  obtain ⟨-, -, -, -, -, -, -, -, e0, e1, -⟩ := idx_facts t
  funext a; apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- The one write-back of window 4, after the last point, writes the running total. -/
theorem flushed4_eq (c : Dev nD) (t : Fin cfg0.N) (hf : (cfg0.win 4).flush t = true) :
    (dat0 (F := Ideal) V c).flushed 4 t = ((cfg0.win 4).blk t).view.read (Elt Ideal) (tot V c 19 tlast.isLt).1 := by
  have hN : cfg0.N = 20 := N_0
  have h19 : t.val = 19 := by have := (flush0_4 t).mp hf; have := t.isLt; omega
  obtain rfl : t = tlast := Fin.ext h19
  show (cfg0.win 4).cut (grid0.coords tlast) ((dat0 V c).after 4 tlast) = _
  rw [after0_4, outsAt_eq]
  funext y
  show (tot V c 19 _).1 y = (tot V c 19 _).1 (((cfg0.win 4).blk tlast).view.emb y)
  rw [whole_blk4]

/-- So window 4's array ends at the running total after the last point. -/
theorem final4 (c : Dev nD) : (dat0 (F := Ideal) V c).arrAt 4 cfg0.N = (tot V c 19 tlast.isLt).1 :=
  (dat0 (F := Ideal) V c).arrAt_eq_of_cover 4 _ (flushed4_eq V c) fun i => ⟨tlast, (flush0_4 tlast).mpr rfl, by
    show i ∈ ((View.whole main_v16_1).slice (win0_4.rect tlast)).set
    rw [View.set_slice_whole, Rect.mem_set_unit]
    obtain ⟨-, -, -, -, -, -, -, -, e0, e1, -⟩ := idx_facts tlast
    have h0 : (i 0).val < 1 := (i 0).isLt
    have h1 : (i 1).val < 128 := (i 1).isLt
    intro a
    match a with
    | ⟨0, _⟩ => show win0_4.index tlast (0 : Fin 2) * 1 ≤ (i 0).val ∧ (i 0).val < win0_4.index tlast (0 : Fin 2) * 1 + 1; rw [e0]; omega
    | ⟨1, _⟩ => show win0_4.index tlast (1 : Fin 2) * 128 ≤ (i 1).val ∧ (i 1).val < win0_4.index tlast (1 : Fin 2) * 128 + 128; rw [e1]; omega⟩

/-- The one-row output window 5's block is the whole array at every point. -/
theorem whole_blk5 (t : Fin cfg0.N) (y : S1x128.Idx) : (((cfg0.win 5).blk t).view.emb y : S1x128.Idx) = y := by
  obtain ⟨-, -, -, -, -, -, -, -, -, -, e0, e1⟩ := idx_facts t
  funext a; apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- The one write-back of window 5, after the last point, writes the running total. -/
theorem flushed5_eq (c : Dev nD) (t : Fin cfg0.N) (hf : (cfg0.win 5).flush t = true) :
    (dat0 (F := Ideal) V c).flushed 5 t = ((cfg0.win 5).blk t).view.read (Elt Ideal) (tot V c 19 tlast.isLt).2 := by
  have hN : cfg0.N = 20 := N_0
  have h19 : t.val = 19 := by have := (flush0_5 t).mp hf; have := t.isLt; omega
  obtain rfl : t = tlast := Fin.ext h19
  show (cfg0.win 5).cut (grid0.coords tlast) ((dat0 V c).after 5 tlast) = _
  rw [after0_5, outsAt_eq]
  funext y
  show (tot V c 19 _).2 y = (tot V c 19 _).2 (((cfg0.win 5).blk tlast).view.emb y)
  rw [whole_blk5]

/-- So window 5's array ends at the running total after the last point. -/
theorem final5 (c : Dev nD) : (dat0 (F := Ideal) V c).arrAt 5 cfg0.N = (tot V c 19 tlast.isLt).2 :=
  (dat0 (F := Ideal) V c).arrAt_eq_of_cover 5 _ (flushed5_eq V c) fun i => ⟨tlast, (flush0_5 tlast).mpr rfl, by
    show i ∈ ((View.whole main_v16_2).slice (win0_5.rect tlast)).set
    rw [View.set_slice_whole, Rect.mem_set_unit]
    obtain ⟨-, -, -, -, -, -, -, -, -, -, e0, e1⟩ := idx_facts tlast
    have h0 : (i 0).val < 1 := (i 0).isLt
    have h1 : (i 1).val < 128 := (i 1).isLt
    intro a
    match a with
    | ⟨0, _⟩ => show win0_5.index tlast (0 : Fin 2) * 1 ≤ (i 0).val ∧ (i 0).val < win0_5.index tlast (0 : Fin 2) * 1 + 1; rw [e0]; omega
    | ⟨1, _⟩ => show win0_5.index tlast (1 : Fin 2) * 128 ≤ (i 1).val ∧ (i 1).val < win0_5.index tlast (1 : Fin 2) * 128 + 128; rw [e1]; omega⟩

/-- A row-block read at explicit coordinates: entry `(p, k)` of input block 0 at point `t` is the array's entry at row
    `5000 t + p`. -/
theorem blk_x_row (c : Dev nD) (t : Fin cfg0.N) (p : Fin 5000) (k : Fin 128) (hr : 5000 * t.val + p.val < 100000) :
    (iblk0 V c 0 t : Vec Ideal S5000x128 .f32) (ix2 p k)
      = (V c (Pipeline.arrRef spec0 0) : S100000x128.Idx → EReal) (ix2 ⟨5000 * t.val + p.val, hr⟩ k) := by
  obtain ⟨e00, e01, -⟩ := idx_facts t
  show (V c (Pipeline.arrRef spec0 0) : S100000x128.Idx → EReal) (((cfg0.win 0).blk t).view.emb (ix2 p k)) = _
  refine congrArg (V c (Pipeline.arrRef spec0 0) : S100000x128.Idx → EReal) ?_
  funext a; apply Fin.ext
  match a with
  | ⟨0, _⟩ => show win0_0.index t (0 : Fin 2) * 5000 + 1 * p.val = 5000 * t.val + p.val; rw [e00]; omega
  | ⟨1, _⟩ => show win0_0.index t (1 : Fin 2) * 128 + 1 * k.val = k.val; rw [e01]; omega

/-- The dense block of point `t` at `(p, q)` is the dense layer at row `5000 t + p`, column `q`. -/
theorem pay3_blk (c : Dev nD) (t : Fin cfg0.N) (p : Fin 5000) (q : Fin 128) (hr : 5000 * t.val + p.val < 100000) :
    k0_pay3 (F := Ideal) (iblk0 V c 0 t) (iblk0 V c 1 t) (iblk0 V c 2 t) (ix2 p q)
      = Glin0 (V c (Pipeline.arrRef spec0 0)) (V c (Pipeline.arrRef spec0 1)) (V c (Pipeline.arrRef spec0 2)) (ix2 ⟨5000 * t.val + p.val, hr⟩ q) :=
  lin_point (V c (Pipeline.arrRef spec0 0)) (V c (Pipeline.arrRef spec0 1)) (V c (Pipeline.arrRef spec0 2))
    (iblk0 V c 0 t) (iblk0 V c 1 t) (iblk0 V c 2 t) (ix2 p q) (ix2 ⟨5000 * t.val + p.val, hr⟩ q)
    (fun k => blk_x_row V c t p k hr) rfl (blk_w V c t) (blk_b V c t)

/-- THE FIRST TOTAL at column `q`: the zero word plus the sum of the dense layer's column `q` over all 100000 rows. -/
theorem final4_apply (c : Dev nD) (q : Fin 128) :
    ((dat0 (F := Ideal) V c).arrAt 4 cfg0.N : S1x128.Idx → EReal) (ix2 (0 : Fin 1) q)
      = Ideal.ofBits .f32 0x00000000#32 + ∑ r : Fin 100000,
          Glin0 (V c (Pipeline.arrRef spec0 0)) (V c (Pipeline.arrRef spec0 1)) (V c (Pipeline.arrRef spec0 2)) (ix2 r q) := by
  have hN : cfg0.N = 20 := N_0
  rw [final4]
  let G := Glin0 (V c (Pipeline.arrRef spec0 0)) (V c (Pipeline.arrRef spec0 1)) (V c (Pipeline.arrRef spec0 2))
  let g : ℕ → EReal := fun r => if h : r < 100000 then G (ix2 ⟨r, h⟩ q) else 0
  let acc : ℕ → EReal := fun n => if h : n < cfg0.N then (tot V c n h).1 (ix2 (0 : Fin 1) q) else 0
  have hblk : ∀ (n : ℕ) (h : n < cfg0.N),
      ∑ p : Fin 5000, k0_pay3 (F := Ideal) (iblk0 V c 0 ⟨n, h⟩) (iblk0 V c 1 ⟨n, h⟩) (iblk0 V c 2 ⟨n, h⟩) (ix2 p q)
        = ∑ p : Fin 5000, g (5000 * n + p.val) := fun n h =>
    Finset.sum_congr rfl fun p _ => by
      have hr : 5000 * n + p.val < 100000 := by have := p.isLt; omega
      rw [pay3_blk V c ⟨n, h⟩ p q hr]
      show _ = dite (5000 * n + p.val < 100000) _ _
      rw [dif_pos hr]
  have h0 : acc 0 = Ideal.ofBits .f32 0x00000000#32 + ∑ p : Fin 5000, g (5000 * 0 + p.val) := by
    have h : 0 < cfg0.N := by omega
    show (if h : 0 < cfg0.N then (tot V c 0 h).1 (ix2 (0 : Fin 1) q) else 0) = _
    rw [dif_pos h]
    show k0_pay4 (F := Ideal) _ _ _ (k0_pay1 (F := Ideal)) (ix2 (0 : Fin 1) q) = _
    rw [PayLin.pay4_apply, hblk 0 h]
    rfl
  have hs : ∀ n, n + 1 < 20 → acc (n + 1) = acc n + ∑ p : Fin 5000, g (5000 * (n + 1) + p.val) := fun n hn => by
    have h1 : n + 1 < cfg0.N := by omega
    have h2 : n < cfg0.N := by omega
    show (if h : n + 1 < cfg0.N then (tot V c (n + 1) h).1 (ix2 (0 : Fin 1) q) else 0)
      = (if h : n < cfg0.N then (tot V c n h).1 (ix2 (0 : Fin 1) q) else 0) + _
    rw [dif_pos h1, dif_pos h2]
    show k0_pay4 (F := Ideal) _ _ _ (tot V c n _).1 (ix2 (0 : Fin 1) q) = _
    rw [PayLin.pay4_apply, hblk (n + 1) h1]
  have key := ColumnSums.total_20x5000 (Ideal.ofBits .f32 0x00000000#32) g acc h0 hs
  have h19 : (19 : ℕ) < cfg0.N := by omega
  have e19 : acc 19 = (tot V c 19 tlast.isLt).1 (ix2 (0 : Fin 1) q) := dif_pos h19
  rw [← e19, key]
  exact congrArg (Ideal.ofBits .f32 0x00000000#32 + ·) (Finset.sum_congr rfl fun r _ => dif_pos r.isLt)

/-- THE SECOND TOTAL at column `q`: the zero word plus the sum of the squares of the dense layer's column `q`. -/
theorem final5_apply (c : Dev nD) (q : Fin 128) :
    ((dat0 (F := Ideal) V c).arrAt 5 cfg0.N : S1x128.Idx → EReal) (ix2 (0 : Fin 1) q)
      = Ideal.ofBits .f32 0x00000000#32 + ∑ r : Fin 100000,
          Glin0 (V c (Pipeline.arrRef spec0 0)) (V c (Pipeline.arrRef spec0 1)) (V c (Pipeline.arrRef spec0 2)) (ix2 r q)
          * Glin0 (V c (Pipeline.arrRef spec0 0)) (V c (Pipeline.arrRef spec0 1)) (V c (Pipeline.arrRef spec0 2)) (ix2 r q) := by
  have hN : cfg0.N = 20 := N_0
  rw [final5]
  let G := Glin0 (V c (Pipeline.arrRef spec0 0)) (V c (Pipeline.arrRef spec0 1)) (V c (Pipeline.arrRef spec0 2))
  let g : ℕ → EReal := fun r => if h : r < 100000 then G (ix2 ⟨r, h⟩ q) * G (ix2 ⟨r, h⟩ q) else 0
  let acc : ℕ → EReal := fun n => if h : n < cfg0.N then (tot V c n h).2 (ix2 (0 : Fin 1) q) else 0
  have hblk : ∀ (n : ℕ) (h : n < cfg0.N),
      ∑ p : Fin 5000, k0_pay3 (F := Ideal) (iblk0 V c 0 ⟨n, h⟩) (iblk0 V c 1 ⟨n, h⟩) (iblk0 V c 2 ⟨n, h⟩) (ix2 p q)
          * k0_pay3 (F := Ideal) (iblk0 V c 0 ⟨n, h⟩) (iblk0 V c 1 ⟨n, h⟩) (iblk0 V c 2 ⟨n, h⟩) (ix2 p q)
        = ∑ p : Fin 5000, g (5000 * n + p.val) := fun n h =>
    Finset.sum_congr rfl fun p _ => by
      have hr : 5000 * n + p.val < 100000 := by have := p.isLt; omega
      rw [pay3_blk V c ⟨n, h⟩ p q hr]
      show _ = dite (5000 * n + p.val < 100000) _ _
      rw [dif_pos hr]
  have h0 : acc 0 = Ideal.ofBits .f32 0x00000000#32 + ∑ p : Fin 5000, g (5000 * 0 + p.val) := by
    have h : 0 < cfg0.N := by omega
    show (if h : 0 < cfg0.N then (tot V c 0 h).2 (ix2 (0 : Fin 1) q) else 0) = _
    rw [dif_pos h]
    show k0_pay5 (F := Ideal) _ _ _ (k0_pay2 (F := Ideal)) (ix2 (0 : Fin 1) q) = _
    rw [PayLin.pay5_apply, hblk 0 h]
    rfl
  have hs : ∀ n, n + 1 < 20 → acc (n + 1) = acc n + ∑ p : Fin 5000, g (5000 * (n + 1) + p.val) := fun n hn => by
    have h1 : n + 1 < cfg0.N := by omega
    have h2 : n < cfg0.N := by omega
    show (if h : n + 1 < cfg0.N then (tot V c (n + 1) h).2 (ix2 (0 : Fin 1) q) else 0)
      = (if h : n < cfg0.N then (tot V c n h).2 (ix2 (0 : Fin 1) q) else 0) + _
    rw [dif_pos h1, dif_pos h2]
    show k0_pay5 (F := Ideal) _ _ _ (tot V c n _).2 (ix2 (0 : Fin 1) q) = _
    rw [PayLin.pay5_apply, hblk (n + 1) h1]
  have key := ColumnSums.total_20x5000 (Ideal.ofBits .f32 0x00000000#32) g acc h0 hs
  have h19 : (19 : ℕ) < cfg0.N := by omega
  have e19 : acc 19 = (tot V c 19 tlast.isLt).2 (ix2 (0 : Fin 1) q) := dif_pos h19
  rw [← e19, key]
  exact congrArg (Ideal.ofBits .f32 0x00000000#32 + ·) (Finset.sum_congr rfl fun r _ => dif_pos r.isLt)

end

end Cert.KernelIdeal.Lin0

end
-- ==== Proof.RegionLin3.lean ====
/-
  What the second dense kernel leaves in its three output arrays.

  The kernel streams the 100000 rows of `X` in 20 blocks of 5000. At every point it writes the block
  `y = x · W + b` of the dense layer, so the dense output ends as the dense layer of the whole arrays. Its two
  one-row outputs are running totals written back after the last point only: at the first point the body stores a
  zero row, reads it back and adds the block's column sums of `y` (of `y²`); at each later point it adds the block's
  sums to what the point before left. Over the extended reals addition is associative and commutative, so the totals
  end at the zero word plus the sums over all 100000 rows.
-/
import proofs.«150060_j45646912422072_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«150060_j45646912422072_1_alg».proof.Proof.PayLin
import proofs.«150060_j45646912422072_1_alg».proof.Proof.ColumnSums

set_option maxRecDepth 16384

noncomputable section

open Idealize.ShloMosaic Idealize.ShloMosaic.TcCoe Idealize.SL.Sem
open Idealize.ShloMosaic.Pipeline (Dat)

namespace Cert.KernelIdeal.Lin3

open Cert.KernelIdeal Cert.KernelIdeal.Gen

section
variable {F : FTy → Type} [FloatOps F]

theorem hz : (![0, 0] : Fin 2 → Nat) = fun _ => 0 := funext fun a => by fin_cases a <;> rfl

/-- At the first point the block written is the dense block of the point's inputs. -/
theorem outA3 (c : Dev nD) (i : grid3.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond3_0 i) (x0 : Vec F S5000x128 .f32) (x1 : Vec F S128x128 .f32) (x2 : Vec F S1x128 .f32) :
    out3_A_3 c i a1 h1 a2 h2 a3 h3 a4 h4 a5 h5 a6 h6 hc x0 x1 x2 = k3_pay3 x0 x1 x2 := by
  unfold out3_A_3
  rw [View.read_writes_eq_canon _ _ _ (cover3_A_3 c i a1 h1 a2 h2 a3 h3 a4 h4 a5 h5 a6 h6 hc x0 x1 x2)]
  unfold kernelRun3_A
  dsimp only
  rw [View.canon_unit_zero hz]
  simp only [View.readAt_eq_ld, h1.read_unread, h2.read_unread, h3.read_unread, View.ld_unit_zero (S := S5000x128) hz, View.ld_unit_zero (S := S128x128) hz, View.ld_unit_zero (S := S1x128) hz]

/-- At the first point the first running total is the zero row plus the block's column sums: the body stores the zero
    row and reads it back before adding. -/
theorem outA4 (c : Dev nD) (i : grid3.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond3_0 i) (x0 : Vec F S5000x128 .f32) (x1 : Vec F S128x128 .f32) (x2 : Vec F S1x128 .f32) :
    out3_A_4 c i a1 h1 a2 h2 a3 h3 a4 h4 a5 h5 a6 h6 hc x0 x1 x2 = k3_pay4 x0 x1 x2 k3_pay1 := by
  unfold out3_A_4
  rw [View.read_writes_eq_canon _ _ _ (cover3_A_4 c i a1 h1 a2 h2 a3 h3 a4 h4 a5 h5 a6 h6 hc x0 x1 x2)]
  unfold kernelRun3_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S5000x128) hz, View.ld_unit_zero (S := S128x128) hz, View.ld_unit_zero (S := S1x128) hz]

/-- At the first point the second running total is the zero row plus the column sums of the block's squares. -/
theorem outA5 (c : Dev nD) (i : grid3.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond3_0 i) (x0 : Vec F S5000x128 .f32) (x1 : Vec F S128x128 .f32) (x2 : Vec F S1x128 .f32) :
    out3_A_5 c i a1 h1 a2 h2 a3 h3 a4 h4 a5 h5 a6 h6 hc x0 x1 x2 = k3_pay5 x0 x1 x2 k3_pay2 := by
  unfold out3_A_5
  rw [View.read_writes_eq_canon _ _ _ (cover3_A_5 c i a1 h1 a2 h2 a3 h3 a4 h4 a5 h5 a6 h6 hc x0 x1 x2)]
  unfold kernelRun3_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S5000x128) hz, View.ld_unit_zero (S := S128x128) hz, View.ld_unit_zero (S := S1x128) hz]

/-- At a later point the block written is again the dense block of the point's inputs. -/
theorem outB3 (c : Dev nD) (i : grid3.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond3_0 i) (x0 : Vec F S5000x128 .f32) (x1 : Vec F S128x128 .f32) (x2 : Vec F S1x128 .f32) (xo4 xo5 : Vec F S1x128 .f32) :
    out3_B_3 c i a1 h1 a2 h2 a3 h3 a4 h4 a5 h5 a6 h6 hc x0 x1 x2 xo4 xo5 = k3_pay3 x0 x1 x2 := by
  unfold out3_B_3
  rw [View.read_writes_eq_canon _ _ _ (cover3_B_3 c i a1 h1 a2 h2 a3 h3 a4 h4 a5 h5 a6 h6 hc x0 x1 x2 xo4 xo5)]
  unfold kernelRun3_B
  dsimp only
  rw [View.canon_unit_zero hz]
  simp only [View.readAt_eq_ld, h1.read_unread, h2.read_unread, h3.read_unread, View.ld_unit_zero (S := S5000x128) hz, View.ld_unit_zero (S := S128x128) hz, View.ld_unit_zero (S := S1x128) hz]

/-- At a later point the first running total is the total found plus the block's column sums. -/
theorem outB4 (c : Dev nD) (i : grid3.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond3_0 i) (x0 : Vec F S5000x128 .f32) (x1 : Vec F S128x128 .f32) (x2 : Vec F S1x128 .f32) (xo4 xo5 : Vec F S1x128 .f32) :
    out3_B_4 c i a1 h1 a2 h2 a3 h3 a4 h4 a5 h5 a6 h6 hc x0 x1 x2 xo4 xo5 = k3_pay4 x0 x1 x2 xo4 := by
  unfold out3_B_4
  rw [View.read_writes_eq_canon _ _ _ (cover3_B_4 c i a1 h1 a2 h2 a3 h3 a4 h4 a5 h5 a6 h6 hc x0 x1 x2 xo4 xo5)]
  unfold kernelRun3_B
  dsimp only
  rw [View.canon_unit_zero hz]
  simp only [View.readAt_eq_ld, h1.read_unread, h2.read_unread, h3.read_unread, View.ld_unit_zero (S := S5000x128) hz, View.ld_unit_zero (S := S128x128) hz, View.ld_unit_zero (S := S1x128) hz, h5.read_unread, h6.read_unread]

/-- At a later point the second running total is the total found plus the column sums of the block's squares. -/
theorem outB5 (c : Dev nD) (i : grid3.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond3_0 i) (x0 : Vec F S5000x128 .f32) (x1 : Vec F S128x128 .f32) (x2 : Vec F S1x128 .f32) (xo4 xo5 : Vec F S1x128 .f32) :
    out3_B_5 c i a1 h1 a2 h2 a3 h3 a4 h4 a5 h5 a6 h6 hc x0 x1 x2 xo4 xo5 = k3_pay5 x0 x1 x2 xo5 := by
  unfold out3_B_5
  rw [View.read_writes_eq_canon _ _ _ (cover3_B_5 c i a1 h1 a2 h2 a3 h3 a4 h4 a5 h5 a6 h6 hc x0 x1 x2 xo4 xo5)]
  unfold kernelRun3_B
  dsimp only
  rw [View.canon_unit_zero hz]
  simp only [View.readAt_eq_ld, h1.read_unread, h2.read_unread, h3.read_unread, View.ld_unit_zero (S := S5000x128) hz, View.ld_unit_zero (S := S128x128) hz, View.ld_unit_zero (S := S1x128) hz, h5.read_unread, h6.read_unread]

end

open Idealize.ShloMosaic.ValueIdx

/-- The dense layer as one function of its three arrays: row `r`, column `q` is `(∑ k, X r k · W k q) + B 0 q`. -/
def Glin3 (X : S100000x128.Idx → EReal) (W : S128x128.Idx → EReal) (B : S1x128.Idx → EReal) : S100000x128.Idx → EReal :=
  fun i => (∑ k : Fin 128, X (ix2 (i 0) k) * W (ix2 k (i 1))) + B (ix2 (0 : Fin 1) (i 1))

/-- The printed index maps over the grid: the two row-block windows sit at block `(t, 0)` at point `t`, every other
    window at block `(0, 0)`. -/
theorem idx_facts : ∀ t : Fin cfg3.N,
    win3_0.index t (0 : Fin 2) = t.val ∧ win3_0.index t (1 : Fin 2) = 0
    ∧ win3_3.index t (0 : Fin 2) = t.val ∧ win3_3.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

section
variable (V : (c : Dev nD) → (b : Ref sig .tc) → Buf (Elt Ideal) ((c : Thread nD τ).loc b))

/-- The running totals after point `n`: at the first point the zero row plus the block's column sums, then each
    point's sums added to what the point before left. -/
def tot (c : Dev nD) : (n : ℕ) → n < cfg3.N → Vec Ideal S1x128 .f32 × Vec Ideal S1x128 .f32
  | 0, h => (k3_pay4 (iblk3 V c 0 ⟨0, h⟩) (iblk3 V c 1 ⟨0, h⟩) (iblk3 V c 2 ⟨0, h⟩) (k3_pay1 (F := Ideal)),
             k3_pay5 (iblk3 V c 0 ⟨0, h⟩) (iblk3 V c 1 ⟨0, h⟩) (iblk3 V c 2 ⟨0, h⟩) (k3_pay2 (F := Ideal)))
  | n + 1, h => (k3_pay4 (iblk3 V c 0 ⟨n + 1, h⟩) (iblk3 V c 1 ⟨n + 1, h⟩) (iblk3 V c 2 ⟨n + 1, h⟩) (tot c n (Nat.lt_of_succ_lt h)).1,
                 k3_pay5 (iblk3 V c 0 ⟨n + 1, h⟩) (iblk3 V c 1 ⟨n + 1, h⟩) (iblk3 V c 2 ⟨n + 1, h⟩) (tot c n (Nat.lt_of_succ_lt h)).2)

/-- What the three output buffers hold after point `n`: the point's dense block and the two running totals — by
    induction on the point. -/
theorem outsAt_eq (c : Dev nD) : ∀ (n : ℕ) (h : n < cfg3.N),
    outsAt3 V c n h = (k3_pay3 (iblk3 V c 0 ⟨n, h⟩) (iblk3 V c 1 ⟨n, h⟩) (iblk3 V c 2 ⟨n, h⟩), (tot V c n h).1, (tot V c n h).2)
  | 0, h => by
    rw [outsAt3_A V c ⟨0, h⟩ rfl, outA3, outA4, outA5]
    rfl
  | n + 1, h => by
    have hN : cfg3.N = 20 := N_3
    have hB : ¬(⟨n + 1, h⟩ : Fin cfg3.N).val % 20 = 0 := by dsimp only; omega
    rw [outsAt3_B V c ⟨n + 1, h⟩ hB, outB3, outB4, outB5]
    show (_, k3_pay4 _ _ _ (outsAt3 V c n _).2.1, k3_pay5 _ _ _ (outsAt3 V c n _).2.2) = _
    rw [outsAt_eq c n]
    rfl

/-- A row-block read: entry `(p, k)` of input block 0 at point `t` is the array's entry at row `5000 t + p`, the row of
    the output block's entry `j` when `p = j 0`. -/
theorem blk_x (c : Dev nD) (t : Fin cfg3.N) (j : S5000x128.Idx) (k : Fin 128) :
    (iblk3 V c 0 t : Vec Ideal S5000x128 .f32) (ix2 (j 0) k)
      = (V c (Pipeline.arrRef spec3 0) : S100000x128.Idx → EReal) (ix2 ((((cfg3.win 3).blk t).view.emb j : S100000x128.Idx) 0) k) := by
  obtain ⟨e00, e01, e30, e31, -⟩ := idx_facts t
  show (V c (Pipeline.arrRef spec3 0) : S100000x128.Idx → EReal) (((cfg3.win 0).blk t).view.emb (ix2 (j 0) k)) = _
  refine congrArg (V c (Pipeline.arrRef spec3 0) : S100000x128.Idx → EReal) ?_
  funext a; apply Fin.ext
  match a with
  | ⟨0, _⟩ => show win3_0.index t (0 : Fin 2) * 5000 + 1 * (j 0).val = win3_3.index t (0 : Fin 2) * 5000 + 1 * (j 0).val; rw [e00, e30]
  | ⟨1, _⟩ => show win3_0.index t (1 : Fin 2) * 128 + 1 * k.val = k.val; rw [e01]; omega

/-- The output block's entry `j` sits in column `j 1` of the array. -/
theorem col3 (t : Fin cfg3.N) (j : S5000x128.Idx) :
    ((((cfg3.win 3).blk t).view.emb j : S100000x128.Idx) 1 : Fin 128) = j 1 := by
  obtain ⟨-, -, -, e31, -⟩ := idx_facts t
  apply Fin.ext
  show win3_3.index t (1 : Fin 2) * 128 + 1 * (j 1).val = (j 1).val
  rw [e31]; omega

/-- The matrix window's block is its whole array at every point. -/
theorem blk_w (c : Dev nD) (t : Fin cfg3.N) :
    (iblk3 V c 1 t : Vec Ideal S128x128 .f32) = (V c (Pipeline.arrRef spec3 1) : S128x128.Idx → EReal) := by
  obtain ⟨-, -, -, -, e0, e1, -⟩ := idx_facts t
  funext y
  show (V c (Pipeline.arrRef spec3 1) : S128x128.Idx → EReal) (((cfg3.win 1).blk t).view.emb y) = _
  refine congrArg (V c (Pipeline.arrRef spec3 1) : S128x128.Idx → EReal) ?_
  funext a; apply Fin.ext
  match a with
  | ⟨0, _⟩ => show win3_1.index t (0 : Fin 2) * 128 + 1 * (y 0).val = (y 0).val; rw [e0]; omega
  | ⟨1, _⟩ => show win3_1.index t (1 : Fin 2) * 128 + 1 * (y 1).val = (y 1).val; rw [e1]; omega

/-- The bias window's block is its whole array at every point. -/
theorem blk_b (c : Dev nD) (t : Fin cfg3.N) :
    (iblk3 V c 2 t : Vec Ideal S1x128 .f32) = (V c (Pipeline.arrRef spec3 2) : S1x128.Idx → EReal) := by
  obtain ⟨-, -, -, -, -, -, e0, e1, -⟩ := idx_facts t
  funext y
  show (V c (Pipeline.arrRef spec3 2) : S1x128.Idx → EReal) (((cfg3.win 2).blk t).view.emb y) = _
  refine congrArg (V c (Pipeline.arrRef spec3 2) : S1x128.Idx → EReal) ?_
  funext a; apply Fin.ext
  match a with
  | ⟨0, _⟩ => show win3_2.index t (0 : Fin 2) * 1 + 1 * (y 0).val = (y 0).val; rw [e0]; omega
  | ⟨1, _⟩ => show win3_2.index t (1 : Fin 2) * 128 + 1 * (y 1).val = (y 1).val; rw [e1]; omega

/-- The dense block at a block index is the dense layer at the array index, once the blocks are read where the arrays
    are. -/
theorem lin_point (X : S100000x128.Idx → EReal) (W : S128x128.Idx → EReal) (B : S1x128.Idx → EReal)
    (x0 : Vec Ideal S5000x128 .f32) (x1 : Vec Ideal S128x128 .f32) (x2 : Vec Ideal S1x128 .f32)
    (j : S5000x128.Idx) (i : S100000x128.Idx)
    (hX : ∀ k : Fin 128, x0 (ix2 (j 0) k) = X (ix2 (i 0) k)) (hq : (i 1 : Fin 128) = j 1) (h1 : x1 = W) (h2 : x2 = B) :
    k3_pay3 (F := Ideal) x0 x1 x2 j = Glin3 X W B i := by
  subst h1 h2
  obtain ⟨p, q, rfl⟩ : ∃ (p : Fin 5000) (q : Fin 128), j = ix2 p q := ⟨j 0, j 1, eq_ix2 j⟩
  rw [PayLin.pay3'_apply]
  unfold Glin3
  rw [hq]
  exact congrArg (· + x2 (ix2 (0 : Fin 1) q)) (Finset.sum_congr rfl fun k _ => by rw [hX k])

/-- What point `t` writes back to the dense output is block `t` of the dense layer of the arrays the region finds. -/
theorem flushed3_eq (c : Dev nD) (t : Fin cfg3.N) :
    (dat3 (F := Ideal) V c).flushed 3 t = ((cfg3.win 3).blk t).view.read (Elt Ideal)
      (Glin3 (V c (Pipeline.arrRef spec3 0)) (V c (Pipeline.arrRef spec3 1)) (V c (Pipeline.arrRef spec3 2))) := by
  show (cfg3.win 3).cut (grid3.coords t) ((dat3 V c).after 3 t) = _
  rw [after3_3, outsAt_eq]
  funext j
  exact lin_point (V c (Pipeline.arrRef spec3 0)) (V c (Pipeline.arrRef spec3 1)) (V c (Pipeline.arrRef spec3 2))
    (iblk3 V c 0 t) (iblk3 V c 1 t) (iblk3 V c 2 t) j (((cfg3.win 3).blk t).view.emb j)
    (fun k => blk_x V c t j k) (col3 t j) (blk_w V c t) (blk_b V c t)

theorem mem_blk3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v44_0).slice (win3_3.rect t)).set ↔ _
  rw [View.set_slice_whole, Rect.mem_set_unit]
  exact Iff.rfl

/-- Row `r` lies in the block of point `r / 5000`, and every point writes the dense output back. -/
theorem cover3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 20 := N_3
  refine ⟨⟨(i 0).val / 5000, by rw [hN]; omega⟩, flush3_3 _, ?_⟩
  obtain ⟨-, -, e30, e31, -⟩ := idx_facts ⟨(i 0).val / 5000, by rw [hN]; omega⟩
  rw [mem_blk3]
  intro a
  match a with
  | ⟨0, _⟩ =>
    show win3_3.index _ (0 : Fin 2) * 5000 ≤ (i 0).val ∧ (i 0).val < win3_3.index _ (0 : Fin 2) * 5000 + 5000
    rw [e30]; show (i 0).val / 5000 * 5000 ≤ (i 0).val ∧ (i 0).val < (i 0).val / 5000 * 5000 + 5000; omega
  | ⟨1, _⟩ =>
    show win3_3.index _ (1 : Fin 2) * 128 ≤ (i 1).val ∧ (i 1).val < win3_3.index _ (1 : Fin 2) * 128 + 128
    rw [e31]; omega

/-- THE DENSE OUTPUT after the region: the dense layer of the three arrays the region finds, at every index. -/
theorem final3 (c : Dev nD) :
    (dat3 (F := Ideal) V c).arrAt 3 cfg3.N
      = Glin3 (V c (Pipeline.arrRef spec3 0)) (V c (Pipeline.arrRef spec3 1)) (V c (Pipeline.arrRef spec3 2)) :=
  (dat3 (F := Ideal) V c).arrAt_eq_of_cover 3 _ (fun t _ => flushed3_eq V c t) cover3

end

section
variable (V : (c : Dev nD) → (b : Ref sig .tc) → Buf (Elt Ideal) ((c : Thread nD τ).loc b))

/-- The last point of the grid. -/
abbrev tlast : Fin cfg3.N := ⟨19, by rw [show cfg3.N = 20 from N_3]; decide⟩

/-- The one-row output window 4's block is the whole array at every point. -/
theorem whole_blk4 (t : Fin cfg3.N) (y : S1x128.Idx) : (((cfg3.win 4).blk t).view.emb y : S1x128.Idx) = y := by
  obtain ⟨-, -, -, -, -, -, -, -, e0, e1, -⟩ := idx_facts t
  funext a; apply Fin.ext
  match a with
  | ⟨0, _⟩ => show win3_4.index t (0 : Fin 2) * 1 + 1 * (y 0).val = (y 0).val; rw [e0]; omega
  | ⟨1, _⟩ => show win3_4.index t (1 : Fin 2) * 128 + 1 * (y 1).val = (y 1).val; rw [e1]; omega

/-- The one write-back of window 4, after the last point, writes the running total. -/
theorem flushed4_eq (c : Dev nD) (t : Fin cfg3.N) (hf : (cfg3.win 4).flush t = true) :
    (dat3 (F := Ideal) V c).flushed 4 t = ((cfg3.win 4).blk t).view.read (Elt Ideal) (tot V c 19 tlast.isLt).1 := by
  have hN : cfg3.N = 20 := N_3
  have h19 : t.val = 19 := by have := (flush3_4 t).mp hf; have := t.isLt; omega
  obtain rfl : t = tlast := Fin.ext h19
  show (cfg3.win 4).cut (grid3.coords tlast) ((dat3 V c).after 4 tlast) = _
  rw [after3_4, outsAt_eq]
  funext y
  show (tot V c 19 _).1 y = (tot V c 19 _).1 (((cfg3.win 4).blk tlast).view.emb y)
  rw [whole_blk4]

/-- So window 4's array ends at the running total after the last point. -/
theorem final4 (c : Dev nD) : (dat3 (F := Ideal) V c).arrAt 4 cfg3.N = (tot V c 19 tlast.isLt).1 :=
  (dat3 (F := Ideal) V c).arrAt_eq_of_cover 4 _ (flushed4_eq V c) fun i => ⟨tlast, (flush3_4 tlast).mpr rfl, by
    show i ∈ ((View.whole main_v44_1).slice (win3_4.rect tlast)).set
    rw [View.set_slice_whole, Rect.mem_set_unit]
    obtain ⟨-, -, -, -, -, -, -, -, e0, e1, -⟩ := idx_facts tlast
    have h0 : (i 0).val < 1 := (i 0).isLt
    have h1 : (i 1).val < 128 := (i 1).isLt
    intro a
    match a with
    | ⟨0, _⟩ => show win3_4.index tlast (0 : Fin 2) * 1 ≤ (i 0).val ∧ (i 0).val < win3_4.index tlast (0 : Fin 2) * 1 + 1; rw [e0]; omega
    | ⟨1, _⟩ => show win3_4.index tlast (1 : Fin 2) * 128 ≤ (i 1).val ∧ (i 1).val < win3_4.index tlast (1 : Fin 2) * 128 + 128; rw [e1]; omega⟩

/-- The one-row output window 5's block is the whole array at every point. -/
theorem whole_blk5 (t : Fin cfg3.N) (y : S1x128.Idx) : (((cfg3.win 5).blk t).view.emb y : S1x128.Idx) = y := by
  obtain ⟨-, -, -, -, -, -, -, -, -, -, e0, e1⟩ := idx_facts t
  funext a; apply Fin.ext
  match a with
  | ⟨0, _⟩ => show win3_5.index t (0 : Fin 2) * 1 + 1 * (y 0).val = (y 0).val; rw [e0]; omega
  | ⟨1, _⟩ => show win3_5.index t (1 : Fin 2) * 128 + 1 * (y 1).val = (y 1).val; rw [e1]; omega

/-- The one write-back of window 5, after the last point, writes the running total. -/
theorem flushed5_eq (c : Dev nD) (t : Fin cfg3.N) (hf : (cfg3.win 5).flush t = true) :
    (dat3 (F := Ideal) V c).flushed 5 t = ((cfg3.win 5).blk t).view.read (Elt Ideal) (tot V c 19 tlast.isLt).2 := by
  have hN : cfg3.N = 20 := N_3
  have h19 : t.val = 19 := by have := (flush3_5 t).mp hf; have := t.isLt; omega
  obtain rfl : t = tlast := Fin.ext h19
  show (cfg3.win 5).cut (grid3.coords tlast) ((dat3 V c).after 5 tlast) = _
  rw [after3_5, outsAt_eq]
  funext y
  show (tot V c 19 _).2 y = (tot V c 19 _).2 (((cfg3.win 5).blk tlast).view.emb y)
  rw [whole_blk5]

/-- So window 5's array ends at the running total after the last point. -/
theorem final5 (c : Dev nD) : (dat3 (F := Ideal) V c).arrAt 5 cfg3.N = (tot V c 19 tlast.isLt).2 :=
  (dat3 (F := Ideal) V c).arrAt_eq_of_cover 5 _ (flushed5_eq V c) fun i => ⟨tlast, (flush3_5 tlast).mpr rfl, by
    show i ∈ ((View.whole main_v44_2).slice (win3_5.rect tlast)).set
    rw [View.set_slice_whole, Rect.mem_set_unit]
    obtain ⟨-, -, -, -, -, -, -, -, -, -, e0, e1⟩ := idx_facts tlast
    have h0 : (i 0).val < 1 := (i 0).isLt
    have h1 : (i 1).val < 128 := (i 1).isLt
    intro a
    match a with
    | ⟨0, _⟩ => show win3_5.index tlast (0 : Fin 2) * 1 ≤ (i 0).val ∧ (i 0).val < win3_5.index tlast (0 : Fin 2) * 1 + 1; rw [e0]; omega
    | ⟨1, _⟩ => show win3_5.index tlast (1 : Fin 2) * 128 ≤ (i 1).val ∧ (i 1).val < win3_5.index tlast (1 : Fin 2) * 128 + 128; rw [e1]; omega⟩

/-- A row-block read at explicit coordinates: entry `(p, k)` of input block 0 at point `t` is the array's entry at row
    `5000 t + p`. -/
theorem blk_x_row (c : Dev nD) (t : Fin cfg3.N) (p : Fin 5000) (k : Fin 128) (hr : 5000 * t.val + p.val < 100000) :
    (iblk3 V c 0 t : Vec Ideal S5000x128 .f32) (ix2 p k)
      = (V c (Pipeline.arrRef spec3 0) : S100000x128.Idx → EReal) (ix2 ⟨5000 * t.val + p.val, hr⟩ k) := by
  obtain ⟨e00, e01, -⟩ := idx_facts t
  show (V c (Pipeline.arrRef spec3 0) : S100000x128.Idx → EReal) (((cfg3.win 0).blk t).view.emb (ix2 p k)) = _
  refine congrArg (V c (Pipeline.arrRef spec3 0) : S100000x128.Idx → EReal) ?_
  funext a; apply Fin.ext
  match a with
  | ⟨0, _⟩ => show win3_0.index t (0 : Fin 2) * 5000 + 1 * p.val = 5000 * t.val + p.val; rw [e00]; omega
  | ⟨1, _⟩ => show win3_0.index t (1 : Fin 2) * 128 + 1 * k.val = k.val; rw [e01]; omega

/-- The dense block of point `t` at `(p, q)` is the dense layer at row `5000 t + p`, column `q`. -/
theorem pay3_blk (c : Dev nD) (t : Fin cfg3.N) (p : Fin 5000) (q : Fin 128) (hr : 5000 * t.val + p.val < 100000) :
    k3_pay3 (F := Ideal) (iblk3 V c 0 t) (iblk3 V c 1 t) (iblk3 V c 2 t) (ix2 p q)
      = Glin3 (V c (Pipeline.arrRef spec3 0)) (V c (Pipeline.arrRef spec3 1)) (V c (Pipeline.arrRef spec3 2)) (ix2 ⟨5000 * t.val + p.val, hr⟩ q) :=
  lin_point (V c (Pipeline.arrRef spec3 0)) (V c (Pipeline.arrRef spec3 1)) (V c (Pipeline.arrRef spec3 2))
    (iblk3 V c 0 t) (iblk3 V c 1 t) (iblk3 V c 2 t) (ix2 p q) (ix2 ⟨5000 * t.val + p.val, hr⟩ q)
    (fun k => blk_x_row V c t p k hr) rfl (blk_w V c t) (blk_b V c t)

/-- THE FIRST TOTAL at column `q`: the zero word plus the sum of the dense layer's column `q` over all 100000 rows. -/
theorem final4_apply (c : Dev nD) (q : Fin 128) :
    ((dat3 (F := Ideal) V c).arrAt 4 cfg3.N : S1x128.Idx → EReal) (ix2 (0 : Fin 1) q)
      = Ideal.ofBits .f32 0x00000000#32 + ∑ r : Fin 100000,
          Glin3 (V c (Pipeline.arrRef spec3 0)) (V c (Pipeline.arrRef spec3 1)) (V c (Pipeline.arrRef spec3 2)) (ix2 r q) := by
  have hN : cfg3.N = 20 := N_3
  rw [final4]
  let G := Glin3 (V c (Pipeline.arrRef spec3 0)) (V c (Pipeline.arrRef spec3 1)) (V c (Pipeline.arrRef spec3 2))
  let g : ℕ → EReal := fun r => if h : r < 100000 then G (ix2 ⟨r, h⟩ q) else 0
  let acc : ℕ → EReal := fun n => if h : n < cfg3.N then (tot V c n h).1 (ix2 (0 : Fin 1) q) else 0
  have hblk : ∀ (n : ℕ) (h : n < cfg3.N),
      ∑ p : Fin 5000, k3_pay3 (F := Ideal) (iblk3 V c 0 ⟨n, h⟩) (iblk3 V c 1 ⟨n, h⟩) (iblk3 V c 2 ⟨n, h⟩) (ix2 p q)
        = ∑ p : Fin 5000, g (5000 * n + p.val) := fun n h =>
    Finset.sum_congr rfl fun p _ => by
      have hr : 5000 * n + p.val < 100000 := by have := p.isLt; omega
      rw [pay3_blk V c ⟨n, h⟩ p q hr]
      show _ = dite (5000 * n + p.val < 100000) _ _
      rw [dif_pos hr]
  have h0 : acc 0 = Ideal.ofBits .f32 0x00000000#32 + ∑ p : Fin 5000, g (5000 * 0 + p.val) := by
    have h : 0 < cfg3.N := by omega
    show (if h : 0 < cfg3.N then (tot V c 0 h).1 (ix2 (0 : Fin 1) q) else 0) = _
    rw [dif_pos h]
    show k3_pay4 (F := Ideal) _ _ _ (k3_pay1 (F := Ideal)) (ix2 (0 : Fin 1) q) = _
    rw [PayLin.pay4'_apply, hblk 0 h]
    rfl
  have hs : ∀ n, n + 1 < 20 → acc (n + 1) = acc n + ∑ p : Fin 5000, g (5000 * (n + 1) + p.val) := fun n hn => by
    have h1 : n + 1 < cfg3.N := by omega
    have h2 : n < cfg3.N := by omega
    show (if h : n + 1 < cfg3.N then (tot V c (n + 1) h).1 (ix2 (0 : Fin 1) q) else 0)
      = (if h : n < cfg3.N then (tot V c n h).1 (ix2 (0 : Fin 1) q) else 0) + _
    rw [dif_pos h1, dif_pos h2]
    show k3_pay4 (F := Ideal) _ _ _ (tot V c n _).1 (ix2 (0 : Fin 1) q) = _
    rw [PayLin.pay4'_apply, hblk (n + 1) h1]
  have key := ColumnSums.total_20x5000 (Ideal.ofBits .f32 0x00000000#32) g acc h0 hs
  have h19 : (19 : ℕ) < cfg3.N := by omega
  have e19 : acc 19 = (tot V c 19 tlast.isLt).1 (ix2 (0 : Fin 1) q) := dif_pos h19
  rw [← e19, key]
  exact congrArg (Ideal.ofBits .f32 0x00000000#32 + ·) (Finset.sum_congr rfl fun r _ => dif_pos r.isLt)

/-- THE SECOND TOTAL at column `q`: the zero word plus the sum of the squares of the dense layer's column `q`. -/
theorem final5_apply (c : Dev nD) (q : Fin 128) :
    ((dat3 (F := Ideal) V c).arrAt 5 cfg3.N : S1x128.Idx → EReal) (ix2 (0 : Fin 1) q)
      = Ideal.ofBits .f32 0x00000000#32 + ∑ r : Fin 100000,
          Glin3 (V c (Pipeline.arrRef spec3 0)) (V c (Pipeline.arrRef spec3 1)) (V c (Pipeline.arrRef spec3 2)) (ix2 r q)
          * Glin3 (V c (Pipeline.arrRef spec3 0)) (V c (Pipeline.arrRef spec3 1)) (V c (Pipeline.arrRef spec3 2)) (ix2 r q) := by
  have hN : cfg3.N = 20 := N_3
  rw [final5]
  let G := Glin3 (V c (Pipeline.arrRef spec3 0)) (V c (Pipeline.arrRef spec3 1)) (V c (Pipeline.arrRef spec3 2))
  let g : ℕ → EReal := fun r => if h : r < 100000 then G (ix2 ⟨r, h⟩ q) * G (ix2 ⟨r, h⟩ q) else 0
  let acc : ℕ → EReal := fun n => if h : n < cfg3.N then (tot V c n h).2 (ix2 (0 : Fin 1) q) else 0
  have hblk : ∀ (n : ℕ) (h : n < cfg3.N),
      ∑ p : Fin 5000, k3_pay3 (F := Ideal) (iblk3 V c 0 ⟨n, h⟩) (iblk3 V c 1 ⟨n, h⟩) (iblk3 V c 2 ⟨n, h⟩) (ix2 p q)
          * k3_pay3 (F := Ideal) (iblk3 V c 0 ⟨n, h⟩) (iblk3 V c 1 ⟨n, h⟩) (iblk3 V c 2 ⟨n, h⟩) (ix2 p q)
        = ∑ p : Fin 5000, g (5000 * n + p.val) := fun n h =>
    Finset.sum_congr rfl fun p _ => by
      have hr : 5000 * n + p.val < 100000 := by have := p.isLt; omega
      rw [pay3_blk V c ⟨n, h⟩ p q hr]
      show _ = dite (5000 * n + p.val < 100000) _ _
      rw [dif_pos hr]
  have h0 : acc 0 = Ideal.ofBits .f32 0x00000000#32 + ∑ p : Fin 5000, g (5000 * 0 + p.val) := by
    have h : 0 < cfg3.N := by omega
    show (if h : 0 < cfg3.N then (tot V c 0 h).2 (ix2 (0 : Fin 1) q) else 0) = _
    rw [dif_pos h]
    show k3_pay5 (F := Ideal) _ _ _ (k3_pay2 (F := Ideal)) (ix2 (0 : Fin 1) q) = _
    rw [PayLin.pay5'_apply, hblk 0 h]
    rfl
  have hs : ∀ n, n + 1 < 20 → acc (n + 1) = acc n + ∑ p : Fin 5000, g (5000 * (n + 1) + p.val) := fun n hn => by
    have h1 : n + 1 < cfg3.N := by omega
    have h2 : n < cfg3.N := by omega
    show (if h : n + 1 < cfg3.N then (tot V c (n + 1) h).2 (ix2 (0 : Fin 1) q) else 0)
      = (if h : n < cfg3.N then (tot V c n h).2 (ix2 (0 : Fin 1) q) else 0) + _
    rw [dif_pos h1, dif_pos h2]
    show k3_pay5 (F := Ideal) _ _ _ (tot V c n _).2 (ix2 (0 : Fin 1) q) = _
    rw [PayLin.pay5'_apply, hblk (n + 1) h1]
  have key := ColumnSums.total_20x5000 (Ideal.ofBits .f32 0x00000000#32) g acc h0 hs
  have h19 : (19 : ℕ) < cfg3.N := by omega
  have e19 : acc 19 = (tot V c 19 tlast.isLt).2 (ix2 (0 : Fin 1) q) := dif_pos h19
  rw [← e19, key]
  exact congrArg (Ideal.ofBits .f32 0x00000000#32 + ·) (Finset.sum_congr rfl fun r _ => dif_pos r.isLt)

end

end Cert.KernelIdeal.Lin3

end
-- ==== Proof.RegionNorm.lean ====
import proofs.«150060_j45646912422072_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx

theorem hz_norm : (![0, 0] : Fin 2 → Nat) = fun _ => 0 := funext fun a => by fin_cases a <;> rfl

/-- The normalised, scaled, shifted and clamped array: entry `(r, q)` of `Y` minus the column mean `Mu (0, q)`, times
    `rsqrt` of the column variance `Vr (0, q)` plus the literal epsilon, times the gain `G (0, q)`, plus the shift
    `B (0, q)`, clamped below at the zero literal. -/
def Gnorm (Y : S100000x128.Idx → EReal) (Mu Vr G B : S1x128.Idx → EReal) : S100000x128.Idx → EReal :=
  fun i => max ((((Y i - Mu (ix2 0 (i 1))) * Ideal.rsqrt (Vr (ix2 0 (i 1)) + Ideal.ofBits .f32 0x3727C5AC#32)) * G (ix2 0 (i 1))) + B (ix2 0 (i 1)))
    (Ideal.ofBits .f32 0x00000000#32)

/-! ## Region 1: the normalisation `max ((y - mean) * rsqrt (var + eps) * g + bt) 0`, row block by row block -/

/-- The body's stored value at row `p`, column `q` of the block: the five loaded blocks combined entry by entry; the four
    one-row operands are read at column `q`. -/
theorem pay1_apply (x0 : Vec Ideal S5000x128 .f32) (x1 x2 x3 x4 : Vec Ideal S1x128 .f32) (p : Fin 5000) (q : Fin 128) :
    k1_pay1 (F := Ideal) x0 x1 x2 x3 x4 (ix2 p q)
      = max ((((x0 (ix2 p q) - x1 (ix2 0 q)) * Ideal.rsqrt (x2 (ix2 0 q) + Ideal.ofBits .f32 0x3727C5AC#32)) * x3 (ix2 0 q)) + x4 (ix2 0 q))
          (Ideal.ofBits .f32 0x00000000#32) := by
  unfold k1_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply]
  rfl

/-- The same at an index `j` of the block whose entry of the first operand is entry `i` of the whole array `Y`, in the
    same column: the stored value is `Gnorm` at `i`. -/
theorem norm1_point (Y : S100000x128.Idx → EReal) (Mu Vr G B : S1x128.Idx → EReal)
    (x0 : Vec Ideal S5000x128 .f32) (x1 x2 x3 x4 : Vec Ideal S1x128 .f32) (j : S5000x128.Idx) (i : S100000x128.Idx)
    (hY : x0 j = Y i) (hq : (i 1 : Fin 128) = j 1) (h1 : x1 = Mu) (h2 : x2 = Vr) (h3 : x3 = G) (h4 : x4 = B) :
    k1_pay1 (F := Ideal) x0 x1 x2 x3 x4 j = Gnorm Y Mu Vr G B i := by
  subst h1 h2 h3 h4
  obtain ⟨p, q, rfl⟩ : ∃ (p : Fin 5000) (q : Fin 128), j = ix2 p q := ⟨j 0, j 1, eq_ix2 j⟩
  rw [pay1_apply, hY]
  unfold Gnorm
  rw [hq]

/-- The printed index maps over the grid: the row-block windows (the input 0 and the output 5) are at block `(t, 0)`
    at point `t`, the four one-row windows at block `(0, 0)`. -/
theorem idx_facts1 : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

section
variable (V : (c : Dev nD) → (b : Ref sig .tc) → Buf (Elt Ideal) ((c : Thread nD τ).loc b))

/-- Input block 0 at point `t` holds, at `j`, the array's entry under the OUTPUT block's index `j`: both windows are at
    rows `5000 t + j 0`, column `j 1`. -/
theorem blk1_0 (c : Dev nD) (t : Fin cfg1.N) (j : S5000x128.Idx) :
    (iblk1 V c 0 t : Vec Ideal S5000x128 .f32) j
      = (V c (Pipeline.arrRef spec1 0) : S100000x128.Idx → EReal) (((cfg1.win 5).blk t).view.emb j) := by
  obtain ⟨e00, e01, e50, e51, -⟩ := idx_facts1 t
  show (V c (Pipeline.arrRef spec1 0) : S100000x128.Idx → EReal) (((cfg1.win 0).blk t).view.emb j) = _
  refine congrArg (V c (Pipeline.arrRef spec1 0) : S100000x128.Idx → EReal) ?_
  funext a; apply Fin.ext
  match a with
  | ⟨0, _⟩ => show win1_0.index t (0 : Fin 2) * 5000 + 1 * (j 0).val = win1_5.index t (0 : Fin 2) * 5000 + 1 * (j 0).val; rw [e00, e50]
  | ⟨1, _⟩ => show win1_0.index t (1 : Fin 2) * 128 + 1 * (j 1).val = win1_5.index t (1 : Fin 2) * 128 + 1 * (j 1).val; rw [e01, e51]

/-- The output block's index `j` sits in column `j 1` of the array. -/
theorem col1 (t : Fin cfg1.N) (j : S5000x128.Idx) :
    ((((cfg1.win 5).blk t).view.emb j : S100000x128.Idx) 1 : Fin 128) = j 1 := by
  obtain ⟨-, -, -, e51, -⟩ := idx_facts1 t
  apply Fin.ext
  show win1_5.index t (1 : Fin 2) * 128 + 1 * (j 1).val = (j 1).val
  rw [e51]; omega

/-- The one-row window 1's block is its whole array at every point. -/
theorem blk1_1 (c : Dev nD) (t : Fin cfg1.N) :
    (iblk1 V c 1 t : Vec Ideal S1x128 .f32) = (V c (Pipeline.arrRef spec1 1) : S1x128.Idx → EReal) := by
  obtain ⟨-, -, -, -, e0, e1, -, -, -, -, -, -⟩ := idx_facts1 t
  funext y
  show (V c (Pipeline.arrRef spec1 1) : S1x128.Idx → EReal) (((cfg1.win 1).blk t).view.emb y) = _
  refine congrArg (V c (Pipeline.arrRef spec1 1) : S1x128.Idx → EReal) ?_
  funext a; apply Fin.ext
  match a with
  | ⟨0, _⟩ => show win1_1.index t (0 : Fin 2) * 1 + 1 * (y 0).val = (y 0).val; rw [e0]; omega
  | ⟨1, _⟩ => show win1_1.index t (1 : Fin 2) * 128 + 1 * (y 1).val = (y 1).val; rw [e1]; omega

/-- The one-row window 2's block is its whole array at every point. -/
theorem blk1_2 (c : Dev nD) (t : Fin cfg1.N) :
    (iblk1 V c 2 t : Vec Ideal S1x128 .f32) = (V c (Pipeline.arrRef spec1 2) : S1x128.Idx → EReal) := by
  obtain ⟨-, -, -, -, -, -, e0, e1, -, -, -, -⟩ := idx_facts1 t
  funext y
  show (V c (Pipeline.arrRef spec1 2) : S1x128.Idx → EReal) (((cfg1.win 2).blk t).view.emb y) = _
  refine congrArg (V c (Pipeline.arrRef spec1 2) : S1x128.Idx → EReal) ?_
  funext a; apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- The one-row window 3's block is its whole array at every point. -/
theorem blk1_3 (c : Dev nD) (t : Fin cfg1.N) :
    (iblk1 V c 3 t : Vec Ideal S1x128 .f32) = (V c (Pipeline.arrRef spec1 3) : S1x128.Idx → EReal) := by
  obtain ⟨-, -, -, -, -, -, -, -, e0, e1, -, -⟩ := idx_facts1 t
  funext y
  show (V c (Pipeline.arrRef spec1 3) : S1x128.Idx → EReal) (((cfg1.win 3).blk t).view.emb y) = _
  refine congrArg (V c (Pipeline.arrRef spec1 3) : S1x128.Idx → EReal) ?_
  funext a; apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The one-row window 4's block is its whole array at every point. -/
theorem blk1_4 (c : Dev nD) (t : Fin cfg1.N) :
    (iblk1 V c 4 t : Vec Ideal S1x128 .f32) = (V c (Pipeline.arrRef spec1 4) : S1x128.Idx → EReal) := by
  obtain ⟨-, -, -, -, -, -, -, -, -, -, e0, e1⟩ := idx_facts1 t
  funext y
  show (V c (Pipeline.arrRef spec1 4) : S1x128.Idx → EReal) (((cfg1.win 4).blk t).view.emb y) = _
  refine congrArg (V c (Pipeline.arrRef spec1 4) : S1x128.Idx → EReal) ?_
  funext a; apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- What point `t` writes back is block `t` of `Gnorm` of the arrays the region finds. -/
theorem flushed1_eq (c : Dev nD) (t : Fin cfg1.N) :
    (dat1 (F := Ideal) V c).flushed 5 t = ((cfg1.win 5).blk t).view.read (Elt Ideal)
      (Gnorm (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero hz_norm]
  simp only [View.ld_unit_zero (S := S5000x128) hz_norm, View.ld_unit_zero (S := S1x128) hz_norm]
  funext j
  exact norm1_point (V c (Pipeline.arrRef spec1 0)) (V c (Pipeline.arrRef spec1 1)) (V c (Pipeline.arrRef spec1 2))
    (V c (Pipeline.arrRef spec1 3)) (V c (Pipeline.arrRef spec1 4))
    (iblk1 V c 0 t) (iblk1 V c 1 t) (iblk1 V c 2 t) (iblk1 V c 3 t) (iblk1 V c 4 t) j (((cfg1.win 5).blk t).view.emb j)
    (blk1_0 V c t j) (col1 t j) (blk1_1 V c t) (blk1_2 V c t) (blk1_3 V c t) (blk1_4 V c t)

/-- An index of the output array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v23).slice (win1_5.rect t)).set ↔ _
  rw [View.set_slice_whole, Rect.mem_set_unit]
  exact Iff.rfl

/-- Row `r` of the output lies in the block of point `r / 5000`, and every point writes back: the 20 blocks cover the array. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_5 _, ?_⟩
  obtain ⟨-, -, e50, e51, -⟩ := idx_facts1 ⟨(i 0).val / 5000, by rw [hN]; omega⟩
  rw [mem_blk1]
  intro a
  match a with
  | ⟨0, _⟩ =>
    show win1_5.index _ (0 : Fin 2) * 5000 ≤ (i 0).val ∧ (i 0).val < win1_5.index _ (0 : Fin 2) * 5000 + 5000
    rw [e50]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e51]; omega

/-- THE OUTPUT ARRAY after region 1: `Gnorm` of the five arrays the region finds, at every index. -/
theorem final1 (c : Dev nD) :
    (dat1 (F := Ideal) V c).arrAt 5 cfg1.N
      = Gnorm (V c (Pipeline.arrRef spec1 0)) (V c (Pipeline.arrRef spec1 1)) (V c (Pipeline.arrRef spec1 2))
          (V c (Pipeline.arrRef spec1 3)) (V c (Pipeline.arrRef spec1 4)) :=
  (dat1 (F := Ideal) V c).arrAt_eq_of_cover 5 _ (fun t _ => flushed1_eq V c t) (cover1)

end

/-! ## Region 4: the normalisation `max ((y - mean) * rsqrt (var + eps) * g + bt) 0`, row block by row block -/

/-- The body's stored value at row `p`, column `q` of the block: the five loaded blocks combined entry by entry; the four
    one-row operands are read at column `q`. -/
theorem pay4_apply (x0 : Vec Ideal S5000x128 .f32) (x1 x2 x3 x4 : Vec Ideal S1x128 .f32) (p : Fin 5000) (q : Fin 128) :
    k4_pay1 (F := Ideal) x0 x1 x2 x3 x4 (ix2 p q)
      = max ((((x0 (ix2 p q) - x1 (ix2 0 q)) * Ideal.rsqrt (x2 (ix2 0 q) + Ideal.ofBits .f32 0x3727C5AC#32)) * x3 (ix2 0 q)) + x4 (ix2 0 q))
          (Ideal.ofBits .f32 0x00000000#32) := by
  unfold k4_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply]
  rfl

/-- The same at an index `j` of the block whose entry of the first operand is entry `i` of the whole array `Y`, in the
    same column: the stored value is `Gnorm` at `i`. -/
theorem norm4_point (Y : S100000x128.Idx → EReal) (Mu Vr G B : S1x128.Idx → EReal)
    (x0 : Vec Ideal S5000x128 .f32) (x1 x2 x3 x4 : Vec Ideal S1x128 .f32) (j : S5000x128.Idx) (i : S100000x128.Idx)
    (hY : x0 j = Y i) (hq : (i 1 : Fin 128) = j 1) (h1 : x1 = Mu) (h2 : x2 = Vr) (h3 : x3 = G) (h4 : x4 = B) :
    k4_pay1 (F := Ideal) x0 x1 x2 x3 x4 j = Gnorm Y Mu Vr G B i := by
  subst h1 h2 h3 h4
  obtain ⟨p, q, rfl⟩ : ∃ (p : Fin 5000) (q : Fin 128), j = ix2 p q := ⟨j 0, j 1, eq_ix2 j⟩
  rw [pay4_apply, hY]
  unfold Gnorm
  rw [hq]

/-- The printed index maps over the grid: the row-block windows (the input 0 and the output 5) are at block `(t, 0)`
    at point `t`, the four one-row windows at block `(0, 0)`. -/
theorem idx_facts4 : ∀ t : Fin cfg4.N,
    win4_0.index t (0 : Fin 2) = t.val ∧ win4_0.index t (1 : Fin 2) = 0
    ∧ win4_5.index t (0 : Fin 2) = t.val ∧ win4_5.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

section
variable (V : (c : Dev nD) → (b : Ref sig .tc) → Buf (Elt Ideal) ((c : Thread nD τ).loc b))

/-- Input block 0 at point `t` holds, at `j`, the array's entry under the OUTPUT block's index `j`: both windows are at
    rows `5000 t + j 0`, column `j 1`. -/
theorem blk4_0 (c : Dev nD) (t : Fin cfg4.N) (j : S5000x128.Idx) :
    (iblk4 V c 0 t : Vec Ideal S5000x128 .f32) j
      = (V c (Pipeline.arrRef spec4 0) : S100000x128.Idx → EReal) (((cfg4.win 5).blk t).view.emb j) := by
  obtain ⟨e00, e01, e50, e51, -⟩ := idx_facts4 t
  show (V c (Pipeline.arrRef spec4 0) : S100000x128.Idx → EReal) (((cfg4.win 0).blk t).view.emb j) = _
  refine congrArg (V c (Pipeline.arrRef spec4 0) : S100000x128.Idx → EReal) ?_
  funext a; apply Fin.ext
  match a with
  | ⟨0, _⟩ => show win4_0.index t (0 : Fin 2) * 5000 + 1 * (j 0).val = win4_5.index t (0 : Fin 2) * 5000 + 1 * (j 0).val; rw [e00, e50]
  | ⟨1, _⟩ => show win4_0.index t (1 : Fin 2) * 128 + 1 * (j 1).val = win4_5.index t (1 : Fin 2) * 128 + 1 * (j 1).val; rw [e01, e51]

/-- The output block's index `j` sits in column `j 1` of the array. -/
theorem col4 (t : Fin cfg4.N) (j : S5000x128.Idx) :
    ((((cfg4.win 5).blk t).view.emb j : S100000x128.Idx) 1 : Fin 128) = j 1 := by
  obtain ⟨-, -, -, e51, -⟩ := idx_facts4 t
  apply Fin.ext
  show win4_5.index t (1 : Fin 2) * 128 + 1 * (j 1).val = (j 1).val
  rw [e51]; omega

/-- The one-row window 1's block is its whole array at every point. -/
theorem blk4_1 (c : Dev nD) (t : Fin cfg4.N) :
    (iblk4 V c 1 t : Vec Ideal S1x128 .f32) = (V c (Pipeline.arrRef spec4 1) : S1x128.Idx → EReal) := by
  obtain ⟨-, -, -, -, e0, e1, -, -, -, -, -, -⟩ := idx_facts4 t
  funext y
  show (V c (Pipeline.arrRef spec4 1) : S1x128.Idx → EReal) (((cfg4.win 1).blk t).view.emb y) = _
  refine congrArg (V c (Pipeline.arrRef spec4 1) : S1x128.Idx → EReal) ?_
  funext a; apply Fin.ext
  match a with
  | ⟨0, _⟩ => show win4_1.index t (0 : Fin 2) * 1 + 1 * (y 0).val = (y 0).val; rw [e0]; omega
  | ⟨1, _⟩ => show win4_1.index t (1 : Fin 2) * 128 + 1 * (y 1).val = (y 1).val; rw [e1]; omega

/-- The one-row window 2's block is its whole array at every point. -/
theorem blk4_2 (c : Dev nD) (t : Fin cfg4.N) :
    (iblk4 V c 2 t : Vec Ideal S1x128 .f32) = (V c (Pipeline.arrRef spec4 2) : S1x128.Idx → EReal) := by
  obtain ⟨-, -, -, -, -, -, e0, e1, -, -, -, -⟩ := idx_facts4 t
  funext y
  show (V c (Pipeline.arrRef spec4 2) : S1x128.Idx → EReal) (((cfg4.win 2).blk t).view.emb y) = _
  refine congrArg (V c (Pipeline.arrRef spec4 2) : S1x128.Idx → EReal) ?_
  funext a; apply Fin.ext
  match a with
  | ⟨0, _⟩ => show win4_2.index t (0 : Fin 2) * 1 + 1 * (y 0).val = (y 0).val; rw [e0]; omega
  | ⟨1, _⟩ => show win4_2.index t (1 : Fin 2) * 128 + 1 * (y 1).val = (y 1).val; rw [e1]; omega

/-- The one-row window 3's block is its whole array at every point. -/
theorem blk4_3 (c : Dev nD) (t : Fin cfg4.N) :
    (iblk4 V c 3 t : Vec Ideal S1x128 .f32) = (V c (Pipeline.arrRef spec4 3) : S1x128.Idx → EReal) := by
  obtain ⟨-, -, -, -, -, -, -, -, e0, e1, -, -⟩ := idx_facts4 t
  funext y
  show (V c (Pipeline.arrRef spec4 3) : S1x128.Idx → EReal) (((cfg4.win 3).blk t).view.emb y) = _
  refine congrArg (V c (Pipeline.arrRef spec4 3) : S1x128.Idx → EReal) ?_
  funext a; apply Fin.ext
  match a with
  | ⟨0, _⟩ => show win4_3.index t (0 : Fin 2) * 1 + 1 * (y 0).val = (y 0).val; rw [e0]; omega
  | ⟨1, _⟩ => show win4_3.index t (1 : Fin 2) * 128 + 1 * (y 1).val = (y 1).val; rw [e1]; omega

/-- The one-row window 4's block is its whole array at every point. -/
theorem blk4_4 (c : Dev nD) (t : Fin cfg4.N) :
    (iblk4 V c 4 t : Vec Ideal S1x128 .f32) = (V c (Pipeline.arrRef spec4 4) : S1x128.Idx → EReal) := by
  obtain ⟨-, -, -, -, -, -, -, -, -, -, e0, e1⟩ := idx_facts4 t
  funext y
  show (V c (Pipeline.arrRef spec4 4) : S1x128.Idx → EReal) (((cfg4.win 4).blk t).view.emb y) = _
  refine congrArg (V c (Pipeline.arrRef spec4 4) : S1x128.Idx → EReal) ?_
  funext a; apply Fin.ext
  match a with
  | ⟨0, _⟩ => show win4_4.index t (0 : Fin 2) * 1 + 1 * (y 0).val = (y 0).val; rw [e0]; omega
  | ⟨1, _⟩ => show win4_4.index t (1 : Fin 2) * 128 + 1 * (y 1).val = (y 1).val; rw [e1]; omega

/-- What point `t` writes back is block `t` of `Gnorm` of the arrays the region finds. -/
theorem flushed4_eq (c : Dev nD) (t : Fin cfg4.N) :
    (dat4 (F := Ideal) V c).flushed 5 t = ((cfg4.win 5).blk t).view.read (Elt Ideal)
      (Gnorm (V c (Pipeline.arrRef spec4 0)) (V c (Pipeline.arrRef spec4 1)) (V c (Pipeline.arrRef spec4 2))
        (V c (Pipeline.arrRef spec4 3)) (V c (Pipeline.arrRef spec4 4))) := by
  show (cfg4.win 5).cut (grid4.coords t) ((dat4 V c).after 5 t) = _
  rw [after4_5]
  unfold out4_5
  rw [View.canon_unit_zero hz_norm]
  simp only [View.ld_unit_zero (S := S5000x128) hz_norm, View.ld_unit_zero (S := S1x128) hz_norm]
  funext j
  exact norm4_point (V c (Pipeline.arrRef spec4 0)) (V c (Pipeline.arrRef spec4 1)) (V c (Pipeline.arrRef spec4 2))
    (V c (Pipeline.arrRef spec4 3)) (V c (Pipeline.arrRef spec4 4))
    (iblk4 V c 0 t) (iblk4 V c 1 t) (iblk4 V c 2 t) (iblk4 V c 3 t) (iblk4 V c 4 t) j (((cfg4.win 5).blk t).view.emb j)
    (blk4_0 V c t j) (col4 t j) (blk4_1 V c t) (blk4_2 V c t) (blk4_3 V c t) (blk4_4 V c t)

/-- An index of the output array is in point `t`'s block iff each coordinate is in the block's range on its axis. -/
theorem mem_blk4 (t : Fin cfg4.N) (i : S100000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v51).slice (win4_5.rect t)).set ↔ _
  rw [View.set_slice_whole, Rect.mem_set_unit]
  exact Iff.rfl

/-- Row `r` of the output lies in the block of point `r / 5000`, and every point writes back: the 20 blocks cover the array. -/
theorem cover4 (i : S100000x128.Idx) :
    ∃ t : Fin cfg4.N, (cfg4.win 5).flush t = true ∧ i ∈ ((cfg4.win 5).blk t).view.set := by
  have hi0 : (i 0).val < 100000 := (i 0).isLt
  have hi1 : (i 1).val < 128 := (i 1).isLt
  have hN : cfg4.N = 20 := N_4
  refine ⟨⟨(i 0).val / 5000, by rw [hN]; omega⟩, flush4_5 _, ?_⟩
  obtain ⟨-, -, e50, e51, -⟩ := idx_facts4 ⟨(i 0).val / 5000, by rw [hN]; omega⟩
  rw [mem_blk4]
  intro a
  match a with
  | ⟨0, _⟩ =>
    show win4_5.index _ (0 : Fin 2) * 5000 ≤ (i 0).val ∧ (i 0).val < win4_5.index _ (0 : Fin 2) * 5000 + 5000
    rw [e50]; show (i 0).val / 5000 * 5000 ≤ (i 0).val ∧ (i 0).val < (i 0).val / 5000 * 5000 + 5000; omega
  | ⟨1, _⟩ =>
    show win4_5.index _ (1 : Fin 2) * 128 ≤ (i 1).val ∧ (i 1).val < win4_5.index _ (1 : Fin 2) * 128 + 128
    rw [e51]; omega

/-- THE OUTPUT ARRAY after region 4: `Gnorm` of the five arrays the region finds, at every index. -/
theorem final4 (c : Dev nD) :
    (dat4 (F := Ideal) V c).arrAt 5 cfg4.N
      = Gnorm (V c (Pipeline.arrRef spec4 0)) (V c (Pipeline.arrRef spec4 1)) (V c (Pipeline.arrRef spec4 2))
          (V c (Pipeline.arrRef spec4 3)) (V c (Pipeline.arrRef spec4 4)) :=
  (dat4 (F := Ideal) V c).arrAt_eq_of_cover 5 _ (fun t _ => flushed4_eq V c t) (cover4)

end

end Cert.KernelIdeal.RegVal
end
-- ==== Proof.RegionCombine.lean ====
import proofs.«150060_j45646912422072_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx

theorem hz_comb : (![0, 0] : Fin 2 → Nat) = fun _ => 0 := funext fun a => by fin_cases a <;> rfl

/-- The combined layer: row `r` of `X` against column `q` of `Ws`, plus row `r` of `M` against column `q` of `Wn`, plus
    the bias `B (0, q)`, clamped below at the zero literal. -/
def Gcomb (X M : S100000x128.Idx → EReal) (Ws Wn : S128x128.Idx → EReal) (B : S1x128.Idx → EReal) : S100000x128.Idx → EReal :=
  fun i => max (((∑ k : Fin 128, X (ix2 (i 0) k) * Ws (ix2 k (i 1))) + (∑ k : Fin 128, M (ix2 (i 0) k) * Wn (ix2 k (i 1)))) + B (ix2 0 (i 1)))
    (Ideal.ofBits .f32 0x00000000#32)

/-- The contraction's operand indices at output index `i` and contraction index `q`: row `i 0` and column `q` of the left
    operand, row `q` and column `i 1` of the right one. -/
theorem mm128_lhs0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem mm128_lhs1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem mm128_rhs0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem mm128_rhs1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block's matrix product into the zero accumulator, read at row `p`, column `q`: the sum over the 128 contraction
    positions of the left operand's row `p` times the right operand's column `q`. -/
theorem mm128_apply {φ₁ φ₂ : FTy} (a : FVec Ideal S5000x128 φ₁) (b : FVec Ideal S128x128 φ₂) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  show FloatOps.matmul dot_S5000x128_S128x128_S5000x128_1_0_0_1_n_n none a b (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact mm128_lhs0 _ _
    | ⟨1, _⟩ => exact (mm128_lhs1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (mm128_rhs0 _ _).trans hk
    | ⟨1, _⟩ => exact mm128_rhs1 _ _)
  rw [el, er]

/-! ## Region 2: `max (x @ Ws + agg @ Wn + bs) 0`, row block by row block -/

/-- The body's stored value at row `p`, column `q` of the block: the two blocks' rows `p` against the two weight
    matrices' columns `q`, summed, plus the bias row at column `q`, clamped below at the zero literal (the format
    changes on the way into the products are the identity on extended reals). -/
theorem pay2_apply (x0 x1 : Vec Ideal S5000x128 .f32) (x2 x3 : Vec Ideal S128x128 .f32) (x4 : Vec Ideal S1x128 .f32) (p : Fin 5000) (q : Fin 128) :
    k2_pay1 (F := Ideal) x0 x1 x2 x3 x4 (ix2 p q)
      = max (((∑ k : Fin 128, x0 (ix2 p k) * x2 (ix2 k q)) + (∑ k : Fin 128, x1 (ix2 p k) * x3 (ix2 k q))) + x4 (ix2 0 q))
          (Ideal.ofBits .f32 0x00000000#32) := by
  unfold k2_pay1
  simp only [shapeCast_self]
  rw [maximumf_apply, addf_apply, addf_apply, broadcastTo_1b_ab_apply, mm128_apply, mm128_apply]
  rfl

/-- The same at an index `j` of the block, when the two row-block operands' rows `j 0` are rows `i 0` of the whole
    arrays `X`, `M` and `j` is in column `i 1`: the stored value is `Gcomb` at `i`. -/
theorem comb2_point (X M : S100000x128.Idx → EReal) (Ws Wn : S128x128.Idx → EReal) (B : S1x128.Idx → EReal)
    (x0 x1 : Vec Ideal S5000x128 .f32) (x2 x3 : Vec Ideal S128x128 .f32) (x4 : Vec Ideal S1x128 .f32) (j : S5000x128.Idx) (i : S100000x128.Idx)
    (hX : ∀ k : Fin 128, x0 (ix2 (j 0) k) = X (ix2 (i 0) k)) (hM : ∀ k : Fin 128, x1 (ix2 (j 0) k) = M (ix2 (i 0) k))
    (hq : (i 1 : Fin 128) = j 1) (h2 : x2 = Ws) (h3 : x3 = Wn) (h4 : x4 = B) :
    k2_pay1 (F := Ideal) x0 x1 x2 x3 x4 j = Gcomb X M Ws Wn B i := by
  subst h2 h3 h4
  obtain ⟨p, q, rfl⟩ : ∃ (p : Fin 5000) (q : Fin 128), j = ix2 p q := ⟨j 0, j 1, eq_ix2 j⟩
  have hX' : ∀ k : Fin 128, x0 (ix2 p k) = X (ix2 (i 0) k) := hX
  have hM' : ∀ k : Fin 128, x1 (ix2 p k) = M (ix2 (i 0) k) := hM
  rw [pay2_apply]
  unfold Gcomb
  rw [hq]
  simp only [hX', hM']

/-! The printed index maps over the grid: the row-block windows (inputs 0, 1 and the output 5) are at block `(t, 0)` at
    point `t`, the two weight windows and the bias window at block `(0, 0)`. -/

theorem idx_facts2_0 : ∀ t : Fin cfg2.N, win2_0.index t (0 : Fin 2) = t.val ∧ win2_0.index t (1 : Fin 2) = 0 :=
  (by decide +kernel : ∀ t : Fin grid2.N, _)
theorem idx_facts2_1 : ∀ t : Fin cfg2.N, win2_1.index t (0 : Fin 2) = t.val ∧ win2_1.index t (1 : Fin 2) = 0 :=
  (by decide +kernel : ∀ t : Fin grid2.N, _)
theorem idx_facts2_5 : ∀ t : Fin cfg2.N, win2_5.index t (0 : Fin 2) = t.val ∧ win2_5.index t (1 : Fin 2) = 0 :=
  (by decide +kernel : ∀ t : Fin grid2.N, _)
theorem idx_facts2_2 : ∀ t : Fin cfg2.N, win2_2.index t (0 : Fin 2) = 0 ∧ win2_2.index t (1 : Fin 2) = 0 :=
  (by decide +kernel : ∀ t : Fin grid2.N, _)
theorem idx_facts2_3 : ∀ t : Fin cfg2.N, win2_3.index t (0 : Fin 2) = 0 ∧ win2_3.index t (1 : Fin 2) = 0 :=
  (by decide +kernel : ∀ t : Fin grid2.N, _)
theorem idx_facts2_4 : ∀ t : Fin cfg2.N, win2_4.index t (0 : Fin 2) = 0 ∧ win2_4.index t (1 : Fin 2) = 0 :=
  (by decide +kernel : ∀ t : Fin grid2.N, _)

section
variable (V : (c : Dev nD) → (b : Ref sig .tc) → Buf (Elt Ideal) ((c : Thread nD τ).loc b))

/-- Input block 0 at point `t` holds, in the row of the block index `j` and column `k`, the array's entry in the row the
    OUTPUT block's index `j` sits in and column `k`: both windows are at rows `5000 t + j 0`. -/
theorem row2_0 (c : Dev nD) (t : Fin cfg2.N) (j : S5000x128.Idx) (k : Fin 128) :
    (iblk2 V c 0 t : Vec Ideal S5000x128 .f32) (ix2 (j 0) k)
      = (V c (Pipeline.arrRef spec2 0) : S100000x128.Idx → EReal) (ix2 ((((cfg2.win 5).blk t).view.emb j : S100000x128.Idx) 0) k) := by
  have e0 := (idx_facts2_0 t).1
  have e1 := (idx_facts2_0 t).2
  have o0 := (idx_facts2_5 t).1
  show (V c (Pipeline.arrRef spec2 0) : S100000x128.Idx → EReal) (((cfg2.win 0).blk t).view.emb (ix2 (j 0) k)) = _
  refine congrArg (V c (Pipeline.arrRef spec2 0) : S100000x128.Idx → EReal) ?_
  funext a; apply Fin.ext
  match a with
  | ⟨0, _⟩ => show win2_0.index t (0 : Fin 2) * 5000 + 1 * (j 0).val = win2_5.index t (0 : Fin 2) * 5000 + 1 * (j 0).val; rw [e0, o0]
  | ⟨1, _⟩ => show win2_0.index t (1 : Fin 2) * 128 + 1 * k.val = k.val; rw [e1]; omega

/-- Input block 1 at point `t` holds, in the row of the block index `j` and column `k`, the array's entry in the row the
    OUTPUT block's index `j` sits in and column `k`: both windows are at rows `5000 t + j 0`. -/
theorem row2_1 (c : Dev nD) (t : Fin cfg2.N) (j : S5000x128.Idx) (k : Fin 128) :
    (iblk2 V c 1 t : Vec Ideal S5000x128 .f32) (ix2 (j 0) k)
      = (V c (Pipeline.arrRef spec2 1) : S100000x128.Idx → EReal) (ix2 ((((cfg2.win 5).blk t).view.emb j : S100000x128.Idx) 0) k) := by
  have e0 := (idx_facts2_1 t).1
  have e1 := (idx_facts2_1 t).2
  have o0 := (idx_facts2_5 t).1
  show (V c (Pipeline.arrRef spec2 1) : S100000x128.Idx → EReal) (((cfg2.win 1).blk t).view.emb (ix2 (j 0) k)) = _
  refine congrArg (V c (Pipeline.arrRef spec2 1) : S100000x128.Idx → EReal) ?_
  funext a; apply Fin.ext
  match a with
  | ⟨0, _⟩ => show win2_1.index t (0 : Fin 2) * 5000 + 1 * (j 0).val = win2_5.index t (0 : Fin 2) * 5000 + 1 * (j 0).val; rw [e0, o0]
  | ⟨1, _⟩ => show win2_1.index t (1 : Fin 2) * 128 + 1 * k.val = k.val; rw [e1]; omega

/-- Window 2's block is its whole array at every point. -/
theorem blk2_2 (c : Dev nD) (t : Fin cfg2.N) :
    (iblk2 V c 2 t : Vec Ideal S128x128 .f32) = (V c (Pipeline.arrRef spec2 2) : S128x128.Idx → EReal) := by
  have e0 := (idx_facts2_2 t).1
  have e1 := (idx_facts2_2 t).2
  funext y
  show (V c (Pipeline.arrRef spec2 2) : S128x128.Idx → EReal) (((cfg2.win 2).blk t).view.emb y) = _
  refine congrArg (V c (Pipeline.arrRef spec2 2) : S128x128.Idx → EReal) ?_
  funext a; apply Fin.ext
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

/-- Window 3's block is its whole array at every point. -/
theorem blk2_3 (c : Dev nD) (t : Fin cfg2.N) :
    (iblk2 V c 3 t : Vec Ideal S128x128 .f32) = (V c (Pipeline.arrRef spec2 3) : S128x128.Idx → EReal) := by
  have e0 := (idx_facts2_3 t).1
  have e1 := (idx_facts2_3 t).2
  funext y
  show (V c (Pipeline.arrRef spec2 3) : S128x128.Idx → EReal) (((cfg2.win 3).blk t).view.emb y) = _
  refine congrArg (V c (Pipeline.arrRef spec2 3) : S128x128.Idx → EReal) ?_
  funext a; apply Fin.ext
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- Window 4's block is its whole array at every point. -/
theorem blk2_4 (c : Dev nD) (t : Fin cfg2.N) :
    (iblk2 V c 4 t : Vec Ideal S1x128 .f32) = (V c (Pipeline.arrRef spec2 4) : S1x128.Idx → EReal) := by
  have e0 := (idx_facts2_4 t).1
  have e1 := (idx_facts2_4 t).2
  funext y
  show (V c (Pipeline.arrRef spec2 4) : S1x128.Idx → EReal) (((cfg2.win 4).blk t).view.emb y) = _
  refine congrArg (V c (Pipeline.arrRef spec2 4) : S1x128.Idx → EReal) ?_
  funext a; apply Fin.ext
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- The output block's index `j` sits in column `j 1` of the array. -/
theorem col2 (t : Fin cfg2.N) (j : S5000x128.Idx) :
    ((((cfg2.win 5).blk t).view.emb j : S100000x128.Idx) 1 : Fin 128) = j 1 := by
  have e1 := (idx_facts2_5 t).2
  apply Fin.ext
  show win2_5.index t (1 : Fin 2) * 128 + 1 * (j 1).val = (j 1).val
  rw [e1]; omega

/-- What point `t` writes back is block `t` of `Gcomb` of the arrays the region finds. -/
theorem flushed2_eq (c : Dev nD) (t : Fin cfg2.N) :
    (dat2 (F := Ideal) V c).flushed 5 t = ((cfg2.win 5).blk t).view.read (Elt Ideal)
      (Gcomb (V c (Pipeline.arrRef spec2 0)) (V c (Pipeline.arrRef spec2 1)) (V c (Pipeline.arrRef spec2 2))
          (V c (Pipeline.arrRef spec2 3)) (V c (Pipeline.arrRef spec2 4))) := by
  show (cfg2.win 5).cut (grid2.coords t) ((dat2 V c).after 5 t) = _
  rw [after2_5]
  unfold out2_5
  rw [View.canon_unit_zero hz_comb]
  simp only [View.ld_unit_zero (S := S5000x128) hz_comb, View.ld_unit_zero (S := S128x128) hz_comb, View.ld_unit_zero (S := S1x128) hz_comb]
  funext j
  exact comb2_point (V c (Pipeline.arrRef spec2 0)) (V c (Pipeline.arrRef spec2 1)) (V c (Pipeline.arrRef spec2 2))
    (V c (Pipeline.arrRef spec2 3)) (V c (Pipeline.arrRef spec2 4))
    (iblk2 V c 0 t) (iblk2 V c 1 t) (iblk2 V c 2 t) (iblk2 V c 3 t) (iblk2 V c 4 t) j (((cfg2.win 5).blk t).view.emb j)
    (row2_0 V c t j) (row2_1 V c t j) (col2 t j) (blk2_2 V c t) (blk2_3 V c t) (blk2_4 V c t)

/-- An index of the output array is in point `t`'s block iff each coordinate is in the block's range on its axis. -/
theorem mem_blk2 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v43).slice (win2_5.rect t)).set ↔ _
  rw [View.set_slice_whole, Rect.mem_set_unit]
  exact Iff.rfl

/-- Row `r` of the output lies in the block of point `r / 5000`, and every point writes back: the 20 blocks cover the array. -/
theorem cover2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_5 _, ?_⟩
  have e0 := (idx_facts2_5 ⟨(i 0).val / 5000, by rw [hN]; omega⟩).1
  have e1 := (idx_facts2_5 ⟨(i 0).val / 5000, by rw [hN]; omega⟩).2
  rw [mem_blk2]
  intro a
  match a with
  | ⟨0, _⟩ =>
    show win2_5.index _ (0 : Fin 2) * 5000 ≤ (i 0).val ∧ (i 0).val < win2_5.index _ (0 : Fin 2) * 5000 + 5000
    rw [e0]; show (i 0).val / 5000 * 5000 ≤ (i 0).val ∧ (i 0).val < (i 0).val / 5000 * 5000 + 5000; omega
  | ⟨1, _⟩ =>
    show win2_5.index _ (1 : Fin 2) * 128 ≤ (i 1).val ∧ (i 1).val < win2_5.index _ (1 : Fin 2) * 128 + 128
    rw [e1]; omega

/-- THE OUTPUT ARRAY after region 2: `Gcomb` of the arrays the region finds, at every index. -/
theorem final2 (c : Dev nD) :
    (dat2 (F := Ideal) V c).arrAt 5 cfg2.N
      = Gcomb (V c (Pipeline.arrRef spec2 0)) (V c (Pipeline.arrRef spec2 1)) (V c (Pipeline.arrRef spec2 2))
          (V c (Pipeline.arrRef spec2 3)) (V c (Pipeline.arrRef spec2 4)) :=
  (dat2 (F := Ideal) V c).arrAt_eq_of_cover 5 _ (fun t _ => flushed2_eq V c t) (cover2)

end

/-! ## Region 5: `max (x @ Ws + agg @ Wn + bs) 0`, row block by row block -/

/-- The body's stored value at row `p`, column `q` of the block: the two blocks' rows `p` against the two weight
    matrices' columns `q`, summed, plus the bias row at column `q`, clamped below at the zero literal (the format
    changes on the way into the products are the identity on extended reals). -/
theorem pay5_apply (x0 x1 : Vec Ideal S5000x128 .f32) (x2 x3 : Vec Ideal S128x128 .f32) (x4 : Vec Ideal S1x128 .f32) (p : Fin 5000) (q : Fin 128) :
    k5_pay1 (F := Ideal) x0 x1 x2 x3 x4 (ix2 p q)
      = max (((∑ k : Fin 128, x0 (ix2 p k) * x2 (ix2 k q)) + (∑ k : Fin 128, x1 (ix2 p k) * x3 (ix2 k q))) + x4 (ix2 0 q))
          (Ideal.ofBits .f32 0x00000000#32) := by
  unfold k5_pay1
  simp only [shapeCast_self]
  rw [maximumf_apply, addf_apply, addf_apply, broadcastTo_1b_ab_apply, mm128_apply, mm128_apply]
  rfl

/-- The same at an index `j` of the block, when the two row-block operands' rows `j 0` are rows `i 0` of the whole
    arrays `X`, `M` and `j` is in column `i 1`: the stored value is `Gcomb` at `i`. -/
theorem comb5_point (X M : S100000x128.Idx → EReal) (Ws Wn : S128x128.Idx → EReal) (B : S1x128.Idx → EReal)
    (x0 x1 : Vec Ideal S5000x128 .f32) (x2 x3 : Vec Ideal S128x128 .f32) (x4 : Vec Ideal S1x128 .f32) (j : S5000x128.Idx) (i : S100000x128.Idx)
    (hX : ∀ k : Fin 128, x0 (ix2 (j 0) k) = X (ix2 (i 0) k)) (hM : ∀ k : Fin 128, x1 (ix2 (j 0) k) = M (ix2 (i 0) k))
    (hq : (i 1 : Fin 128) = j 1) (h2 : x2 = Ws) (h3 : x3 = Wn) (h4 : x4 = B) :
    k5_pay1 (F := Ideal) x0 x1 x2 x3 x4 j = Gcomb X M Ws Wn B i := by
  subst h2 h3 h4
  obtain ⟨p, q, rfl⟩ : ∃ (p : Fin 5000) (q : Fin 128), j = ix2 p q := ⟨j 0, j 1, eq_ix2 j⟩
  have hX' : ∀ k : Fin 128, x0 (ix2 p k) = X (ix2 (i 0) k) := hX
  have hM' : ∀ k : Fin 128, x1 (ix2 p k) = M (ix2 (i 0) k) := hM
  rw [pay5_apply]
  unfold Gcomb
  rw [hq]
  simp only [hX', hM']

/-! The printed index maps over the grid: the row-block windows (inputs 0, 1 and the output 5) are at block `(t, 0)` at
    point `t`, the two weight windows and the bias window at block `(0, 0)`. -/

theorem idx_facts5_0 : ∀ t : Fin cfg5.N, win5_0.index t (0 : Fin 2) = t.val ∧ win5_0.index t (1 : Fin 2) = 0 :=
  (by decide +kernel : ∀ t : Fin grid5.N, _)
theorem idx_facts5_1 : ∀ t : Fin cfg5.N, win5_1.index t (0 : Fin 2) = t.val ∧ win5_1.index t (1 : Fin 2) = 0 :=
  (by decide +kernel : ∀ t : Fin grid5.N, _)
theorem idx_facts5_5 : ∀ t : Fin cfg5.N, win5_5.index t (0 : Fin 2) = t.val ∧ win5_5.index t (1 : Fin 2) = 0 :=
  (by decide +kernel : ∀ t : Fin grid5.N, _)
theorem idx_facts5_2 : ∀ t : Fin cfg5.N, win5_2.index t (0 : Fin 2) = 0 ∧ win5_2.index t (1 : Fin 2) = 0 :=
  (by decide +kernel : ∀ t : Fin grid5.N, _)
theorem idx_facts5_3 : ∀ t : Fin cfg5.N, win5_3.index t (0 : Fin 2) = 0 ∧ win5_3.index t (1 : Fin 2) = 0 :=
  (by decide +kernel : ∀ t : Fin grid5.N, _)
theorem idx_facts5_4 : ∀ t : Fin cfg5.N, win5_4.index t (0 : Fin 2) = 0 ∧ win5_4.index t (1 : Fin 2) = 0 :=
  (by decide +kernel : ∀ t : Fin grid5.N, _)

section
variable (V : (c : Dev nD) → (b : Ref sig .tc) → Buf (Elt Ideal) ((c : Thread nD τ).loc b))

/-- Input block 0 at point `t` holds, in the row of the block index `j` and column `k`, the array's entry in the row the
    OUTPUT block's index `j` sits in and column `k`: both windows are at rows `5000 t + j 0`. -/
theorem row5_0 (c : Dev nD) (t : Fin cfg5.N) (j : S5000x128.Idx) (k : Fin 128) :
    (iblk5 V c 0 t : Vec Ideal S5000x128 .f32) (ix2 (j 0) k)
      = (V c (Pipeline.arrRef spec5 0) : S100000x128.Idx → EReal) (ix2 ((((cfg5.win 5).blk t).view.emb j : S100000x128.Idx) 0) k) := by
  have e0 := (idx_facts5_0 t).1
  have e1 := (idx_facts5_0 t).2
  have o0 := (idx_facts5_5 t).1
  show (V c (Pipeline.arrRef spec5 0) : S100000x128.Idx → EReal) (((cfg5.win 0).blk t).view.emb (ix2 (j 0) k)) = _
  refine congrArg (V c (Pipeline.arrRef spec5 0) : S100000x128.Idx → EReal) ?_
  funext a; apply Fin.ext
  match a with
  | ⟨0, _⟩ => show win5_0.index t (0 : Fin 2) * 5000 + 1 * (j 0).val = win5_5.index t (0 : Fin 2) * 5000 + 1 * (j 0).val; rw [e0, o0]
  | ⟨1, _⟩ => show win5_0.index t (1 : Fin 2) * 128 + 1 * k.val = k.val; rw [e1]; omega

/-- Input block 1 at point `t` holds, in the row of the block index `j` and column `k`, the array's entry in the row the
    OUTPUT block's index `j` sits in and column `k`: both windows are at rows `5000 t + j 0`. -/
theorem row5_1 (c : Dev nD) (t : Fin cfg5.N) (j : S5000x128.Idx) (k : Fin 128) :
    (iblk5 V c 1 t : Vec Ideal S5000x128 .f32) (ix2 (j 0) k)
      = (V c (Pipeline.arrRef spec5 1) : S100000x128.Idx → EReal) (ix2 ((((cfg5.win 5).blk t).view.emb j : S100000x128.Idx) 0) k) := by
  have e0 := (idx_facts5_1 t).1
  have e1 := (idx_facts5_1 t).2
  have o0 := (idx_facts5_5 t).1
  show (V c (Pipeline.arrRef spec5 1) : S100000x128.Idx → EReal) (((cfg5.win 1).blk t).view.emb (ix2 (j 0) k)) = _
  refine congrArg (V c (Pipeline.arrRef spec5 1) : S100000x128.Idx → EReal) ?_
  funext a; apply Fin.ext
  match a with
  | ⟨0, _⟩ => show win5_1.index t (0 : Fin 2) * 5000 + 1 * (j 0).val = win5_5.index t (0 : Fin 2) * 5000 + 1 * (j 0).val; rw [e0, o0]
  | ⟨1, _⟩ => show win5_1.index t (1 : Fin 2) * 128 + 1 * k.val = k.val; rw [e1]; omega

/-- Window 2's block is its whole array at every point. -/
theorem blk5_2 (c : Dev nD) (t : Fin cfg5.N) :
    (iblk5 V c 2 t : Vec Ideal S128x128 .f32) = (V c (Pipeline.arrRef spec5 2) : S128x128.Idx → EReal) := by
  have e0 := (idx_facts5_2 t).1
  have e1 := (idx_facts5_2 t).2
  funext y
  show (V c (Pipeline.arrRef spec5 2) : S128x128.Idx → EReal) (((cfg5.win 2).blk t).view.emb y) = _
  refine congrArg (V c (Pipeline.arrRef spec5 2) : S128x128.Idx → EReal) ?_
  funext a; apply Fin.ext
  match a with
  | ⟨0, _⟩ => show win5_2.index t (0 : Fin 2) * 128 + 1 * (y 0).val = (y 0).val; rw [e0]; omega
  | ⟨1, _⟩ => show win5_2.index t (1 : Fin 2) * 128 + 1 * (y 1).val = (y 1).val; rw [e1]; omega

/-- Window 3's block is its whole array at every point. -/
theorem blk5_3 (c : Dev nD) (t : Fin cfg5.N) :
    (iblk5 V c 3 t : Vec Ideal S128x128 .f32) = (V c (Pipeline.arrRef spec5 3) : S128x128.Idx → EReal) := by
  have e0 := (idx_facts5_3 t).1
  have e1 := (idx_facts5_3 t).2
  funext y
  show (V c (Pipeline.arrRef spec5 3) : S128x128.Idx → EReal) (((cfg5.win 3).blk t).view.emb y) = _
  refine congrArg (V c (Pipeline.arrRef spec5 3) : S128x128.Idx → EReal) ?_
  funext a; apply Fin.ext
  match a with
  | ⟨0, _⟩ => show win5_3.index t (0 : Fin 2) * 128 + 1 * (y 0).val = (y 0).val; rw [e0]; omega
  | ⟨1, _⟩ => show win5_3.index t (1 : Fin 2) * 128 + 1 * (y 1).val = (y 1).val; rw [e1]; omega

/-- Window 4's block is its whole array at every point. -/
theorem blk5_4 (c : Dev nD) (t : Fin cfg5.N) :
    (iblk5 V c 4 t : Vec Ideal S1x128 .f32) = (V c (Pipeline.arrRef spec5 4) : S1x128.Idx → EReal) := by
  have e0 := (idx_facts5_4 t).1
  have e1 := (idx_facts5_4 t).2
  funext y
  show (V c (Pipeline.arrRef spec5 4) : S1x128.Idx → EReal) (((cfg5.win 4).blk t).view.emb y) = _
  refine congrArg (V c (Pipeline.arrRef spec5 4) : S1x128.Idx → EReal) ?_
  funext a; apply Fin.ext
  match a with
  | ⟨0, _⟩ => show win5_4.index t (0 : Fin 2) * 1 + 1 * (y 0).val = (y 0).val; rw [e0]; omega
  | ⟨1, _⟩ => show win5_4.index t (1 : Fin 2) * 128 + 1 * (y 1).val = (y 1).val; rw [e1]; omega

/-- The output block's index `j` sits in column `j 1` of the array. -/
theorem col5 (t : Fin cfg5.N) (j : S5000x128.Idx) :
    ((((cfg5.win 5).blk t).view.emb j : S100000x128.Idx) 1 : Fin 128) = j 1 := by
  have e1 := (idx_facts5_5 t).2
  apply Fin.ext
  show win5_5.index t (1 : Fin 2) * 128 + 1 * (j 1).val = (j 1).val
  rw [e1]; omega

/-- What point `t` writes back is block `t` of `Gcomb` of the arrays the region finds. -/
theorem flushed5_eq (c : Dev nD) (t : Fin cfg5.N) :
    (dat5 (F := Ideal) V c).flushed 5 t = ((cfg5.win 5).blk t).view.read (Elt Ideal)
      (Gcomb (V c (Pipeline.arrRef spec5 0)) (V c (Pipeline.arrRef spec5 1)) (V c (Pipeline.arrRef spec5 2))
          (V c (Pipeline.arrRef spec5 3)) (V c (Pipeline.arrRef spec5 4))) := by
  show (cfg5.win 5).cut (grid5.coords t) ((dat5 V c).after 5 t) = _
  rw [after5_5]
  unfold out5_5
  rw [View.canon_unit_zero hz_comb]
  simp only [View.ld_unit_zero (S := S5000x128) hz_comb, View.ld_unit_zero (S := S128x128) hz_comb, View.ld_unit_zero (S := S1x128) hz_comb]
  funext j
  exact comb5_point (V c (Pipeline.arrRef spec5 0)) (V c (Pipeline.arrRef spec5 1)) (V c (Pipeline.arrRef spec5 2))
    (V c (Pipeline.arrRef spec5 3)) (V c (Pipeline.arrRef spec5 4))
    (iblk5 V c 0 t) (iblk5 V c 1 t) (iblk5 V c 2 t) (iblk5 V c 3 t) (iblk5 V c 4 t) j (((cfg5.win 5).blk t).view.emb j)
    (row5_0 V c t j) (row5_1 V c t j) (col5 t j) (blk5_2 V c t) (blk5_3 V c t) (blk5_4 V c t)

/-- An index of the output array is in point `t`'s block iff each coordinate is in the block's range on its axis. -/
theorem mem_blk5 (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v71).slice (win5_5.rect t)).set ↔ _
  rw [View.set_slice_whole, Rect.mem_set_unit]
  exact Iff.rfl

/-- Row `r` of the output lies in the block of point `r / 5000`, and every point writes back: the 20 blocks cover the array. -/
theorem cover5 (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 20 := N_5
  refine ⟨⟨(i 0).val / 5000, by rw [hN]; omega⟩, flush5_5 _, ?_⟩
  have e0 := (idx_facts5_5 ⟨(i 0).val / 5000, by rw [hN]; omega⟩).1
  have e1 := (idx_facts5_5 ⟨(i 0).val / 5000, by rw [hN]; omega⟩).2
  rw [mem_blk5]
  intro a
  match a with
  | ⟨0, _⟩ =>
    show win5_5.index _ (0 : Fin 2) * 5000 ≤ (i 0).val ∧ (i 0).val < win5_5.index _ (0 : Fin 2) * 5000 + 5000
    rw [e0]; show (i 0).val / 5000 * 5000 ≤ (i 0).val ∧ (i 0).val < (i 0).val / 5000 * 5000 + 5000; omega
  | ⟨1, _⟩ =>
    show win5_5.index _ (1 : Fin 2) * 128 ≤ (i 1).val ∧ (i 1).val < win5_5.index _ (1 : Fin 2) * 128 + 128
    rw [e1]; omega

/-- THE OUTPUT ARRAY after region 5: `Gcomb` of the arrays the region finds, at every index. -/
theorem final5 (c : Dev nD) :
    (dat5 (F := Ideal) V c).arrAt 5 cfg5.N
      = Gcomb (V c (Pipeline.arrRef spec5 0)) (V c (Pipeline.arrRef spec5 1)) (V c (Pipeline.arrRef spec5 2))
          (V c (Pipeline.arrRef spec5 3)) (V c (Pipeline.arrRef spec5 4)) :=
  (dat5 (F := Ideal) V c).arrAt_eq_of_cover 5 _ (fun t _ => flushed5_eq V c t) (cover5)

end

end Cert.KernelIdeal.RegVal
end
-- ==== Proof.RegionOut.lean ====
import proofs.«150060_j45646912422072_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx

theorem hz_out : (![0, 0] : Fin 2 → Nat) = fun _ => 0 := funext fun a => by fin_cases a <;> rfl

/-- The output layer: row `r` of `X` against column `q` of `W`, plus the bias `B (0, q)`, clamped below at the zero
    literal. -/
def Gout (X : S100000x128.Idx → EReal) (W : S128x64.Idx → EReal) (B : S1x64.Idx → EReal) : S100000x64.Idx → EReal :=
  fun i => max ((∑ k : Fin 128, X (ix2 (i 0) k) * W (ix2 k (i 1))) + B (ix2 0 (i 1))) (Ideal.ofBits .f32 0x00000000#32)

/-- The contraction's operand indices at output index `i` and contraction index `q`: row `i 0` and column `q` of the left
    operand, row `q` and column `i 1` of the right one. -/
theorem mm64_lhs0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem mm64_lhs1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem mm64_rhs0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem mm64_rhs1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A block's matrix product into the zero accumulator, read at row `p`, column `q`: the sum over the 128 contraction
    positions of the left operand's row `p` times the right operand's column `q`. -/
theorem mm64_apply {φ₁ φ₂ : FTy} (a : FVec Ideal S5000x128 φ₁) (b : FVec Ideal S128x64 φ₂) (p : Fin 5000) (q : Fin 64) :
    matmul dot_S5000x128_S128x64_S5000x64_1_0_0_1_n_n none a b (constant (F := Ideal) S5000x64 .f32 0x00000000#32) (ix2 p q)
      = ∑ k : Fin 128, a (ix2 p k) * b (ix2 k q) := by
  show FloatOps.matmul dot_S5000x128_S128x64_S5000x64_1_0_0_1_n_n none a b (constant (F := Ideal) S5000x64 .f32 0x00000000#32) (ix2 p q) = _
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact mm64_lhs0 _ _
    | ⟨1, _⟩ => exact (mm64_lhs1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (mm64_rhs0 _ _).trans hk
    | ⟨1, _⟩ => exact mm64_rhs1 _ _)
  rw [el, er]

/-! ## Region 6: `max (x @ W3 + b3) 0`, row block by row block -/

/-- The body's stored value at row `p`, column `q` of the block: the block's row `p` against the weight matrix's column
    `q`, plus the bias row at column `q`, clamped below at the zero literal (the format changes on the way into the
    product are the identity on extended reals). -/
theorem pay6_apply (x0 : Vec Ideal S5000x128 .f32) (x1 : Vec Ideal S128x64 .f32) (x2 : Vec Ideal S1x64 .f32) (p : Fin 5000) (q : Fin 64) :
    k6_pay1 (F := Ideal) x0 x1 x2 (ix2 p q)
      = max ((∑ k : Fin 128, x0 (ix2 p k) * x1 (ix2 k q)) + x2 (ix2 0 q)) (Ideal.ofBits .f32 0x00000000#32) := by
  unfold k6_pay1
  simp only [shapeCast_self]
  rw [maximumf_apply, addf_apply, broadcastTo_1b_ab_apply, mm64_apply]
  rfl

/-- The same at an index `j` of the block, when the row-block operand's row `j 0` is row `i 0` of the whole array `X`
    and `j` is in column `i 1`: the stored value is `Gout` at `i`. -/
theorem out6_point (X : S100000x128.Idx → EReal) (W : S128x64.Idx → EReal) (B : S1x64.Idx → EReal)
    (x0 : Vec Ideal S5000x128 .f32) (x1 : Vec Ideal S128x64 .f32) (x2 : Vec Ideal S1x64 .f32) (j : S5000x64.Idx) (i : S100000x64.Idx)
    (hX : ∀ k : Fin 128, x0 (ix2 (j 0) k) = X (ix2 (i 0) k))
    (hq : (i 1 : Fin 64) = j 1) (h1 : x1 = W) (h2 : x2 = B) :
    k6_pay1 (F := Ideal) x0 x1 x2 j = Gout X W B i := by
  subst h1 h2
  obtain ⟨p, q, rfl⟩ : ∃ (p : Fin 5000) (q : Fin 64), j = ix2 p q := ⟨j 0, j 1, eq_ix2 j⟩
  have hX' : ∀ k : Fin 128, x0 (ix2 p k) = X (ix2 (i 0) k) := hX
  rw [pay6_apply]
  unfold Gout
  rw [hq]
  simp only [hX']

/-! The printed index maps over the grid: the row-block windows (the input 0 and the output 3) are at block `(t, 0)` at
    point `t`, the weight window and the bias window at block `(0, 0)`. -/

theorem idx_facts6_0 : ∀ t : Fin cfg6.N, win6_0.index t (0 : Fin 2) = t.val ∧ win6_0.index t (1 : Fin 2) = 0 :=
  (by decide +kernel : ∀ t : Fin grid6.N, _)
theorem idx_facts6_3 : ∀ t : Fin cfg6.N, win6_3.index t (0 : Fin 2) = t.val ∧ win6_3.index t (1 : Fin 2) = 0 :=
  (by decide +kernel : ∀ t : Fin grid6.N, _)
theorem idx_facts6_1 : ∀ t : Fin cfg6.N, win6_1.index t (0 : Fin 2) = 0 ∧ win6_1.index t (1 : Fin 2) = 0 :=
  (by decide +kernel : ∀ t : Fin grid6.N, _)
theorem idx_facts6_2 : ∀ t : Fin cfg6.N, win6_2.index t (0 : Fin 2) = 0 ∧ win6_2.index t (1 : Fin 2) = 0 :=
  (by decide +kernel : ∀ t : Fin grid6.N, _)

section
variable (V : (c : Dev nD) → (b : Ref sig .tc) → Buf (Elt Ideal) ((c : Thread nD τ).loc b))

/-- Input block 0 at point `t` holds, in the row of the block index `j` and column `k`, the array's entry in the row the
    OUTPUT block's index `j` sits in and column `k`: both windows are at rows `5000 t + j 0`. -/
theorem row6_0 (c : Dev nD) (t : Fin cfg6.N) (j : S5000x64.Idx) (k : Fin 128) :
    (iblk6 V c 0 t : Vec Ideal S5000x128 .f32) (ix2 (j 0) k)
      = (V c (Pipeline.arrRef spec6 0) : S100000x128.Idx → EReal) (ix2 ((((cfg6.win 3).blk t).view.emb j : S100000x64.Idx) 0) k) := by
  have e0 := (idx_facts6_0 t).1
  have e1 := (idx_facts6_0 t).2
  have o0 := (idx_facts6_3 t).1
  show (V c (Pipeline.arrRef spec6 0) : S100000x128.Idx → EReal) (((cfg6.win 0).blk t).view.emb (ix2 (j 0) k)) = _
  refine congrArg (V c (Pipeline.arrRef spec6 0) : S100000x128.Idx → EReal) ?_
  funext a; apply Fin.ext
  match a with
  | ⟨0, _⟩ => show win6_0.index t (0 : Fin 2) * 5000 + 1 * (j 0).val = win6_3.index t (0 : Fin 2) * 5000 + 1 * (j 0).val; rw [e0, o0]
  | ⟨1, _⟩ => show win6_0.index t (1 : Fin 2) * 128 + 1 * k.val = k.val; rw [e1]; omega

/-- Window 1's block is its whole array at every point. -/
theorem blk6_1 (c : Dev nD) (t : Fin cfg6.N) :
    (iblk6 V c 1 t : Vec Ideal S128x64 .f32) = (V c (Pipeline.arrRef spec6 1) : S128x64.Idx → EReal) := by
  have e0 := (idx_facts6_1 t).1
  have e1 := (idx_facts6_1 t).2
  funext y
  show (V c (Pipeline.arrRef spec6 1) : S128x64.Idx → EReal) (((cfg6.win 1).blk t).view.emb y) = _
  refine congrArg (V c (Pipeline.arrRef spec6 1) : S128x64.Idx → EReal) ?_
  funext a; apply Fin.ext
  match a with
  | ⟨0, _⟩ => show win6_1.index t (0 : Fin 2) * 128 + 1 * (y 0).val = (y 0).val; rw [e0]; omega
  | ⟨1, _⟩ => show win6_1.index t (1 : Fin 2) * 64 + 1 * (y 1).val = (y 1).val; rw [e1]; omega

/-- Window 2's block is its whole array at every point. -/
theorem blk6_2 (c : Dev nD) (t : Fin cfg6.N) :
    (iblk6 V c 2 t : Vec Ideal S1x64 .f32) = (V c (Pipeline.arrRef spec6 2) : S1x64.Idx → EReal) := by
  have e0 := (idx_facts6_2 t).1
  have e1 := (idx_facts6_2 t).2
  funext y
  show (V c (Pipeline.arrRef spec6 2) : S1x64.Idx → EReal) (((cfg6.win 2).blk t).view.emb y) = _
  refine congrArg (V c (Pipeline.arrRef spec6 2) : S1x64.Idx → EReal) ?_
  funext a; apply Fin.ext
  match a with
  | ⟨0, _⟩ => show win6_2.index t (0 : Fin 2) * 1 + 1 * (y 0).val = (y 0).val; rw [e0]; omega
  | ⟨1, _⟩ => show win6_2.index t (1 : Fin 2) * 64 + 1 * (y 1).val = (y 1).val; rw [e1]; omega

/-- The output block's index `j` sits in column `j 1` of the array. -/
theorem col6 (t : Fin cfg6.N) (j : S5000x64.Idx) :
    ((((cfg6.win 3).blk t).view.emb j : S100000x64.Idx) 1 : Fin 64) = j 1 := by
  have e1 := (idx_facts6_3 t).2
  apply Fin.ext
  show win6_3.index t (1 : Fin 2) * 64 + 1 * (j 1).val = (j 1).val
  rw [e1]; omega

/-- What point `t` writes back is block `t` of `Gout` of the arrays the region finds. -/
theorem flushed6_eq (c : Dev nD) (t : Fin cfg6.N) :
    (dat6 (F := Ideal) V c).flushed 3 t = ((cfg6.win 3).blk t).view.read (Elt Ideal)
      (Gout (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero hz_out]
  simp only [View.ld_unit_zero (S := S5000x128) hz_out, View.ld_unit_zero (S := S128x64) hz_out, View.ld_unit_zero (S := S1x64) hz_out]
  funext j
  exact out6_point (V c (Pipeline.arrRef spec6 0)) (V c (Pipeline.arrRef spec6 1)) (V c (Pipeline.arrRef spec6 2))
    (iblk6 V c 0 t) (iblk6 V c 1 t) (iblk6 V c 2 t) j (((cfg6.win 3).blk t).view.emb j)
    (row6_0 V c t j) (col6 t j) (blk6_1 V c t) (blk6_2 V c t)

/-- An index of the output array is in point `t`'s block iff each coordinate is in the block's range on its axis. -/
theorem mem_blk6 (t : Fin cfg6.N) (i : S100000x64.Idx) :
    i ∈ ((cfg6.win 3).blk t).view.set ↔ ∀ a : Fin 2, win6_3.index t a * S5000x64.size a ≤ (i a).val ∧ (i a).val < win6_3.index t a * S5000x64.size a + S5000x64.size a := by
  show i ∈ ((View.whole main_v72).slice (win6_3.rect t)).set ↔ _
  rw [View.set_slice_whole, Rect.mem_set_unit]
  exact Iff.rfl

/-- Row `r` of the output lies in the block of point `r / 5000`, and every point writes back: the 20 blocks cover the array. -/
theorem cover6 (i : S100000x64.Idx) :
    ∃ t : Fin cfg6.N, (cfg6.win 3).flush t = true ∧ i ∈ ((cfg6.win 3).blk t).view.set := by
  have hi0 : (i 0).val < 100000 := (i 0).isLt
  have hi1 : (i 1).val < 64 := (i 1).isLt
  have hN : cfg6.N = 20 := N_6
  refine ⟨⟨(i 0).val / 5000, by rw [hN]; omega⟩, flush6_3 _, ?_⟩
  have e0 := (idx_facts6_3 ⟨(i 0).val / 5000, by rw [hN]; omega⟩).1
  have e1 := (idx_facts6_3 ⟨(i 0).val / 5000, by rw [hN]; omega⟩).2
  rw [mem_blk6]
  intro a
  match a with
  | ⟨0, _⟩ =>
    show win6_3.index _ (0 : Fin 2) * 5000 ≤ (i 0).val ∧ (i 0).val < win6_3.index _ (0 : Fin 2) * 5000 + 5000
    rw [e0]; show (i 0).val / 5000 * 5000 ≤ (i 0).val ∧ (i 0).val < (i 0).val / 5000 * 5000 + 5000; omega
  | ⟨1, _⟩ =>
    show win6_3.index _ (1 : Fin 2) * 64 ≤ (i 1).val ∧ (i 1).val < win6_3.index _ (1 : Fin 2) * 64 + 64
    rw [e1]; omega

/-- THE OUTPUT ARRAY after region 6: `Gout` of the arrays the region finds, at every index. -/
theorem final6 (c : Dev nD) :
    (dat6 (F := Ideal) V c).arrAt 3 cfg6.N
      = Gout (V c (Pipeline.arrRef spec6 0)) (V c (Pipeline.arrRef spec6 1)) (V c (Pipeline.arrRef spec6 2)) :=
  (dat6 (F := Ideal) V c).arrAt_eq_of_cover 3 _ (fun t _ => flushed6_eq V c t) (cover6)

end

end Cert.KernelIdeal.RegVal
end
-- ==== Proof.LibVariance.lean ====
/-
  The variance identity on the extended reals, for finitely many FINITE entries, no program in sight.

  For reals `r k`, `k` ranging over a finite type of `N` elements, and their mean `m = (∑ r k) / N`,
      (∑ (r k - m)²) / N = (∑ (r k)²) / N - m²:
  expand the square, sum the three terms, and use `∑ r k = N · m`. On the extended reals the same identity holds
  when every entry is a real (it fails at the infinities, where `x - x` is not `0`): the division of an extended
  real by a nonzero real is the product with the reciprocal, a finite sum of reals is a real, and so both sides are
  the coercions of the two sides of the real identity. The mean and the variance are then reals themselves, the
  variance a non-negative one.
-/
import Idealize.ShloMosaic.PureOps.Ideal

noncomputable section

open scoped BigOperators

namespace Cert.LibVariance

open Idealize.ShloMosaic

/-- The coercion of a finite sum of reals is the sum of the coercions. -/
theorem coe_finset_sum {ι : Type*} (s : Finset ι) (r : ι → ℝ) :
    ((∑ k ∈ s, r k : ℝ) : EReal) = ∑ k ∈ s, (r k : EReal) := by
  classical
  induction s using Finset.induction_on with
  | empty => simp
  | insert a s ha ih => rw [Finset.sum_insert ha, Finset.sum_insert ha, EReal.coe_add, ih]

/-- A finite sum of extended reals that are all reals is a real. -/
theorem sum_real {ι : Type*} (s : Finset ι) (h : ι → EReal) (hfin : ∀ k, ∃ r : ℝ, h k = (r : EReal)) :
    ∃ r : ℝ, ∑ k ∈ s, h k = (r : EReal) := by
  choose r hr using hfin
  exact ⟨∑ k ∈ s, r k, by rw [coe_finset_sum]; exact Finset.sum_congr rfl fun k _ => hr k⟩

/-- A real divided by a nonzero real, on the extended reals, is the real quotient. -/
theorem div_coe_coe {N : ℝ} (hN0 : N ≠ 0) (x : ℝ) :
    Ideal.div (x : EReal) (N : EReal) = ((x / N : ℝ) : EReal) := by
  rw [Ideal.div_coe hN0, ← EReal.coe_mul, mul_one_div]

/-- The variance identity over the reals: the mean of the squared deviations from the mean is the mean of the
    squares minus the square of the mean. `N` is the number of entries, as a real. -/
theorem real_variance {ι : Type*} [Fintype ι] (r : ι → ℝ) (N : ℝ) (hN : (Fintype.card ι : ℝ) = N) (hN0 : N ≠ 0) :
    (∑ k, (r k - (∑ k, r k) / N) * (r k - (∑ k, r k) / N)) / N
      = (∑ k, r k * r k) / N - (∑ k, r k) / N * ((∑ k, r k) / N) := by
  set m : ℝ := (∑ k, r k) / N with hm
  have hS : ∑ k, r k = N * m := by rw [hm]; field_simp
  have hexp : ∀ k, (r k - m) * (r k - m) = r k * r k - 2 * m * r k + m * m := fun k => by ring
  have h1 : ∑ k, (r k - m) * (r k - m) = ∑ k, r k * r k - 2 * m * (N * m) + N * (m * m) := by
    simp only [hexp]
    rw [Finset.sum_add_distrib, Finset.sum_sub_distrib, ← Finset.mul_sum, hS, Finset.sum_const, Finset.card_univ,
      nsmul_eq_mul, hN]
  rw [h1]
  field_simp
  ring

/-- The mean of finitely many reals, computed on the extended reals, is the real mean. -/
theorem mean_coe {ι : Type*} [Fintype ι] (r : ι → ℝ) (N : ℝ) (hN0 : N ≠ 0) :
    Ideal.div (∑ k, (r k : EReal)) (N : EReal) = (((∑ k, r k) / N : ℝ) : EReal) := by
  rw [← coe_finset_sum, div_coe_coe hN0]

/-- The mean of finitely many finite extended reals is a real. -/
theorem mean_real {ι : Type*} [Fintype ι] (h : ι → EReal) (hfin : ∀ k, ∃ r : ℝ, h k = (r : EReal))
    (N : ℝ) (hN0 : N ≠ 0) : ∃ m : ℝ, Ideal.div (∑ k, h k) (N : EReal) = (m : EReal) := by
  choose r hr using hfin
  obtain rfl : h = fun k => (r k : EReal) := funext hr
  exact ⟨_, mean_coe r N hN0⟩

/-- The variance identity on the extended reals, for finite entries: with `μ` the mean of the `h k`, the mean of
    `(h k - μ)²` is the mean of `(h k)²` minus `μ²`. `N` is the number of entries, as a real. -/
theorem variance_eq {ι : Type*} [Fintype ι] (h : ι → EReal) (hfin : ∀ k, ∃ r : ℝ, h k = (r : EReal))
    (N : ℝ) (hN : (Fintype.card ι : ℝ) = N) (hN0 : N ≠ 0) :
    Ideal.div (∑ k, (h k - Ideal.div (∑ k, h k) (N : EReal)) * (h k - Ideal.div (∑ k, h k) (N : EReal))) (N : EReal)
      = Ideal.div (∑ k, h k * h k) (N : EReal)
          - Ideal.div (∑ k, h k) (N : EReal) * Ideal.div (∑ k, h k) (N : EReal) := by
  choose r hr using hfin
  obtain rfl : h = fun k => (r k : EReal) := funext hr
  rw [mean_coe r N hN0]
  simp only [← EReal.coe_sub, ← EReal.coe_mul, ← coe_finset_sum, div_coe_coe hN0]
  exact congrArg _ (real_variance r N hN hN0)

/-- The variance of finitely many finite extended reals (the mean of the squared deviations from the mean) is a
    non-negative real. -/
theorem variance_real {ι : Type*} [Fintype ι] (h : ι → EReal) (hfin : ∀ k, ∃ r : ℝ, h k = (r : EReal))
    (N : ℝ) (hN : (Fintype.card ι : ℝ) = N) (hN0 : N ≠ 0) :
    ∃ v : ℝ, 0 ≤ v ∧
      Ideal.div (∑ k, (h k - Ideal.div (∑ k, h k) (N : EReal)) * (h k - Ideal.div (∑ k, h k) (N : EReal))) (N : EReal)
        = (v : EReal) := by
  choose r hr using hfin
  obtain rfl : h = fun k => (r k : EReal) := funext hr
  have hNpos : 0 < N := lt_of_le_of_ne (hN ▸ Nat.cast_nonneg _) (Ne.symm hN0)
  refine ⟨(∑ k, (r k - (∑ k, r k) / N) * (r k - (∑ k, r k) / N)) / N,
    div_nonneg (Finset.sum_nonneg fun k _ => mul_self_nonneg _) hNpos.le, ?_⟩
  rw [mean_coe r N hN0]
  simp only [← EReal.coe_sub, ← EReal.coe_mul, ← coe_finset_sum, div_coe_coe hN0]

/-- The mean of the squares of finitely many finite extended reals is a real. -/
theorem meansq_real {ι : Type*} [Fintype ι] (h : ι → EReal) (hfin : ∀ k, ∃ r : ℝ, h k = (r : EReal))
    (N : ℝ) (hN0 : N ≠ 0) : ∃ q : ℝ, Ideal.div (∑ k, h k * h k) (N : EReal) = (q : EReal) := by
  choose r hr using hfin
  obtain rfl : h = fun k => (r k : EReal) := funext hr
  refine ⟨(∑ k, r k * r k) / N, ?_⟩
  simp only [← EReal.coe_mul, ← coe_finset_sum, div_coe_coe hN0]

end Cert.LibVariance
-- ==== Proof.BridgeNorm.lean ====
/-
  The first three stages of a layer — dense, batch statistics, normalise — as the kernel program computes them and
  as the reference does, over the extended reals.

  Dense: the kernel multiplies by the transposed weight matrix it is handed and adds a bias row; the reference
  contracts with the transpose it takes itself and adds the broadcast bias: the same double-indexed sum.
  Statistics: the kernel's column totals are `0 + ∑ y` and `0 + ∑ y²` over the 100000 rows; its mean is the first over
  100000 and its variance the second over 100000 less the squared mean. The reference's mean is the same quotient; its
  variance is the mean of the squared deviations from the mean. The two variances agree when every `y` is a real
  number (at an infinity the kernel's form meets `∞ − ∞`): this is where finiteness of the inputs is used.
  Normalise: both subtract the mean, multiply by the reciprocal square root of variance plus the same small literal,
  scale, shift and clamp at zero, column by column.
-/
import proofs.«150060_j45646912422072_1_alg».proof.Proof.Gen.ReferenceIdeal.Read
import proofs.«150060_j45646912422072_1_alg».proof.Proof.LibVariance
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Cert.ReferenceIdeal Cert.ReferenceIdeal.Gen Cert.ReferenceIdeal.Read Idealize.ShloMosaic Idealize.ShloMosaic.ValueIdx

variable (X : (⟨S100000x128, .f32⟩ : BufTy).Contents (Elt Ideal)) (W : (⟨S128x128, .f32⟩ : BufTy).Contents (Elt Ideal)) (b g bt : (⟨S128, .f32⟩ : BufTy).Contents (Elt Ideal))

/-- The dense layer over a transposed weight matrix `Wt` and a bias row `B`. -/
def dense (X : S100000x128.Idx → EReal) (Wt : S128x128.Idx → EReal) (B : S1x128.Idx → EReal) : S100000x128.Idx → EReal :=
  fun i => (∑ k : Fin 128, X (ix2 (i 0) k) * Wt (ix2 k (i 1))) + B (ix2 (0 : Fin 1) (i 1))

/-- Normalise, scale, shift and clamp, column by column, over one-row arrays of means, variances, scales and shifts. -/
def normF (Y : S100000x128.Idx → EReal) (Mu Vr G B : S1x128.Idx → EReal) : S100000x128.Idx → EReal :=
  fun i => max ((((Y i - Mu (ix2 (0 : Fin 1) (i 1))) * Ideal.rsqrt (Vr (ix2 (0 : Fin 1) (i 1)) + Ideal.ofBits .f32 0x3727C5AC#32)) * G (ix2 (0 : Fin 1) (i 1))) + B (ix2 (0 : Fin 1) (i 1))) (Ideal.ofBits .f32 0x00000000#32)

/-- The reference's dense stage at row `r`, column `q`. -/
theorem ref_dense_apply (r : Fin 100000) (q : Fin 128) :
    val_main_v4 (F := Ideal) X W b (ix2 r q)
      = (∑ k : Fin 128, X (ix2 r k) * transpose S128x128 [1, 0] W transposes_S128x128_S128x128_1_0 (ix2 k q)) + b (ix1 q) := by
  rw [val_main_v4_apply, val_main_v1_apply, val_main_v3_apply, val_main_v2_apply]
  refine congrArg₂ (· + ·) (Finset.sum_congr rfl fun k _ => ?_) (congrArg b ?_)
  · have e1 : lidx_main_v1 (ix2 r q) k = ix2 r k := funext fun a => by match a with | ⟨0, _⟩ => rfl | ⟨1, _⟩ => rfl
    have e2 : ridx_main_v1 (ix2 r q) k = ix2 k q := funext fun a => by match a with | ⟨0, _⟩ => rfl | ⟨1, _⟩ => rfl
    rw [e1, e2]
    rfl
  · funext a
    match a with
    | ⟨0, _⟩ => rfl

/-- DENSE: the kernel's dense layer over the transposed matrix and the bias laid out as a row is the reference's. -/
theorem dense_eq (h1 : S128x128.Transposes [1, 0] S128x128) (h2 : S128.ShapeCasts S1x128) :
    dense X (transpose S128x128 [1, 0] W h1) (shapeCast S1x128 b h2) = val_main_v4 (F := Ideal) X W b := by
  funext i
  obtain ⟨r, q, rfl⟩ : ∃ (r : Fin 100000) (q : Fin 128), i = ix2 r q := ⟨i 0, i 1, eq_ix2 i⟩
  rw [ref_dense_apply]
  unfold dense
  refine congrArg₂ (· + ·) rfl ?_
  exact shapeCast_a_1a_apply b h2 0 q

/-- The reference's mean at column `q`. -/
theorem ref_mean_apply (q : Fin 128) :
    val_main_v7 (F := Ideal) X W b (ix1 q)
      = Ideal.div (Ideal.ofBits .f32 0x00000000#32 + ∑ r : Fin 100000, val_main_v4 (F := Ideal) X W b (ix2 r q))
          (Ideal.ofBits .f32 0x47C35000#32) := by
  rw [val_main_v7_apply, val_main_v5_apply, val_main_v6_apply, val_main_cst_apply, val_main_cst_0_apply]
  refine congrArg (fun s => Ideal.div (Ideal.ofBits .f32 0x00000000#32 + s) (Ideal.ofBits .f32 0x47C35000#32))
    (Finset.sum_congr rfl fun r _ => congrArg (val_main_v4 (F := Ideal) X W b) ?_)
  funext a
  match a with
  | ⟨0, _⟩ => rfl
  | ⟨1, _⟩ => rfl

/-- The reference's variance at column `q`: the mean of the squared deviations from its mean. -/
theorem ref_var_apply (q : Fin 128) :
    val_main_v14 (F := Ideal) X W b (ix1 q)
      = Ideal.div (Ideal.ofBits .f32 0x00000000#32 + ∑ r : Fin 100000,
            (val_main_v4 (F := Ideal) X W b (ix2 r q) - val_main_v7 (F := Ideal) X W b (ix1 q))
              * (val_main_v4 (F := Ideal) X W b (ix2 r q) - val_main_v7 (F := Ideal) X W b (ix1 q)))
          (Ideal.ofBits .f32 0x47C35000#32) := by
  rw [val_main_v14_apply, val_main_v12_apply, val_main_v13_apply, val_main_cst_1_apply, val_main_cst_2_apply]
  refine congrArg (fun s => Ideal.div (Ideal.ofBits .f32 0x00000000#32 + s) (Ideal.ofBits .f32 0x47C35000#32))
    (Finset.sum_congr rfl fun r _ => ?_)
  have e12 : idx_main_v12 (ix1 q) r = ix2 r q := funext fun a => by match a with | ⟨0, _⟩ => rfl | ⟨1, _⟩ => rfl
  have e89 : idx_main_v8 (idx_main_v9 (ix2 r q)) = ix1 q := funext fun a => by match a with | ⟨0, _⟩ => rfl
  rw [e12, val_main_v11_apply, val_main_v10_apply, val_main_v9_apply, val_main_v8_apply, e89]
  rfl

/-- STATISTICS: from the kernel's two column totals, its mean and its variance are the reference's, when every entry
    of the dense stage is a real number. `S` and `Q` are the one-row totals; the count is the literal 100000. -/
theorem stats_eq (hY : ∀ i, ∃ y : ℝ, val_main_v4 (F := Ideal) X W b i = (y : EReal))
    (hc : Ideal.ofBits .f32 0x47C35000#32 = ((100000 : ℝ) : EReal))
    (S Q : S1x128.Idx → EReal)
    (hS : ∀ q : Fin 128, S (ix2 (0 : Fin 1) q) = Ideal.ofBits .f32 0x00000000#32 + ∑ r : Fin 100000, val_main_v4 (F := Ideal) X W b (ix2 r q))
    (hQ : ∀ q : Fin 128, Q (ix2 (0 : Fin 1) q) = Ideal.ofBits .f32 0x00000000#32 + ∑ r : Fin 100000,
        val_main_v4 (F := Ideal) X W b (ix2 r q) * val_main_v4 (F := Ideal) X W b (ix2 r q))
    (q : Fin 128) :
    Ideal.div (S (ix2 (0 : Fin 1) q)) (Ideal.ofBits .f32 0x47C35000#32) = val_main_v7 (F := Ideal) X W b (ix1 q)
    ∧ Ideal.div (Q (ix2 (0 : Fin 1) q)) (Ideal.ofBits .f32 0x47C35000#32)
        - Ideal.div (S (ix2 (0 : Fin 1) q)) (Ideal.ofBits .f32 0x47C35000#32) * Ideal.div (S (ix2 (0 : Fin 1) q)) (Ideal.ofBits .f32 0x47C35000#32)
      = val_main_v14 (F := Ideal) X W b (ix1 q) := by
  have hm : Ideal.div (S (ix2 (0 : Fin 1) q)) (Ideal.ofBits .f32 0x47C35000#32) = val_main_v7 (F := Ideal) X W b (ix1 q) := by
    rw [ref_mean_apply, hS]
  refine ⟨hm, ?_⟩
  rw [hm, ref_var_apply, ref_mean_apply, hQ, hc, Ideal.ofBits_zero_f32, zero_add, zero_add, zero_add]
  exact (LibVariance.variance_eq (fun r : Fin 100000 => val_main_v4 (F := Ideal) X W b (ix2 r q)) (fun r => hY _)
    (100000 : ℝ) (by simp) (by norm_num)).symm

/-- The reference's normalise stage at row `r`, column `q`. -/
theorem ref_norm_apply (r : Fin 100000) (q : Fin 128) :
    val_main_v30 (F := Ideal) X W b g bt (ix2 r q)
      = max ((((val_main_v4 (F := Ideal) X W b (ix2 r q) - val_main_v7 (F := Ideal) X W b (ix1 q))
            * Ideal.rsqrt (val_main_v14 (F := Ideal) X W b (ix1 q) + Ideal.ofBits .f32 0x3727C5AC#32)) * g (ix1 q)) + bt (ix1 q))
          (Ideal.ofBits .f32 0x00000000#32) := by
  have e15 : idx_main_v15 (idx_main_v16 (ix2 r q)) = ix1 q := funext fun a => by match a with | ⟨0, _⟩ => rfl
  have e21 : idx_main_v21 (idx_main_v22 (ix2 r q)) = ix1 q := funext fun a => by match a with | ⟨0, _⟩ => rfl
  have e24 : idx_main_v24 (idx_main_v25 (ix2 r q)) = ix1 q := funext fun a => by match a with | ⟨0, _⟩ => rfl
  have e27 : idx_main_v27 (idx_main_v28 (ix2 r q)) = ix1 q := funext fun a => by match a with | ⟨0, _⟩ => rfl
  rw [val_main_v30_apply, val_main_v29_apply, val_main_v26_apply, val_main_v23_apply, val_main_v17_apply,
    val_main_v16_apply, val_main_v15_apply, e15, val_main_v22_apply, val_main_v21_apply, e21, val_main_v20_apply,
    val_main_v19_apply, val_main_v18_apply, val_main_cst_3_apply, val_main_v25_apply, val_main_v24_apply, e24,
    val_main_v28_apply, val_main_v27_apply, e27, val_main_call0_v0_apply, val_main_call0_cst_apply]
  rfl

/-- NORMALISE: over the reference's dense stage, one-row means and variances that are the reference's column by
    column, and the scale and shift laid out as rows, the kernel's normalise stage is the reference's. -/
theorem norm_eq (Mu Vr : S1x128.Idx → EReal)
    (hMu : ∀ q : Fin 128, Mu (ix2 (0 : Fin 1) q) = val_main_v7 (F := Ideal) X W b (ix1 q))
    (hVr : ∀ q : Fin 128, Vr (ix2 (0 : Fin 1) q) = val_main_v14 (F := Ideal) X W b (ix1 q))
    (h2 : S128.ShapeCasts S1x128) :
    normF (val_main_v4 (F := Ideal) X W b) Mu Vr (shapeCast S1x128 g h2) (shapeCast S1x128 bt h2)
      = val_main_v30 (F := Ideal) X W b g bt := by
  funext i
  obtain ⟨r, q, rfl⟩ : ∃ (r : Fin 100000) (q : Fin 128), i = ix2 r q := ⟨i 0, i 1, eq_ix2 i⟩
  rw [ref_norm_apply]
  show max ((((val_main_v4 (F := Ideal) X W b (ix2 r q) - Mu (ix2 (0 : Fin 1) q)) * Ideal.rsqrt (Vr (ix2 (0 : Fin 1) q) + Ideal.ofBits .f32 0x3727C5AC#32))
      * shapeCast S1x128 g h2 (ix2 (0 : Fin 1) q)) + shapeCast S1x128 bt h2 (ix2 (0 : Fin 1) q)) (Ideal.ofBits .f32 0x00000000#32) = _
  rw [hMu q, hVr q, shapeCast_a_1a_apply g h2 0 q, shapeCast_a_1a_apply bt h2 0 q]

end Cert.Bridge

end
-- ==== Proof.LibMoments.lean ====
/-
  General lemmas on first and second moments over the extended reals, no program in sight.

  For real numbers `a i` over a finite index set of `N ≠ 0` elements, write `S = ∑ a i` and `Q = ∑ (a i)²`.
  The two textbook forms of the (biased) variance agree:

      Q / N − (S / N)²  =  (∑ (a i − S / N)²) / N.

  Over the extended reals the law needs every `a i` FINITE (at an infinity the left side meets `∞ − ∞`), so it is
  stated for real `a`, coerced; the quotient is the extended reals' division by a nonzero real, which is the product
  with the reciprocal. Also here: the coercion of a finite sum of reals, and closure of "is a real number" under the
  operations that occur around such moments.
-/
import Idealize.ShloMosaic.PureOps.Ideal

open scoped BigOperators
open Idealize.ShloMosaic

namespace Cert.LibMoments

/-- The coercion of a finite sum of reals is the sum of the coercions. -/
theorem coe_sum {ι : Type*} (s : Finset ι) (a : ι → ℝ) : ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

/-- An extended real that is a real number. -/
def IsReal (x : EReal) : Prop := ∃ r : ℝ, x = (r : EReal)

theorem IsReal.coe (r : ℝ) : IsReal (r : EReal) := ⟨r, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.zero : IsReal (0 : EReal) := ⟨0, rfl⟩
theorem IsReal.sum {ι : Type*} (s : Finset ι) (f : ι → EReal) (h : ∀ i ∈ s, IsReal (f i)) : IsReal (∑ i ∈ s, f i) := by
  classical
  induction s using Finset.induction_on with
  | empty => simpa using IsReal.zero
  | insert i s hi ih =>
    rw [Finset.sum_insert hi]
    exact (h i (Finset.mem_insert_self i s)).add (ih fun j hj => h j (Finset.mem_insert_of_mem hj))
/-- The quotient by a nonzero real of a real is a real. -/
theorem IsReal.div_coe {x : EReal} (hx : IsReal x) {y : ℝ} (hy : y ≠ 0) : IsReal (Ideal.div x (y : EReal)) := by
  rw [Ideal.div_coe hy]; exact hx.mul (IsReal.coe _)
/-- The reciprocal square root of a positive real is a real. -/
theorem IsReal.rsqrt_pos {r : ℝ} (hr : 0 < r) : IsReal (Ideal.rsqrt (r : EReal)) := by
  rw [Ideal.rsqrt_coe, if_neg (not_lt.mpr hr.le), if_neg hr.ne']; exact IsReal.coe _

/-- The two forms of the variance of reals, over the reals: `N` the number of terms. -/
theorem real_var {ι : Type*} [Fintype ι] (a : ι → ℝ) (N : ℝ) (hN : N ≠ 0) (hcard : (Fintype.card ι : ℝ) = N) :
    (∑ i, a i * a i) * (1 / N) - ((∑ i, a i) * (1 / N)) * ((∑ i, a i) * (1 / N))
      = (∑ i, (a i - (∑ i, a i) * (1 / N)) * (a i - (∑ i, a i) * (1 / N))) * (1 / N) := by
  have hexp : ∀ μ : ℝ, ∑ i, (a i - μ) * (a i - μ) = (∑ i, a i * a i) - 2 * μ * (∑ i, a i) + N * (μ * μ) := by
    intro μ
    have h1 : ∀ i, (a i - μ) * (a i - μ) = a i * a i - 2 * μ * a i + μ * μ := fun i => by ring
    simp only [h1, Finset.sum_add_distrib, Finset.sum_sub_distrib, ← Finset.mul_sum, Finset.sum_const,
      Finset.card_univ, nsmul_eq_mul, hcard]
    ring
  rw [hexp]
  field_simp
  ring

/-- THE TWO FORMS OF THE VARIANCE over the extended reals, for real terms: the mean of the squares less the square of
    the mean is the mean of the squared deviations from the mean. `N` is the number of terms, as a real. -/
theorem var_forms {ι : Type*} [Fintype ι] (a : ι → ℝ) (N : ℝ) (hN : N ≠ 0) (hcard : (Fintype.card ι : ℝ) = N) :
    Ideal.div (∑ i, (a i : EReal) * (a i : EReal)) (N : EReal)
        - Ideal.div (∑ i, (a i : EReal)) (N : EReal) * Ideal.div (∑ i, (a i : EReal)) (N : EReal)
      = Ideal.div (∑ i, ((a i : EReal) - Ideal.div (∑ i, (a i : EReal)) (N : EReal))
          * ((a i : EReal) - Ideal.div (∑ i, (a i : EReal)) (N : EReal))) (N : EReal) := by
  simp only [Ideal.div_coe hN, ← EReal.coe_mul, ← coe_sum, ← EReal.coe_sub]
  exact congrArg _ (real_var a N hN hcard)

/-- The mean of squared real deviations is not negative: what keeps `variance + ε` positive. -/
theorem mean_sq_dev_nonneg {ι : Type*} [Fintype ι] (a : ι → ℝ) (μ N : ℝ) (hN : 0 < N) :
    0 ≤ (∑ i, (a i - μ) * (a i - μ)) * (1 / N) :=
  mul_nonneg (Finset.sum_nonneg fun i _ => mul_self_nonneg _) (by positivity)

end Cert.LibMoments
-- ==== Proof.LibFiniteOps.lean ====
/-
  "Every entry is a real" is preserved by the host operations of a program read on the extended reals, no program in
  sight.

  An array of extended reals is FINITE when each entry is the coercion of a real. Sums and products of two reals are
  reals, so pointwise sums and products of finite arrays are finite; a finite sum of reals is a real, so a contraction
  (`dot_general`) of finite arrays and an accumulating scatter of finite updates into a finite array are finite,
  whatever the integer indices say (an entry of the scatter is the operand's entry plus the sum of SOME of the
  updates); an entry of a gather or of a broadcast is SOME entry of its operand, and an entry of a select is an entry
  of one of its two branches. A float constant is finite unless its exponent field is all ones. The reciprocal square
  root is the one operation here with a corner (`rsqrt 0 = ⊤`), and a program guards it: where `v > 0` the entry is
  `rsqrt v = 1/√v`, a real, and elsewhere the entry of the other branch.
-/
import Idealize.ShloMosaic.PureOps.Ideal.Laws

noncomputable section

open scoped BigOperators

namespace Cert.LibFiniteOps

open Idealize.ShloMosaic

/-- Every entry of the array `f` is (the coercion of) a real. -/
abbrev AllReal {ι : Type*} (f : ι → EReal) : Prop := ∀ i, ∃ r : ℝ, f i = (r : EReal)

/-- The sum of two reals is a real. -/
theorem real_add {a b : EReal} (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

/-- The product of two reals is a real. -/
theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- A finite sum of reals is a real, over any finite set of indices. -/
theorem real_sum {ι : Type*} (s : Finset ι) {h : ι → EReal} (hfin : AllReal h) :
    ∃ r : ℝ, ∑ k ∈ s, h k = (r : EReal) := by
  classical
  induction s using Finset.induction_on with
  | empty => exact ⟨0, by simp⟩
  | insert a s ha ih => rw [Finset.sum_insert ha]; exact real_add (hfin a) ih

/-- A pointwise product of finite arrays is finite. -/
theorem allReal_mulf {s : Shape} {φ : FTy} {a b : FVec Ideal s φ} (ha : AllReal a) (hb : AllReal b) :
    AllReal (mulf a b) := fun i =>
  (real_mul (ha i) (hb i) : ∃ r : ℝ, a i * b i = (r : EReal))

/-- A pointwise sum of finite arrays is finite. -/
theorem allReal_addf {s : Shape} {φ : FTy} {a b : FVec Ideal s φ} (ha : AllReal a) (hb : AllReal b) :
    AllReal (addf a b) := fun i =>
  (real_add (ha i) (hb i) : ∃ r : ℝ, a i + b i = (r : EReal))

/-- A gather of a finite array is finite, whatever the start indices: each entry is some entry of the operand. -/
theorem allReal_gather {s si t : Shape} {w : Nat} (d : GatherDims s si t) {x : s.Idx → EReal} (hx : AllReal x)
    (idx : IVec si w) : AllReal (Host.gather d x idx) := fun _ => hx _

/-- A `broadcast_in_dim` of a finite array is finite: each entry is some entry of the operand. -/
theorem allReal_broadcastInDim {s : Shape} (t : Shape) (dims : Fin s.rank → Fin t.rank)
    (h : s.BroadcastsInDim t dims) {x : s.Idx → EReal} (hx : AllReal x) : AllReal (broadcastInDim t dims h x) :=
  fun _ => hx _

/-- A select between two finite arrays is finite, whatever the condition. -/
theorem allReal_select {s : Shape} (c : IVec s 1) {a b : s.Idx → EReal} (ha : AllReal a) (hb : AllReal b) :
    AllReal (select c a b) := fun i => by
  show ∃ r : ℝ, (if c i = 1 then a i else b i) = (r : EReal)
  split
  · exact ha i
  · exact hb i

/-- An accumulating scatter of finite updates into a finite array is finite, whatever the scatter indices: each entry
    is the operand's plus the sum of the updates that land on it. -/
theorem allReal_scatterAdd {s si u : Shape} {φ : FTy} {w : Nat} (d : ScatterDims s si u) {x : FVec Ideal s φ}
    (hx : AllReal x) (idx : IVec si w) {upd : FVec Ideal u φ} (hupd : AllReal upd) :
    AllReal (Host.scatterAdd d x idx upd) := fun i => by
  show ∃ r : ℝ, Ideal.hostScatterAdd d x idx upd i = (r : EReal)
  unfold Ideal.hostScatterAdd
  exact real_add (hx i) (real_sum _ hupd)

/-- A contraction (`dot_general`) of finite arrays is finite: each entry is a finite sum of products. -/
theorem allReal_dotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) := fun j => by
  simp only [Host.dotGeneral]
  rw [Ideal.dotGeneral_apply]
  exact real_sum _ fun k => real_mul (hl _) (hr _)

/-- An `f32` pattern whose exponent field is not all ones denotes a real. -/
theorem ofBits_f32_real (b : BitVec 32) (h : (b.extractLsb' 23 8).toNat ≠ 2 ^ 8 - 1) :
    ∃ r : ℝ, Ideal.ofBits .f32 b = (r : EReal) := by
  show ∃ r : ℝ, Ideal.ieee 8 23 b = (r : EReal)
  unfold Ideal.ieee
  dsimp only
  rw [if_neg h]
  split <;> exact ⟨_, rfl⟩

/-- The splat of an `f32` constant whose exponent field is not all ones is finite. -/
theorem allReal_constant_f32 (s : Shape) (b : BitVec 32) (h : (b.extractLsb' 23 8).toNat ≠ 2 ^ 8 - 1) :
    AllReal (constant (F := Ideal) s .f32 b) := fun _ => ofBits_f32_real b h

/-- The splat of the `f32` zero is zero everywhere. -/
theorem constant_zero_f32_apply (s : Shape) (i : s.Idx) : constant (F := Ideal) s .f32 0x00000000#32 i = 0 :=
  Ideal.ofBits_zero_f32

/-- The guarded reciprocal square root: where `v > z`, with `z` zero everywhere, the entry is `rsqrt v`, the
    reciprocal square root of a positive real, hence a real; elsewhere it is the entry of the finite array `w`. The
    corner `rsqrt 0 = ⊤` is never selected. -/
theorem allReal_select_gt_rsqrt {s : Shape} {φ : FTy} {v z w : FVec Ideal s φ} (hv : AllReal v)
    (hz : ∀ i, z i = 0) (hw : AllReal w) : AllReal (select (cmpf .ogt v z) (Host.rsqrt v) w) := fun i => by
  obtain ⟨r, hr⟩ := hv i
  show ∃ q : ℝ, (if Ideal.cmp .ogt (v i) (z i) = 1 then Ideal.rsqrt (v i) else w i) = (q : EReal)
  rw [hr, hz i]
  by_cases h : (0 : ℝ) < r
  · have hc : Ideal.cmp .ogt (r : EReal) 0 = 1 := by simp [Ideal.cmp, h]
    rw [if_pos hc, Ideal.rsqrt_coe, if_neg (not_lt.mpr h.le), if_neg h.ne']
    exact ⟨_, rfl⟩
  · have hc : ¬ Ideal.cmp .ogt (r : EReal) 0 = 1 := by simp [Ideal.cmp, h]
    rw [if_neg hc]
    exact hw i

end Cert.LibFiniteOps
-- ==== Proof.RefReal.lean ====
/-
  "Every entry is a real number", carried from the certificate's precondition through the reference's first layer.

  The precondition says, for each of the seventeen float arguments, `all (|a| < +∞)`; on the extended reals that is
  exactly "every entry is a real" (`|⊥| = |⊤| = ⊤`). The reference's first layer is a dense layer, a batch
  normalisation (mean and variance over the 100000 rows, a reciprocal square root of variance plus epsilon), a
  rectifier, a mean over incoming edges (gather, accumulating scatter, division by `max(degree, 1)`), a second dense
  stage and a rectifier. Every one of these keeps reals real: sums, differences, products and maxima of reals are
  reals; the variance is a mean of squares of reals, so not negative, and epsilon is positive, so the reciprocal
  square root is taken of a positive real; the degree's maximum with one is at least one, so the division is by a
  nonzero real. Hence every entry of the first layer's output is a real, which is what the second layer's batch
  statistics need in order to be computed in either of the two textbook forms.
-/
import proofs.«150060_j45646912422072_1_alg».proof.Proof.Gen.ReferenceIdeal.Read
import proofs.«150060_j45646912422072_1_alg».proof.Proof.Gen.Pre_finite_inputs
import proofs.«150060_j45646912422072_1_alg».proof.Defs
import proofs.«150060_j45646912422072_1_alg».proof.Proof.LibMoments
import proofs.«150060_j45646912422072_1_alg».proof.Proof.LibVariance
import proofs.«150060_j45646912422072_1_alg».proof.Proof.LibFiniteOps
import Idealize.ShloMosaic.Lib.ReduceAll
import Idealize.ShloMosaic.Lib.ValueIdx
import Idealize.ShloMosaic.PureOps.Ideal.Laws

noncomputable section

namespace Cert.RefReal

open Idealize.ShloMosaic Cert.LibFiniteOps Cert.LibMoments
open Cert.ReferenceIdeal Cert.ReferenceIdeal.Gen Cert.ReferenceIdeal.Read
open Idealize.SL.Sem

/-! ## The float constants the reference spells -/

/-- The number of rows: the pattern `0x47C35000` is `(2²³ + 4411392)·2⁻⁷ = 100000`. -/
theorem c1e5 : Ideal.ofBits .f32 0x47C35000#32 = ((100000 : ℝ) : EReal) := by
  simp [Ideal.ofBits, Ideal.ieee, -EReal.coe_mul]; norm_num

/-- The pattern `0x3F800000` is `1`. -/
theorem one_f32 : Ideal.ofBits .f32 0x3F800000#32 = ((1 : ℝ) : EReal) := by
  simp [Ideal.ofBits, Ideal.ieee, -EReal.coe_mul]; norm_num

/-- Epsilon, the pattern `0x3727C5AC`, is the positive real `10995116·2⁻⁴⁰`. -/
theorem eps_pos : ∃ e : ℝ, 0 < e ∧ Ideal.ofBits .f32 0x3727C5AC#32 = (e : EReal) := by
  refine ⟨(10995116 : ℝ) * (2 : ℝ) ^ (-40 : Int), by positivity, ?_⟩
  simp [Ideal.ofBits, Ideal.ieee, -EReal.coe_mul]

/-! ## Closure of "every entry is a real" under the remaining pointwise and layout operations -/

/-- A pointwise difference of finite arrays is finite. -/
theorem allReal_subf {s : Shape} {φ : FTy} {a b : FVec Ideal s φ} (ha : AllReal a) (hb : AllReal b) :
    AllReal (subf a b) := fun i =>
  (IsReal.sub (ha i) (hb i) : ∃ r : ℝ, a i - b i = (r : EReal))

/-- A pointwise maximum of finite arrays is finite. -/
theorem allReal_maximumf {s : Shape} {φ : FTy} {a b : FVec Ideal s φ} (ha : AllReal a) (hb : AllReal b) :
    AllReal (maximumf a b) := fun i =>
  (IsReal.max (ha i) (hb i) : ∃ r : ℝ, max (a i) (b i) = (r : EReal))

/-- A transpose of a finite array is finite: each entry is some entry of the operand. -/
theorem allReal_transpose {s : Shape} (t : Shape) (perm : List (Fin s.rank)) {x : s.Idx → EReal} (hx : AllReal x)
    (h : s.Transposes perm t) : AllReal (transpose t perm x h) := fun _ => hx _

/-- The splat of the `f32` zero is finite. -/
theorem allReal_zero (s : Shape) : AllReal (constant (F := Ideal) s .f32 0x00000000#32) := fun i =>
  ⟨0, constant_zero_f32_apply s i⟩

/-- The maximum of two reals, on the extended reals, is the real maximum. -/
theorem coe_max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-! ## Reals that are not negative: what keeps the variance plus epsilon positive -/

/-- The square of a real is a real that is not negative. -/
theorem nonneg_mul_self {x : EReal} (hx : ∃ r : ℝ, x = (r : EReal)) : ∃ q : ℝ, 0 ≤ q ∧ x * x = (q : EReal) := by
  obtain ⟨r, rfl⟩ := hx
  exact ⟨r * r, mul_self_nonneg r, (EReal.coe_mul r r).symm⟩

/-- A finite sum of reals that are not negative is a real that is not negative. -/
theorem nonneg_sum {ι : Type*} (s : Finset ι) {f : ι → EReal} (h : ∀ k, ∃ q : ℝ, 0 ≤ q ∧ f k = (q : EReal)) :
    ∃ q : ℝ, 0 ≤ q ∧ ∑ k ∈ s, f k = (q : EReal) := by
  classical
  induction s using Finset.induction_on with
  | empty => exact ⟨0, le_rfl, by simp⟩
  | insert a s ha ih =>
    obtain ⟨p, hp, ep⟩ := h a
    obtain ⟨q, hq, eq⟩ := ih
    exact ⟨p + q, add_nonneg hp hq, by rw [Finset.sum_insert ha, ep, eq, EReal.coe_add]⟩

/-- The quotient of a real that is not negative by a positive real is a real that is not negative. -/
theorem nonneg_div {x : EReal} (hx : ∃ q : ℝ, 0 ≤ q ∧ x = (q : EReal)) {N : ℝ} (hN : 0 < N) :
    ∃ q : ℝ, 0 ≤ q ∧ Ideal.div x (N : EReal) = (q : EReal) := by
  obtain ⟨q, hq, rfl⟩ := hx
  exact ⟨q * (1 / N), mul_nonneg hq (one_div_pos.2 hN).le, by rw [Ideal.div_coe hN.ne', ← EReal.coe_mul]⟩

/-! ## The reference's first layer, stage by stage

  `y = x·W₁ᵀ + b₁`; the batch mean `μ = (∑ y)/N` and the batch variance `v = (∑ (y − μ)²)/N` over the `N = 100000`
  rows; `max((y − μ)·rsqrt(v + ε)·γ + β, 0)`; the mean over incoming edges (a gather, an accumulating scatter, and a
  division by `max(degree, 1)`); and `max(x·Wₛᵀ + agg·Wₙᵀ + bₛ, 0)`. Each stage of a real input is real. The two
  places that need more than closure under `+ − · max`: the variance is a mean of squares of reals, so a real that
  is not negative, and `ε > 0`, so the reciprocal square root is taken of a positive real; and the degree's maximum
  with one is a real that is at least one, so the division is by a nonzero real. -/

section Stages

variable {x0 : (⟨S100000x128, .f32⟩ : BufTy).Contents (Elt Ideal)}
  {x1 x5 x6 x8 : (⟨S128x128, .f32⟩ : BufTy).Contents (Elt Ideal)}
  {x2 x3 x4 x7 x9 : (⟨S128, .f32⟩ : BufTy).Contents (Elt Ideal)}
  {x17 x18 : (⟨S800000, .i32⟩ : BufTy).Contents (Elt Ideal)}

/-- `y = x·W₁ᵀ + b₁` is real when `x`, `W₁`, `b₁` are. -/
theorem real_v4 (h0 : AllReal x0) (h1 : AllReal x1) (h2 : AllReal x2) :
    AllReal (val_main_v4 (F := Ideal) x0 x1 x2) := by
  unfold val_main_v4 val_main_v1 val_main_v0 val_main_v3 val_main_v2
  exact allReal_addf (allReal_dotGeneral _ _ h0 (allReal_transpose _ _ h1 _))
    (allReal_broadcastInDim _ _ _ (allReal_broadcastInDim _ _ _ h2))

/-- The number of rows, `100000`, as the first divisor is spelt. -/
theorem v6_eq (i : S128.Idx) : val_main_v6 (F := Ideal) i = ((100000 : ℝ) : EReal) := by
  rw [val_main_v6_apply, val_main_cst_0_apply, Ideal.ofBits_def, c1e5]

/-- The number of rows, `100000`, as the second divisor is spelt. -/
theorem v13_eq (i : S128.Idx) : val_main_v13 (F := Ideal) i = ((100000 : ℝ) : EReal) := by
  rw [val_main_v13_apply, val_main_cst_2_apply, Ideal.ofBits_def, c1e5]

/-- The column sums of a real `y` are real. -/
theorem real_v5 (hy : AllReal (val_main_v4 (F := Ideal) x0 x1 x2)) :
    AllReal (val_main_v5 (F := Ideal) x0 x1 x2) := fun i => by
  rw [val_main_v5_apply, val_main_cst_apply, Ideal.ofBits_def, Ideal.ofBits_zero_f32, zero_add]
  exact real_sum _ fun k => hy _

/-- The batch mean of a real `y` is real. -/
theorem real_v7 (hy : AllReal (val_main_v4 (F := Ideal) x0 x1 x2)) :
    AllReal (val_main_v7 (F := Ideal) x0 x1 x2) := fun i => by
  rw [val_main_v7_apply, Ideal.hostDivf_def, v6_eq]
  exact IsReal.div_coe (real_v5 hy i) (by norm_num)

/-- The deviations from the mean (as the variance reads them) are real. -/
theorem real_v10 (hy : AllReal (val_main_v4 (F := Ideal) x0 x1 x2)) :
    AllReal (val_main_v10 (F := Ideal) x0 x1 x2) := by
  unfold val_main_v10 val_main_v9 val_main_v8
  exact allReal_subf hy (allReal_broadcastInDim _ _ _ (allReal_broadcastInDim _ _ _ (real_v7 hy)))

/-- The batch variance of a real `y`, a mean of squares of reals, is a real that is not negative. -/
theorem nonneg_v14 (hy : AllReal (val_main_v4 (F := Ideal) x0 x1 x2)) (i : S128.Idx) :
    ∃ q : ℝ, 0 ≤ q ∧ val_main_v14 (F := Ideal) x0 x1 x2 i = (q : EReal) := by
  rw [val_main_v14_apply, Ideal.hostDivf_def, v13_eq, val_main_v12_apply, val_main_cst_1_apply, Ideal.ofBits_def,
    Ideal.ofBits_zero_f32, zero_add]
  refine nonneg_div (nonneg_sum _ fun k => ?_) (by norm_num)
  rw [val_main_v11_apply, Ideal.mulf_def]
  exact nonneg_mul_self (real_v10 hy _)

/-- Variance plus epsilon is a positive real. -/
theorem pos_v19 (hy : AllReal (val_main_v4 (F := Ideal) x0 x1 x2)) (i : S128.Idx) :
    ∃ r : ℝ, 0 < r ∧ val_main_v19 (F := Ideal) x0 x1 x2 i = (r : EReal) := by
  obtain ⟨q, hq, e⟩ := nonneg_v14 hy i
  obtain ⟨ε, hε, eε⟩ := eps_pos
  refine ⟨q + ε, add_pos_of_nonneg_of_pos hq hε, ?_⟩
  rw [val_main_v19_apply, Ideal.addf_def, e, val_main_v18_apply, val_main_cst_3_apply, Ideal.ofBits_def, eε,
    EReal.coe_add]

/-- The reciprocal square root of variance plus epsilon is real. -/
theorem real_v20 (hy : AllReal (val_main_v4 (F := Ideal) x0 x1 x2)) :
    AllReal (val_main_v20 (F := Ideal) x0 x1 x2) := fun i => by
  obtain ⟨r, hr, e⟩ := pos_v19 hy i
  rw [val_main_v20_apply, Ideal.hostUnary_rsqrt_def, e]
  exact IsReal.rsqrt_pos hr

/-- The deviations from the mean (as the normalisation reads them) are real. -/
theorem real_v17 (hy : AllReal (val_main_v4 (F := Ideal) x0 x1 x2)) :
    AllReal (val_main_v17 (F := Ideal) x0 x1 x2) := by
  unfold val_main_v17 val_main_v16 val_main_v15
  exact allReal_subf hy (allReal_broadcastInDim _ _ _ (allReal_broadcastInDim _ _ _ (real_v7 hy)))

/-- The normalised, scaled, shifted and rectified first dense layer is real when `y`, `γ`, `β` are. -/
theorem real_v30_of (hy : AllReal (val_main_v4 (F := Ideal) x0 x1 x2)) (h3 : AllReal x3) (h4 : AllReal x4) :
    AllReal (val_main_v30 (F := Ideal) x0 x1 x2 x3 x4) := by
  unfold val_main_v30 val_main_v29 val_main_v26 val_main_v23 val_main_v22 val_main_v21 val_main_v25 val_main_v24
    val_main_v28 val_main_v27 val_main_call0_v0 val_main_call0_cst
  exact allReal_maximumf
    (allReal_addf
      (allReal_mulf
        (allReal_mulf (real_v17 hy) (allReal_broadcastInDim _ _ _ (allReal_broadcastInDim _ _ _ (real_v20 hy))))
        (allReal_broadcastInDim _ _ _ (allReal_broadcastInDim _ _ _ h3)))
      (allReal_broadcastInDim _ _ _ (allReal_broadcastInDim _ _ _ h4)))
    (allReal_broadcastInDim _ _ _ (allReal_zero _))

/-- The first layer's batch-normalised activation is real when its five inputs are. -/
theorem real_v30 (h0 : AllReal x0) (h1 : AllReal x1) (h2 : AllReal x2) (h3 : AllReal x3) (h4 : AllReal x4) :
    AllReal (val_main_v30 (F := Ideal) x0 x1 x2 x3 x4) :=
  real_v30_of (real_v4 h0 h1 h2) h3 h4

/-- The degree's maximum with one is a real that is at least one, whatever the edge list. -/
theorem ge_one_v46 (i : S100000.Idx) :
    ∃ r : ℝ, 1 ≤ r ∧ val_main_v46 (F := Ideal) x18 i = (r : EReal) := by
  have h44 : AllReal (val_main_v44 (F := Ideal) x18) := by
    unfold val_main_v44 val_main_v42 val_main_cst_7 val_main_v41 val_main_cst_6
    exact allReal_scatterAdd _ (allReal_broadcastInDim _ _ _ (allReal_zero _)) _
      (allReal_broadcastInDim _ _ _ (fun _ => ⟨1, one_f32⟩))
  obtain ⟨r, e⟩ := h44 i
  refine ⟨max r 1, le_max_right _ _, ?_⟩
  rw [val_main_v46_apply, Ideal.maximumf_def, e, val_main_v45_apply, val_main_cst_8_apply, Ideal.ofBits_def, one_f32,
    coe_max_coe]

/-- The mean over incoming edges of a real activation is real: sums of gathered entries, divided by a nonzero real. -/
theorem real_v49 (hx : AllReal (val_main_v30 (F := Ideal) x0 x1 x2 x3 x4)) :
    AllReal (val_main_v49 (F := Ideal) x0 x1 x2 x3 x4 x17 x18) := fun i => by
  have h40 : AllReal (val_main_v40 (F := Ideal) x0 x1 x2 x3 x4 x17 x18) := by
    unfold val_main_v40 val_main_v37 val_main_v38 val_main_cst_5
    exact allReal_scatterAdd _ (allReal_broadcastInDim _ _ _ (allReal_zero _)) _ (allReal_gather _ hx _)
  obtain ⟨r, hr, e⟩ := ge_one_v46 (x18 := x18) (idx_main_v47 (idx_main_v48 i))
  rw [val_main_v49_apply, Ideal.hostDivf_def, val_main_v48_apply, val_main_v47_apply, e]
  exact IsReal.div_coe (h40 i) (lt_of_lt_of_le one_pos hr).ne'

/-- The first layer's output is real when its activation and the three second-stage parameters are. -/
theorem real_v58_of (hx : AllReal (val_main_v30 (F := Ideal) x0 x1 x2 x3 x4)) (h5 : AllReal x5) (h6 : AllReal x6)
    (h7 : AllReal x7) : AllReal (val_main_v58 (F := Ideal) x0 x1 x2 x3 x4 x5 x6 x7 x17 x18) := by
  unfold val_main_v58 val_main_v57 val_main_v54 val_main_v51 val_main_v50 val_main_v53 val_main_v52 val_main_v56
    val_main_v55 val_main_call1_v0 val_main_call1_cst
  exact allReal_maximumf
    (allReal_addf
      (allReal_addf (allReal_dotGeneral _ _ hx (allReal_transpose _ _ h5 _))
        (allReal_dotGeneral _ _ (real_v49 hx) (allReal_transpose _ _ h6 _)))
      (allReal_broadcastInDim _ _ _ (allReal_broadcastInDim _ _ _ h7)))
    (allReal_broadcastInDim _ _ _ (allReal_zero _))

/-- THE FIRST LAYER'S OUTPUT IS REAL when its eight float inputs are, whatever the edge list. -/
theorem real_v58 (h0 : AllReal x0) (h1 : AllReal x1) (h2 : AllReal x2) (h3 : AllReal x3) (h4 : AllReal x4)
    (h5 : AllReal x5) (h6 : AllReal x6) (h7 : AllReal x7) :
    AllReal (val_main_v58 (F := Ideal) x0 x1 x2 x3 x4 x5 x6 x7 x17 x18) :=
  real_v58_of (real_v30 h0 h1 h2 h3 h4) h5 h6 h7

/-- The second layer's dense stage `y' = x'·W₂ᵀ + b₂` is real when the first layer's output `x'` and `W₂`, `b₂` are. -/
theorem real_v63_of (hx : AllReal (val_main_v58 (F := Ideal) x0 x1 x2 x3 x4 x5 x6 x7 x17 x18)) (h8 : AllReal x8)
    (h9 : AllReal x9) : AllReal (val_main_v63 (F := Ideal) x0 x1 x2 x3 x4 x5 x6 x7 x8 x9 x17 x18) := by
  unfold val_main_v63 val_main_v60 val_main_v59 val_main_v62 val_main_v61
  exact allReal_addf (allReal_dotGeneral _ _ hx (allReal_transpose _ _ h8 _))
    (allReal_broadcastInDim _ _ _ (allReal_broadcastInDim _ _ _ h9))

end Stages

/-! ## From the precondition to real inputs -/

/-- The pattern with exponent field all ones and significand zero is `+∞`. -/
theorem inf_f32 : Ideal.ofBits .f32 0x7F800000#32 = ⊤ := by
  simp [Ideal.ofBits, Ideal.ieee]

/-- An extended real whose absolute value is below `+∞` is a real: at `⊥` and at `⊤` the absolute value is `⊤`. -/
theorem real_of_abs_lt_top {x : EReal} (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The result shape of a reduction over all axes has one index. -/
instance : Subsingleton Cert.Pre_finite_inputs.S_.Idx := ⟨fun a b => funext fun d => d.elim0⟩

/-- `all (|a| < +∞)`, as it is printed (a reduction by `and` of the comparison against the splat of `+∞`), says
    every entry of `a` is a real. -/
theorem allReal_of_all_lt_inf {s : Shape} {axes : List (Fin s.rank)} (a : FVec Ideal s .f32)
    (dims : Fin Cert.Pre_finite_inputs.S_.rank → Fin s.rank) (bc : Cert.Pre_finite_inputs.S_.BroadcastsInDim s dims)
    (red : s.ReducesTo axes Cert.Pre_finite_inputs.S_) (hu : 0 < Cert.Pre_finite_inputs.S_.numel)
    (h : Host.reduce IntOp.andi (cmpf .olt (Host.absf a)
          (broadcastInDim s dims bc (constant (F := Ideal) Cert.Pre_finite_inputs.S_ .f32 0x7F800000#32)))
        (constantI Cert.Pre_finite_inputs.S_ 1 1#1) red hu ValueIdx.ix0 = 1#1) : AllReal a := fun i => by
  have e := Host.reduce_andi_all _ _ red hu _ h i
  have e' : Ideal.cmp .olt (max (a i) (-(a i))) (Ideal.ofBits .f32 0x7F800000#32) = 1#1 := e
  rw [inf_f32] at e'
  exact real_of_abs_lt_top e'

/-- THE INPUTS ARE REAL. The precondition is the conjunction, over the seventeen float arguments, of
    `all (|a| < +∞)`; so under it every entry of every float argument is a real. -/
theorem inputs_real [Cert.Pre_finite_inputs.Facts] (a0 : FVec Ideal Cert.Pre_finite_inputs.S100000x128 .f32) (a1 : FVec Ideal Cert.Pre_finite_inputs.S128x128 .f32) (a2 : FVec Ideal Cert.Pre_finite_inputs.S128 .f32) (a3 : FVec Ideal Cert.Pre_finite_inputs.S128 .f32) (a4 : FVec Ideal Cert.Pre_finite_inputs.S128 .f32) (a5 : FVec Ideal Cert.Pre_finite_inputs.S128x128 .f32) (a6 : FVec Ideal Cert.Pre_finite_inputs.S128x128 .f32) (a7 : FVec Ideal Cert.Pre_finite_inputs.S128 .f32) (a8 : FVec Ideal Cert.Pre_finite_inputs.S128x128 .f32) (a9 : FVec Ideal Cert.Pre_finite_inputs.S128 .f32) (a10 : FVec Ideal Cert.Pre_finite_inputs.S128 .f32) (a11 : FVec Ideal Cert.Pre_finite_inputs.S128 .f32) (a12 : FVec Ideal Cert.Pre_finite_inputs.S128x128 .f32) (a13 : FVec Ideal Cert.Pre_finite_inputs.S128x128 .f32) (a14 : FVec Ideal Cert.Pre_finite_inputs.S128 .f32) (a15 : FVec Ideal Cert.Pre_finite_inputs.S64x128 .f32) (a16 : FVec Ideal Cert.Pre_finite_inputs.S64 .f32) (a17 a18 : IVec Cert.Pre_finite_inputs.S800000 32)
    (h : Cert.Pre_finite_inputs.fn (F := Ideal) a0 a1 a2 a3 a4 a5 a6 a7 a8 a9 a10 a11 a12 a13 a14 a15 a16 a17 a18 = fun _ => 1#1) :
    AllReal a0 ∧ AllReal a1 ∧ AllReal a2 ∧ AllReal a3 ∧ AllReal a4 ∧ AllReal a5 ∧ AllReal a6 ∧ AllReal a7 ∧ AllReal a8 ∧ AllReal a9 ∧ AllReal a10 ∧ AllReal a11 ∧ AllReal a12 ∧ AllReal a13 ∧ AllReal a14 ∧ AllReal a15 ∧ AllReal a16 := by
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  simp only [Idealize.ShloMosaic.andi, IntOp.andi_eq_one, and_assoc] at h0
  obtain ⟨h0, h1, h2, h3, h4, h5, h6, h7, h8, h9, h10, h11, h12, h13, h14, h15, h16⟩ := h0
  exact ⟨allReal_of_all_lt_inf _ _ _ _ _ h0,
    allReal_of_all_lt_inf _ _ _ _ _ h1,
    allReal_of_all_lt_inf _ _ _ _ _ h2,
    allReal_of_all_lt_inf _ _ _ _ _ h3,
    allReal_of_all_lt_inf _ _ _ _ _ h4,
    allReal_of_all_lt_inf _ _ _ _ _ h5,
    allReal_of_all_lt_inf _ _ _ _ _ h6,
    allReal_of_all_lt_inf _ _ _ _ _ h7,
    allReal_of_all_lt_inf _ _ _ _ _ h8,
    allReal_of_all_lt_inf _ _ _ _ _ h9,
    allReal_of_all_lt_inf _ _ _ _ _ h10,
    allReal_of_all_lt_inf _ _ _ _ _ h11,
    allReal_of_all_lt_inf _ _ _ _ _ h12,
    allReal_of_all_lt_inf _ _ _ _ _ h13,
    allReal_of_all_lt_inf _ _ _ _ _ h14,
    allReal_of_all_lt_inf _ _ _ _ _ h15,
    allReal_of_all_lt_inf _ _ _ _ _ h16⟩

/-- THE INPUTS ARE REAL, on a memory of the idealized kernel's program: under its precondition every entry of each of
    the seventeen float argument arrays, on every device, is a real. -/
theorem inputs_real_mem [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg1))
    ∧ AllReal (m ((c.tc : Thread Cert.KernelIdeal.nD Cert.KernelIdeal.τ).loc Cert.KernelIdeal.main_arg2))
    ∧ AllReal (m ((c.tc : Thread Cert.KernelIdeal.nD Cert.KernelIdeal.τ).loc Cert.KernelIdeal.main_arg3))
    ∧ AllReal (m ((c.tc : Thread Cert.KernelIdeal.nD Cert.KernelIdeal.τ).loc Cert.KernelIdeal.main_arg4))
    ∧ AllReal (m ((c.tc : Thread Cert.KernelIdeal.nD Cert.KernelIdeal.τ).loc Cert.KernelIdeal.main_arg5))
    ∧ AllReal (m ((c.tc : Thread Cert.KernelIdeal.nD Cert.KernelIdeal.τ).loc Cert.KernelIdeal.main_arg6))
    ∧ AllReal (m ((c.tc : Thread Cert.KernelIdeal.nD Cert.KernelIdeal.τ).loc Cert.KernelIdeal.main_arg7))
    ∧ AllReal (m ((c.tc : Thread Cert.KernelIdeal.nD Cert.KernelIdeal.τ).loc Cert.KernelIdeal.main_arg8))
    ∧ AllReal (m ((c.tc : Thread Cert.KernelIdeal.nD Cert.KernelIdeal.τ).loc Cert.KernelIdeal.main_arg9))
    ∧ AllReal (m ((c.tc : Thread Cert.KernelIdeal.nD Cert.KernelIdeal.τ).loc Cert.KernelIdeal.main_arg10))
    ∧ AllReal (m ((c.tc : Thread Cert.KernelIdeal.nD Cert.KernelIdeal.τ).loc Cert.KernelIdeal.main_arg11))
    ∧ AllReal (m ((c.tc : Thread Cert.KernelIdeal.nD Cert.KernelIdeal.τ).loc Cert.KernelIdeal.main_arg12))
    ∧ AllReal (m ((c.tc : Thread Cert.KernelIdeal.nD Cert.KernelIdeal.τ).loc Cert.KernelIdeal.main_arg13))
    ∧ AllReal (m ((c.tc : Thread Cert.KernelIdeal.nD Cert.KernelIdeal.τ).loc Cert.KernelIdeal.main_arg14))
    ∧ AllReal (m ((c.tc : Thread Cert.KernelIdeal.nD Cert.KernelIdeal.τ).loc Cert.KernelIdeal.main_arg15))
    ∧ AllReal (m ((c.tc : Thread Cert.KernelIdeal.nD Cert.KernelIdeal.τ).loc Cert.KernelIdeal.main_arg16)) :=
  inputs_real _ _ _ _ _ _ _ _ _ _ _ _ _ _ _ _ _ _ _ (h c)

end Cert.RefReal
-- ==== Proof.BridgeCombine.lean ====
/-
  The reference's two "combine" stages and its output stage, read index by index, over the extended reals.

  A combine stage takes a layer's normalised activation `x` and its mean `m` over incoming edges and returns
  `max(x·Wₛᵀ + m·Wₙᵀ + bₛ, 0)`; the output stage returns `max(x·W₃ᵀ + b₃, 0)`. The reference transposes each weight
  matrix itself, contracts, adds the bias broadcast over the rows and clamps at zero against a broadcast zero. Entry
  `(r, q)` of a combine stage is therefore the maximum with zero of
  `∑ₖ x(r,k)·Wₛᵀ(k,q) + ∑ₖ m(r,k)·Wₙᵀ(k,q) + bₛ(q)`, and entry `(r, q)` of the output stage the maximum with zero of
  `∑ₖ x(r,k)·W₃ᵀ(k,q) + b₃(q)`. The same functions, stated over an already transposed weight matrix and a bias laid
  out as a one-row array, are `combF` and `outF`; a bias vector cast to a row reads the vector's entry at every row
  coordinate, so the two spellings agree.
-/
import proofs.«150060_j45646912422072_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

namespace Cert.BridgeC

open Cert.ReferenceIdeal Cert.ReferenceIdeal.Gen Cert.ReferenceIdeal.Read Idealize.ShloMosaic Idealize.ShloMosaic.ValueIdx

/-- A combine stage over transposed weight matrices `Ws`, `Wn` and a bias row `B`: activation `X`, edge mean `M`. -/
def combF (X M : S100000x128.Idx → EReal) (Ws Wn : S128x128.Idx → EReal) (B : S1x128.Idx → EReal) : S100000x128.Idx → EReal :=
  fun i => max ((((∑ k : Fin 128, X (ix2 (i 0) k) * Ws (ix2 k (i 1))) + (∑ k : Fin 128, M (ix2 (i 0) k) * Wn (ix2 k (i 1)))) + B (ix2 (0 : Fin 1) (i 1)))) (Ideal.ofBits .f32 0x00000000#32)

/-- The output stage over a transposed weight matrix `W` and a bias row `B`. -/
def outF (X : S100000x128.Idx → EReal) (W : S128x64.Idx → EReal) (B : S1x64.Idx → EReal) : S100000x64.Idx → EReal :=
  fun i => max (((∑ k : Fin 128, X (ix2 (i 0) k) * W (ix2 k (i 1))) + B (ix2 (0 : Fin 1) (i 1)))) (Ideal.ofBits .f32 0x00000000#32)

variable (x0 : (⟨S100000x128, .f32⟩ : BufTy).Contents (Elt Ideal)) (x1 : (⟨S128x128, .f32⟩ : BufTy).Contents (Elt Ideal))
  (x2 x3 x4 : (⟨S128, .f32⟩ : BufTy).Contents (Elt Ideal)) (x5 x6 : (⟨S128x128, .f32⟩ : BufTy).Contents (Elt Ideal))
  (x7 : (⟨S128, .f32⟩ : BufTy).Contents (Elt Ideal)) (x8 : (⟨S128x128, .f32⟩ : BufTy).Contents (Elt Ideal))
  (x9 x10 x11 : (⟨S128, .f32⟩ : BufTy).Contents (Elt Ideal)) (x12 x13 : (⟨S128x128, .f32⟩ : BufTy).Contents (Elt Ideal))
  (x14 : (⟨S128, .f32⟩ : BufTy).Contents (Elt Ideal)) (x15 : (⟨S64x128, .f32⟩ : BufTy).Contents (Elt Ideal))
  (x16 : (⟨S64, .f32⟩ : BufTy).Contents (Elt Ideal)) (x17 x18 : (⟨S800000, .i32⟩ : BufTy).Contents (Elt Ideal))

/-- A combine stage at row `r`, column `q`, over weight matrices transposed here and a bias vector cast to a row. -/
theorem combF_apply (X M : S100000x128.Idx → EReal) (Ws Wn : S128x128.Idx → EReal) (b : S128.Idx → EReal)
    (h : S128x128.Transposes [1, 0] S128x128) (h2 : S128.ShapeCasts S1x128) (r : Fin 100000) (q : Fin 128) :
    combF X M (transpose S128x128 [1, 0] Ws h) (transpose S128x128 [1, 0] Wn h) (shapeCast S1x128 b h2) (ix2 r q)
      = max (((∑ k : Fin 128, X (ix2 r k) * transpose S128x128 [1, 0] Ws transposes_S128x128_S128x128_1_0 (ix2 k q))
            + (∑ k : Fin 128, M (ix2 r k) * transpose S128x128 [1, 0] Wn transposes_S128x128_S128x128_1_0 (ix2 k q)))
          + b (ix1 q)) (Ideal.ofBits .f32 0x00000000#32) := by
  unfold combF
  refine congrArg₂ max (congrArg₂ (· + ·) rfl ?_) rfl
  exact shapeCast_a_1a_apply b h2 0 q

/-- The reference's first layer's combine stage at row `r`, column `q`: the rectified sum of the activation times the
    transposed self weights, the edge mean times the transposed neighbour weights, and the bias. -/
theorem ref_comb1_apply (r : Fin 100000) (q : Fin 128) :
    val_main_v58 (F := Ideal) x0 x1 x2 x3 x4 x5 x6 x7 x17 x18 (ix2 r q)
      = max (((∑ k : Fin 128, val_main_v30 (F := Ideal) x0 x1 x2 x3 x4 (ix2 r k)
                * transpose S128x128 [1, 0] x5 transposes_S128x128_S128x128_1_0 (ix2 k q))
            + (∑ k : Fin 128, val_main_v49 (F := Ideal) x0 x1 x2 x3 x4 x17 x18 (ix2 r k)
                * transpose S128x128 [1, 0] x6 transposes_S128x128_S128x128_1_0 (ix2 k q)))
          + x7 (ix1 q)) (Ideal.ofBits .f32 0x00000000#32) := by
  rw [val_main_v58_apply, val_main_v57_apply, val_main_v54_apply, val_main_v51_apply, val_main_v53_apply, val_main_v56_apply,
    val_main_v55_apply, val_main_call1_v0_apply, val_main_call1_cst_apply, Ideal.maximumf_def, Ideal.addf_def,
    Ideal.addf_def, Ideal.ofBits_def]
  refine congrArg₂ max (congrArg₂ (· + ·) (congrArg₂ (· + ·) (Finset.sum_congr rfl fun k _ => ?_)
    (Finset.sum_congr rfl fun k _ => ?_)) (congrArg x7 ?_)) rfl
  · have e1 : lidx_main_v51 (ix2 r q) k = ix2 r k := funext fun a => by match a with | ⟨0, _⟩ => rfl | ⟨1, _⟩ => rfl
    have e2 : ridx_main_v51 (ix2 r q) k = ix2 k q := funext fun a => by match a with | ⟨0, _⟩ => rfl | ⟨1, _⟩ => rfl
    rw [e1, e2]
    rfl
  · have e1 : lidx_main_v53 (ix2 r q) k = ix2 r k := funext fun a => by match a with | ⟨0, _⟩ => rfl | ⟨1, _⟩ => rfl
    have e2 : ridx_main_v53 (ix2 r q) k = ix2 k q := funext fun a => by match a with | ⟨0, _⟩ => rfl | ⟨1, _⟩ => rfl
    rw [e1, e2]
    rfl
  · funext a
    match a with
    | ⟨0, _⟩ => rfl

/-- COMBINE, FIRST LAYER: over the reference's normalised activation and edge mean, the self and neighbour weight
    matrices transposed and the bias laid out as a row, the combine stage is the reference's first-layer output. -/
theorem comb1_eq (h : S128x128.Transposes [1, 0] S128x128) (h2 : S128.ShapeCasts S1x128) :
    combF (val_main_v30 (F := Ideal) x0 x1 x2 x3 x4) (val_main_v49 (F := Ideal) x0 x1 x2 x3 x4 x17 x18)
        (transpose S128x128 [1, 0] x5 h) (transpose S128x128 [1, 0] x6 h) (shapeCast S1x128 x7 h2)
      = val_main_v58 (F := Ideal) x0 x1 x2 x3 x4 x5 x6 x7 x17 x18 := by
  funext i
  obtain ⟨r, q, rfl⟩ : ∃ (r : Fin 100000) (q : Fin 128), i = ix2 r q := ⟨i 0, i 1, eq_ix2 i⟩
  rw [ref_comb1_apply, combF_apply]

/-- The reference's second layer's combine stage at row `r`, column `q`: the rectified sum of the activation times the
    transposed self weights, the edge mean times the transposed neighbour weights, and the bias. -/
theorem ref_comb2_apply (r : Fin 100000) (q : Fin 128) :
    val_main_v117 (F := Ideal) x0 x1 x2 x3 x4 x5 x6 x7 x8 x9 x10 x11 x12 x13 x14 x17 x18 (ix2 r q)
      = max (((∑ k : Fin 128, val_main_v89 (F := Ideal) x0 x1 x2 x3 x4 x5 x6 x7 x8 x9 x10 x11 x17 x18 (ix2 r k)
                * transpose S128x128 [1, 0] x12 transposes_S128x128_S128x128_1_0 (ix2 k q))
            + (∑ k : Fin 128, val_main_v108 (F := Ideal) x0 x1 x2 x3 x4 x5 x6 x7 x8 x9 x10 x11 x17 x18 (ix2 r k)
                * transpose S128x128 [1, 0] x13 transposes_S128x128_S128x128_1_0 (ix2 k q)))
          + x14 (ix1 q)) (Ideal.ofBits .f32 0x00000000#32) := by
  rw [val_main_v117_apply, val_main_v116_apply, val_main_v113_apply, val_main_v110_apply, val_main_v112_apply, val_main_v115_apply,
    val_main_v114_apply, val_main_call3_v0_apply, val_main_call3_cst_apply, Ideal.maximumf_def, Ideal.addf_def,
    Ideal.addf_def, Ideal.ofBits_def]
  refine congrArg₂ max (congrArg₂ (· + ·) (congrArg₂ (· + ·) (Finset.sum_congr rfl fun k _ => ?_)
    (Finset.sum_congr rfl fun k _ => ?_)) (congrArg x14 ?_)) rfl
  · have e1 : lidx_main_v110 (ix2 r q) k = ix2 r k := funext fun a => by match a with | ⟨0, _⟩ => rfl | ⟨1, _⟩ => rfl
    have e2 : ridx_main_v110 (ix2 r q) k = ix2 k q := funext fun a => by match a with | ⟨0, _⟩ => rfl | ⟨1, _⟩ => rfl
    rw [e1, e2]
    rfl
  · have e1 : lidx_main_v112 (ix2 r q) k = ix2 r k := funext fun a => by match a with | ⟨0, _⟩ => rfl | ⟨1, _⟩ => rfl
    have e2 : ridx_main_v112 (ix2 r q) k = ix2 k q := funext fun a => by match a with | ⟨0, _⟩ => rfl | ⟨1, _⟩ => rfl
    rw [e1, e2]
    rfl
  · funext a
    match a with
    | ⟨0, _⟩ => rfl

/-- COMBINE, SECOND LAYER: the same over the second layer's normalised activation, edge mean and parameters. -/
theorem comb2_eq (h : S128x128.Transposes [1, 0] S128x128) (h2 : S128.ShapeCasts S1x128) :
    combF (val_main_v89 (F := Ideal) x0 x1 x2 x3 x4 x5 x6 x7 x8 x9 x10 x11 x17 x18) (val_main_v108 (F := Ideal) x0 x1 x2 x3 x4 x5 x6 x7 x8 x9 x10 x11 x17 x18)
        (transpose S128x128 [1, 0] x12 h) (transpose S128x128 [1, 0] x13 h) (shapeCast S1x128 x14 h2)
      = val_main_v117 (F := Ideal) x0 x1 x2 x3 x4 x5 x6 x7 x8 x9 x10 x11 x12 x13 x14 x17 x18 := by
  funext i
  obtain ⟨r, q, rfl⟩ : ∃ (r : Fin 100000) (q : Fin 128), i = ix2 r q := ⟨i 0, i 1, eq_ix2 i⟩
  rw [ref_comb2_apply, combF_apply]

/-- The reference's output stage at row `r`, column `q`. -/
theorem ref_out_apply (r : Fin 100000) (q : Fin 64) :
    val_main_v123 (F := Ideal) x0 x1 x2 x3 x4 x5 x6 x7 x8 x9 x10 x11 x12 x13 x14 x15 x16 x17 x18 (ix2 r q)
      = max ((∑ k : Fin 128, val_main_v117 (F := Ideal) x0 x1 x2 x3 x4 x5 x6 x7 x8 x9 x10 x11 x12 x13 x14 x17 x18 (ix2 r k)
                * transpose S128x64 [1, 0] x15 transposes_S64x128_S128x64_1_0 (ix2 k q))
          + x16 (ix1 q)) (Ideal.ofBits .f32 0x00000000#32) := by
  rw [val_main_v123_apply, val_main_v122_apply, val_main_v119_apply, val_main_v121_apply, val_main_v120_apply,
    val_main_call4_v0_apply, val_main_call4_cst_apply, Ideal.maximumf_def, Ideal.addf_def, Ideal.ofBits_def]
  refine congrArg₂ max (congrArg₂ (· + ·) (Finset.sum_congr rfl fun k _ => ?_) (congrArg x16 ?_)) rfl
  · have e1 : lidx_main_v119 (ix2 r q) k = ix2 r k := funext fun a => by match a with | ⟨0, _⟩ => rfl | ⟨1, _⟩ => rfl
    have e2 : ridx_main_v119 (ix2 r q) k = ix2 k q := funext fun a => by match a with | ⟨0, _⟩ => rfl | ⟨1, _⟩ => rfl
    rw [e1, e2]
    rfl
  · funext a
    match a with
    | ⟨0, _⟩ => rfl

/-- OUTPUT: over the reference's second-layer output, the output weight matrix transposed and the bias laid out as a
    row, the output stage is the reference's result. -/
theorem out_eq (h' : S64x128.Transposes [1, 0] S128x64) (h2' : S64.ShapeCasts S1x64) :
    outF (val_main_v117 (F := Ideal) x0 x1 x2 x3 x4 x5 x6 x7 x8 x9 x10 x11 x12 x13 x14 x17 x18) (transpose S128x64 [1, 0] x15 h') (shapeCast S1x64 x16 h2')
      = val_main_v123 (F := Ideal) x0 x1 x2 x3 x4 x5 x6 x7 x8 x9 x10 x11 x12 x13 x14 x15 x16 x17 x18 := by
  funext i
  obtain ⟨r, q, rfl⟩ : ∃ (r : Fin 100000) (q : Fin 64), i = ix2 r q := ⟨i 0, i 1, eq_ix2 i⟩
  rw [ref_out_apply]
  unfold outF
  refine congrArg₂ max (congrArg₂ (· + ·) rfl ?_) rfl
  exact shapeCast_a_1a_apply x16 h2' 0 q

end Cert.BridgeC

end
-- ==== Proof.BridgeAggr.lean ====
import proofs.«150060_j45646912422072_1_alg».proof.Proof.KernelFold
import proofs.«150060_j45646912422072_1_alg».proof.Proof.Gen.ReferenceIdeal.Read

noncomputable section

namespace Cert.BridgeA

open Idealize.ShloMosaic
open Cert.ReferenceIdeal (S100000x128 S128x128 S128 S800000)
open Cert.ReferenceIdeal.Read

/-! # The neighbourhood mean is one term on both sides

Both programs compute the mean over incoming edges by the same chain of host operations: wrap a negative source
index from the end, gather the rows at the sources, add them up at the destinations, count the edges per destination,
clamp the count below at one, and divide. The two printed programs name their shape, gather and scatter records in
their own namespaces; the records are the same literals, so the kernel program's term of an array `X` and the
reference's stage whose gathered operand is `X` are one term. `X` stays closed throughout. -/

/-- The gather's dimension numbers are the same record in the two programs. -/
theorem gather_rec : Cert.KernelIdeal.gather_S100000x128_S800000x1_S800000x128_1_0_n_n_0_1_1128
    = Cert.ReferenceIdeal.gather_S100000x128_S800000x1_S800000x128_1_0_n_n_0_1_1128 := rfl
/-- So are the row scatter's … -/
theorem scatter_rows_rec : Cert.KernelIdeal.scatter_S100000x128_S800000x1_S800000x128_1_0_0_1
    = Cert.ReferenceIdeal.scatter_S100000x128_S800000x1_S800000x128_1_0_0_1 := rfl
/-- … and the edge count's scatter's. -/
theorem scatter_count_rec : Cert.KernelIdeal.scatter_S100000_S800000x1_S800000_n_0_0_1
    = Cert.ReferenceIdeal.scatter_S100000_S800000x1_S800000_n_0_0_1 := rfl

section
variable (x0 : (⟨S100000x128, .f32⟩ : BufTy).Contents (Elt Ideal)) (x1 : (⟨S128x128, .f32⟩ : BufTy).Contents (Elt Ideal)) (x2 x3 x4 : (⟨S128, .f32⟩ : BufTy).Contents (Elt Ideal))
  (x5 x6 : (⟨S128x128, .f32⟩ : BufTy).Contents (Elt Ideal)) (x7 : (⟨S128, .f32⟩ : BufTy).Contents (Elt Ideal)) (x8 : (⟨S128x128, .f32⟩ : BufTy).Contents (Elt Ideal)) (x9 x10 x11 : (⟨S128, .f32⟩ : BufTy).Contents (Elt Ideal))
  (x17 x18 : (⟨S800000, .i32⟩ : BufTy).Contents (Elt Ideal))

/-- First layer: the kernel program's neighbourhood mean of the reference's activation `%30` is the reference's `%49`. -/
theorem aggr1_eq :
    Cert.KernelIdeal.Fold.aggrTerm (F := Ideal) (val_main_v30 (F := Ideal) x0 x1 x2 x3 x4) x17 x18
      = val_main_v49 (F := Ideal) x0 x1 x2 x3 x4 x17 x18 := by
  unfold val_main_v49 val_main_v48 val_main_v47 val_main_v46 val_main_v45 val_main_v44 val_main_v43 val_main_v42 val_main_v41
    val_main_v40 val_main_v39 val_main_v38 val_main_v37 val_main_v36 val_main_v35 val_main_v34 val_main_v33 val_main_v32 val_main_v31
    val_main_c val_main_c_4 val_main_cst_5 val_main_cst_6 val_main_cst_7 val_main_cst_8
  generalize val_main_v30 (F := Ideal) x0 x1 x2 x3 x4 = X
  unfold Cert.KernelIdeal.Fold.aggrTerm
  rfl

/-- Second layer: the same of the reference's activation `%89` is the reference's `%108`. -/
theorem aggr2_eq :
    Cert.KernelIdeal.Fold.aggrTerm (F := Ideal) (val_main_v89 (F := Ideal) x0 x1 x2 x3 x4 x5 x6 x7 x8 x9 x10 x11 x17 x18) x17 x18
      = val_main_v108 (F := Ideal) x0 x1 x2 x3 x4 x5 x6 x7 x8 x9 x10 x11 x17 x18 := by
  unfold val_main_v108 val_main_v107 val_main_v106 val_main_v105 val_main_v104 val_main_v103 val_main_v102 val_main_v101 val_main_v100
    val_main_v99 val_main_v98 val_main_v97 val_main_v96 val_main_v95 val_main_v94 val_main_v93 val_main_v92 val_main_v91 val_main_v90
    val_main_c_14 val_main_c_15 val_main_cst_16 val_main_cst_17 val_main_cst_18 val_main_cst_19
  generalize val_main_v89 (F := Ideal) x0 x1 x2 x3 x4 x5 x6 x7 x8 x9 x10 x11 x17 x18 = X
  unfold Cert.KernelIdeal.Fold.aggrTerm
  rfl

end

end Cert.BridgeA
end
-- ==== Proof.KernelValue.lean ====
/-
  The kernel program's result as a function of its arguments.

  The program is seven kernel regions among stretches of host operations. Region by region, and host stretch by host
  stretch, each array the program builds is identified with the reference's stage of the same name: the dense stage
  (blocks of a matrix product plus a bias), the batch mean and variance (column totals accumulated block by block,
  then the two forms of the variance, equal for real entries), the normalised and clamped activations, the mean over
  incoming edges (the same host operations on both sides), the combination of an activation with its neighbourhood
  mean, and, after a second such layer, the output projection.
-/
import proofs.«150060_j45646912422072_1_alg».proof.Proof.KernelFold
import proofs.«150060_j45646912422072_1_alg».proof.Proof.RegionLin0
import proofs.«150060_j45646912422072_1_alg».proof.Proof.RegionLin3
import proofs.«150060_j45646912422072_1_alg».proof.Proof.RegionNorm
import proofs.«150060_j45646912422072_1_alg».proof.Proof.RegionCombine
import proofs.«150060_j45646912422072_1_alg».proof.Proof.RegionOut
import proofs.«150060_j45646912422072_1_alg».proof.Proof.BridgeNorm
import proofs.«150060_j45646912422072_1_alg».proof.Proof.RefReal
import proofs.«150060_j45646912422072_1_alg».proof.Proof.Gen.ReferenceIdeal.Read
import proofs.«150060_j45646912422072_1_alg».proof.Proof.BridgeCombine
import proofs.«150060_j45646912422072_1_alg».proof.Proof.BridgeAggr

set_option maxRecDepth 16384

noncomputable section

namespace Cert.KernelValue

open Cert.KernelIdeal Cert.KernelIdeal.Gen Idealize.ShloMosaic Idealize.ShloMosaic.TcCoe Idealize.ShloMosaic.ValueIdx
open Cert.ReferenceIdeal.Read
open Cert.LibFiniteOps (AllReal)

variable (m : (ℓ : Loc nD τ sig) → Buf (Elt Ideal) ℓ) (ρ : Dev nD → PrngReg) (c : Dev nD)

/-! ## The first layer, region by region -/

section
variable (X : (⟨S100000x128, .f32⟩ : BufTy).Contents (Elt Ideal)) (hX : V1 m ρ c (Pipeline.arrRef spec0 0) = X)
include hX

/-- The dense output of the layer is the reference's dense stage of the array `X` the region finds. -/
theorem dense0 : (dat0 (F := Ideal) (V1 m ρ) c).arrAt 3 cfg0.N = val_main_v4 (F := Ideal) X (m ((c : Thread nD τ).loc main_arg1)) (m ((c : Thread nD τ).loc main_arg2)) := by
  have e1 : V1 m ρ c (Pipeline.arrRef spec0 1) = (transpose S128x128 [1, 0] ((m ((c : Thread nD τ).loc main_arg1)) : (⟨S128x128, .f32⟩ : BufTy).Contents (Elt Ideal)) transposes_S128x128_S128x128_1_0 : (⟨S128x128, .f32⟩ : BufTy).Contents (Elt Ideal)) := Fold.entry0_main_v0 m ρ c
  have e2 : V1 m ρ c (Pipeline.arrRef spec0 2) = (shapeCast S1x128 ((m ((c : Thread nD τ).loc main_arg2)) : (⟨S128, .f32⟩ : BufTy).Contents (Elt Ideal)) shapeCasts_S128_S1x128 : (⟨S1x128, .f32⟩ : BufTy).Contents (Elt Ideal)) := Fold.entry0_main_v7 m ρ c
  rw [Lin0.final3, hX, e1, e2]
  exact Cert.Bridge.dense_eq X (m ((c : Thread nD τ).loc main_arg1)) (m ((c : Thread nD τ).loc main_arg2)) _ _

/-- The layer's first column total at column `q`. -/
theorem total0 (q : Fin 128) :
    ((dat0 (F := Ideal) (V1 m ρ) c).arrAt 4 cfg0.N : S1x128.Idx → EReal) (ix2 (0 : Fin 1) q)
      = Ideal.ofBits .f32 0x00000000#32 + ∑ r : Fin 100000, val_main_v4 (F := Ideal) X (m ((c : Thread nD τ).loc main_arg1)) (m ((c : Thread nD τ).loc main_arg2)) (ix2 r q) := by
  have hG := (Lin0.final3 (V1 m ρ) c).symm.trans (dense0 m ρ c X hX)
  rw [Lin0.final4_apply, hG]

/-- The layer's second column total at column `q`. -/
theorem totalsq0 (q : Fin 128) :
    ((dat0 (F := Ideal) (V1 m ρ) c).arrAt 5 cfg0.N : S1x128.Idx → EReal) (ix2 (0 : Fin 1) q)
      = Ideal.ofBits .f32 0x00000000#32 + ∑ r : Fin 100000,
          val_main_v4 (F := Ideal) X (m ((c : Thread nD τ).loc main_arg1)) (m ((c : Thread nD τ).loc main_arg2)) (ix2 r q) * val_main_v4 (F := Ideal) X (m ((c : Thread nD τ).loc main_arg1)) (m ((c : Thread nD τ).loc main_arg2)) (ix2 r q) := by
  have hG := (Lin0.final3 (V1 m ρ) c).symm.trans (dense0 m ρ c X hX)
  rw [Lin0.final5_apply, hG]

variable (hreal : AllReal (val_main_v4 (F := Ideal) X (m ((c : Thread nD τ).loc main_arg1)) (m ((c : Thread nD τ).loc main_arg2))))
include hreal

/-- The one-row mean the normalise kernel finds is the reference's mean, column by column. -/
theorem mean1 (q : Fin 128) :
    (V3 m ρ c (Pipeline.arrRef spec1 1) : S1x128.Idx → EReal) (ix2 (0 : Fin 1) q) = val_main_v7 (F := Ideal) X (m ((c : Thread nD τ).loc main_arg1)) (m ((c : Thread nD τ).loc main_arg2)) (ix1 q) := by
  have e : V3 m ρ c (Pipeline.arrRef spec1 1) = _ := Fold.entry1_main_v18 m ρ c
  rw [e]
  exact (Cert.Bridge.stats_eq X (m ((c : Thread nD τ).loc main_arg1)) (m ((c : Thread nD τ).loc main_arg2)) hreal Cert.RefReal.c1e5 _ _ (total0 m ρ c X hX) (totalsq0 m ρ c X hX) q).1

/-- The one-row variance the normalise kernel finds is the reference's variance, column by column: here every entry of
    the dense stage has to be a real number. -/
theorem var1 (q : Fin 128) :
    (V3 m ρ c (Pipeline.arrRef spec1 2) : S1x128.Idx → EReal) (ix2 (0 : Fin 1) q) = val_main_v14 (F := Ideal) X (m ((c : Thread nD τ).loc main_arg1)) (m ((c : Thread nD τ).loc main_arg2)) (ix1 q) := by
  have e : V3 m ρ c (Pipeline.arrRef spec1 2) = _ := Fold.entry1_main_v22 m ρ c
  rw [e]
  exact (Cert.Bridge.stats_eq X (m ((c : Thread nD τ).loc main_arg1)) (m ((c : Thread nD τ).loc main_arg2)) hreal Cert.RefReal.c1e5 _ _ (total0 m ρ c X hX) (totalsq0 m ρ c X hX) q).2

/-- The normalised output of the layer is the reference's normalise stage. -/
theorem norm1 :
    (dat1 (F := Ideal) (V3 m ρ) c).arrAt 5 cfg1.N = val_main_v30 (F := Ideal) X (m ((c : Thread nD τ).loc main_arg1)) (m ((c : Thread nD τ).loc main_arg2)) (m ((c : Thread nD τ).loc main_arg3)) (m ((c : Thread nD τ).loc main_arg4)) := by
  have e0 : V3 m ρ c (Pipeline.arrRef spec1 0) = val_main_v4 (F := Ideal) X (m ((c : Thread nD τ).loc main_arg1)) (m ((c : Thread nD τ).loc main_arg2)) := (Fold.entry1_main_v16_0 m ρ c).trans (dense0 m ρ c X hX)
  have e3 : V3 m ρ c (Pipeline.arrRef spec1 3) = (shapeCast S1x128 ((m ((c : Thread nD τ).loc main_arg3)) : (⟨S128, .f32⟩ : BufTy).Contents (Elt Ideal)) shapeCasts_S128_S1x128 : (⟨S1x128, .f32⟩ : BufTy).Contents (Elt Ideal)) := Fold.entry1_main_v8 m ρ c
  have e4 : V3 m ρ c (Pipeline.arrRef spec1 4) = (shapeCast S1x128 ((m ((c : Thread nD τ).loc main_arg4)) : (⟨S128, .f32⟩ : BufTy).Contents (Elt Ideal)) shapeCasts_S128_S1x128 : (⟨S1x128, .f32⟩ : BufTy).Contents (Elt Ideal)) := Fold.entry1_main_v9 m ρ c
  rw [RegVal.final1, e0, e3, e4]
  exact Cert.Bridge.norm_eq X (m ((c : Thread nD τ).loc main_arg1)) (m ((c : Thread nD τ).loc main_arg2)) (m ((c : Thread nD τ).loc main_arg3)) (m ((c : Thread nD τ).loc main_arg4)) _ _ (mean1 m ρ c X hX hreal) (var1 m ρ c X hX hreal) _

end

/-- The neighbourhood mean the combine kernel finds is the shared host term of the activations `X'` the normalise
    kernel left and the two edge arrays. -/
theorem aggr2 (X' : (⟨S100000x128, .f32⟩ : BufTy).Contents (Elt Ideal)) (h : (dat1 (F := Ideal) (V3 m ρ) c).arrAt 5 cfg1.N = X') :
    V5 m ρ c (Pipeline.arrRef spec2 1) = Fold.aggrTerm (F := Ideal) X' (m ((c : Thread nD τ).loc main_arg17)) (m ((c : Thread nD τ).loc main_arg18)) := by
  have e : V5 m ρ c (Pipeline.arrRef spec2 1) = _ := Fold.entry2_main_v42 m ρ c
  rw [e, h]

/-- The combine kernel's output over the activations `X'` and their neighbourhood mean `M` it finds. -/
theorem comb2 (X' M : (⟨S100000x128, .f32⟩ : BufTy).Contents (Elt Ideal)) (h0 : V5 m ρ c (Pipeline.arrRef spec2 0) = X') (h1 : V5 m ρ c (Pipeline.arrRef spec2 1) = M) :
    (dat2 (F := Ideal) (V5 m ρ) c).arrAt 5 cfg2.N
      = Cert.BridgeC.combF X' M (transpose S128x128 [1, 0] ((m ((c : Thread nD τ).loc main_arg5)) : (⟨S128x128, .f32⟩ : BufTy).Contents (Elt Ideal)) transposes_S128x128_S128x128_1_0 : (⟨S128x128, .f32⟩ : BufTy).Contents (Elt Ideal)) (transpose S128x128 [1, 0] ((m ((c : Thread nD τ).loc main_arg6)) : (⟨S128x128, .f32⟩ : BufTy).Contents (Elt Ideal)) transposes_S128x128_S128x128_1_0 : (⟨S128x128, .f32⟩ : BufTy).Contents (Elt Ideal)) (shapeCast S1x128 ((m ((c : Thread nD τ).loc main_arg7)) : (⟨S128, .f32⟩ : BufTy).Contents (Elt Ideal)) shapeCasts_S128_S1x128 : (⟨S1x128, .f32⟩ : BufTy).Contents (Elt Ideal)) := by
  have e2 : V5 m ρ c (Pipeline.arrRef spec2 2) = (transpose S128x128 [1, 0] ((m ((c : Thread nD τ).loc main_arg5)) : (⟨S128x128, .f32⟩ : BufTy).Contents (Elt Ideal)) transposes_S128x128_S128x128_1_0 : (⟨S128x128, .f32⟩ : BufTy).Contents (Elt Ideal)) := Fold.entry2_main_v3 m ρ c
  have e3 : V5 m ρ c (Pipeline.arrRef spec2 3) = (transpose S128x128 [1, 0] ((m ((c : Thread nD τ).loc main_arg6)) : (⟨S128x128, .f32⟩ : BufTy).Contents (Elt Ideal)) transposes_S128x128_S128x128_1_0 : (⟨S128x128, .f32⟩ : BufTy).Contents (Elt Ideal)) := Fold.entry2_main_v4 m ρ c
  have e4 : V5 m ρ c (Pipeline.arrRef spec2 4) = (shapeCast S1x128 ((m ((c : Thread nD τ).loc main_arg7)) : (⟨S128, .f32⟩ : BufTy).Contents (Elt Ideal)) shapeCasts_S128_S1x128 : (⟨S1x128, .f32⟩ : BufTy).Contents (Elt Ideal)) := Fold.entry2_main_v10 m ρ c
  rw [RegVal.final2, h0, h1, e2, e3, e4]
  rfl

/-! ## The second layer, region by region -/

section
variable (X : (⟨S100000x128, .f32⟩ : BufTy).Contents (Elt Ideal)) (hX : V6 m ρ c (Pipeline.arrRef spec3 0) = X)
include hX

/-- The dense output of the layer is the reference's dense stage of the array `X` the region finds. -/
theorem dense3 : (dat3 (F := Ideal) (V6 m ρ) c).arrAt 3 cfg3.N = val_main_v4 (F := Ideal) X (m ((c : Thread nD τ).loc main_arg8)) (m ((c : Thread nD τ).loc main_arg9)) := by
  have e1 : V6 m ρ c (Pipeline.arrRef spec3 1) = (transpose S128x128 [1, 0] ((m ((c : Thread nD τ).loc main_arg8)) : (⟨S128x128, .f32⟩ : BufTy).Contents (Elt Ideal)) transposes_S128x128_S128x128_1_0 : (⟨S128x128, .f32⟩ : BufTy).Contents (Elt Ideal)) := Fold.entry3_main_v1 m ρ c
  have e2 : V6 m ρ c (Pipeline.arrRef spec3 2) = (shapeCast S1x128 ((m ((c : Thread nD τ).loc main_arg9)) : (⟨S128, .f32⟩ : BufTy).Contents (Elt Ideal)) shapeCasts_S128_S1x128 : (⟨S1x128, .f32⟩ : BufTy).Contents (Elt Ideal)) := Fold.entry3_main_v11 m ρ c
  rw [Lin3.final3, hX, e1, e2]
  exact Cert.Bridge.dense_eq X (m ((c : Thread nD τ).loc main_arg8)) (m ((c : Thread nD τ).loc main_arg9)) _ _

/-- The layer's first column total at column `q`. -/
theorem total3 (q : Fin 128) :
    ((dat3 (F := Ideal) (V6 m ρ) c).arrAt 4 cfg3.N : S1x128.Idx → EReal) (ix2 (0 : Fin 1) q)
      = Ideal.ofBits .f32 0x00000000#32 + ∑ r : Fin 100000, val_main_v4 (F := Ideal) X (m ((c : Thread nD τ).loc main_arg8)) (m ((c : Thread nD τ).loc main_arg9)) (ix2 r q) := by
  have hG := (Lin3.final3 (V6 m ρ) c).symm.trans (dense3 m ρ c X hX)
  rw [Lin3.final4_apply, hG]

/-- The layer's second column total at column `q`. -/
theorem totalsq3 (q : Fin 128) :
    ((dat3 (F := Ideal) (V6 m ρ) c).arrAt 5 cfg3.N : S1x128.Idx → EReal) (ix2 (0 : Fin 1) q)
      = Ideal.ofBits .f32 0x00000000#32 + ∑ r : Fin 100000,
          val_main_v4 (F := Ideal) X (m ((c : Thread nD τ).loc main_arg8)) (m ((c : Thread nD τ).loc main_arg9)) (ix2 r q) * val_main_v4 (F := Ideal) X (m ((c : Thread nD τ).loc main_arg8)) (m ((c : Thread nD τ).loc main_arg9)) (ix2 r q) := by
  have hG := (Lin3.final3 (V6 m ρ) c).symm.trans (dense3 m ρ c X hX)
  rw [Lin3.final5_apply, hG]

variable (hreal : AllReal (val_main_v4 (F := Ideal) X (m ((c : Thread nD τ).loc main_arg8)) (m ((c : Thread nD τ).loc main_arg9))))
include hreal

/-- The one-row mean the normalise kernel finds is the reference's mean, column by column. -/
theorem mean4 (q : Fin 128) :
    (V8 m ρ c (Pipeline.arrRef spec4 1) : S1x128.Idx → EReal) (ix2 (0 : Fin 1) q) = val_main_v7 (F := Ideal) X (m ((c : Thread nD τ).loc main_arg8)) (m ((c : Thread nD τ).loc main_arg9)) (ix1 q) := by
  have e : V8 m ρ c (Pipeline.arrRef spec4 1) = _ := Fold.entry4_main_v46 m ρ c
  rw [e]
  exact (Cert.Bridge.stats_eq X (m ((c : Thread nD τ).loc main_arg8)) (m ((c : Thread nD τ).loc main_arg9)) hreal Cert.RefReal.c1e5 _ _ (total3 m ρ c X hX) (totalsq3 m ρ c X hX) q).1

/-- The one-row variance the normalise kernel finds is the reference's variance, column by column: here every entry of
    the dense stage has to be a real number. -/
theorem var4 (q : Fin 128) :
    (V8 m ρ c (Pipeline.arrRef spec4 2) : S1x128.Idx → EReal) (ix2 (0 : Fin 1) q) = val_main_v14 (F := Ideal) X (m ((c : Thread nD τ).loc main_arg8)) (m ((c : Thread nD τ).loc main_arg9)) (ix1 q) := by
  have e : V8 m ρ c (Pipeline.arrRef spec4 2) = _ := Fold.entry4_main_v50 m ρ c
  rw [e]
  exact (Cert.Bridge.stats_eq X (m ((c : Thread nD τ).loc main_arg8)) (m ((c : Thread nD τ).loc main_arg9)) hreal Cert.RefReal.c1e5 _ _ (total3 m ρ c X hX) (totalsq3 m ρ c X hX) q).2

/-- The normalised output of the layer is the reference's normalise stage. -/
theorem norm4 :
    (dat4 (F := Ideal) (V8 m ρ) c).arrAt 5 cfg4.N = val_main_v30 (F := Ideal) X (m ((c : Thread nD τ).loc main_arg8)) (m ((c : Thread nD τ).loc main_arg9)) (m ((c : Thread nD τ).loc main_arg10)) (m ((c : Thread nD τ).loc main_arg11)) := by
  have e0 : V8 m ρ c (Pipeline.arrRef spec4 0) = val_main_v4 (F := Ideal) X (m ((c : Thread nD τ).loc main_arg8)) (m ((c : Thread nD τ).loc main_arg9)) := (Fold.entry4_main_v44_0 m ρ c).trans (dense3 m ρ c X hX)
  have e3 : V8 m ρ c (Pipeline.arrRef spec4 3) = (shapeCast S1x128 ((m ((c : Thread nD τ).loc main_arg10)) : (⟨S128, .f32⟩ : BufTy).Contents (Elt Ideal)) shapeCasts_S128_S1x128 : (⟨S1x128, .f32⟩ : BufTy).Contents (Elt Ideal)) := Fold.entry4_main_v12 m ρ c
  have e4 : V8 m ρ c (Pipeline.arrRef spec4 4) = (shapeCast S1x128 ((m ((c : Thread nD τ).loc main_arg11)) : (⟨S128, .f32⟩ : BufTy).Contents (Elt Ideal)) shapeCasts_S128_S1x128 : (⟨S1x128, .f32⟩ : BufTy).Contents (Elt Ideal)) := Fold.entry4_main_v13 m ρ c
  rw [RegVal.final4, e0, e3, e4]
  exact Cert.Bridge.norm_eq X (m ((c : Thread nD τ).loc main_arg8)) (m ((c : Thread nD τ).loc main_arg9)) (m ((c : Thread nD τ).loc main_arg10)) (m ((c : Thread nD τ).loc main_arg11)) _ _ (mean4 m ρ c X hX hreal) (var4 m ρ c X hX hreal) _

end

/-- The neighbourhood mean the combine kernel finds is the shared host term of the activations `X'` the normalise
    kernel left and the two edge arrays. -/
theorem aggr5 (X' : (⟨S100000x128, .f32⟩ : BufTy).Contents (Elt Ideal)) (h : (dat4 (F := Ideal) (V8 m ρ) c).arrAt 5 cfg4.N = X') :
    V10 m ρ c (Pipeline.arrRef spec5 1) = Fold.aggrTerm (F := Ideal) X' (m ((c : Thread nD τ).loc main_arg17)) (m ((c : Thread nD τ).loc main_arg18)) := by
  have e : V10 m ρ c (Pipeline.arrRef spec5 1) = _ := Fold.entry5_main_v70 m ρ c
  rw [e, h]

/-- The combine kernel's output over the activations `X'` and their neighbourhood mean `M` it finds. -/
theorem comb5 (X' M : (⟨S100000x128, .f32⟩ : BufTy).Contents (Elt Ideal)) (h0 : V10 m ρ c (Pipeline.arrRef spec5 0) = X') (h1 : V10 m ρ c (Pipeline.arrRef spec5 1) = M) :
    (dat5 (F := Ideal) (V10 m ρ) c).arrAt 5 cfg5.N
      = Cert.BridgeC.combF X' M (transpose S128x128 [1, 0] ((m ((c : Thread nD τ).loc main_arg12)) : (⟨S128x128, .f32⟩ : BufTy).Contents (Elt Ideal)) transposes_S128x128_S128x128_1_0 : (⟨S128x128, .f32⟩ : BufTy).Contents (Elt Ideal)) (transpose S128x128 [1, 0] ((m ((c : Thread nD τ).loc main_arg13)) : (⟨S128x128, .f32⟩ : BufTy).Contents (Elt Ideal)) transposes_S128x128_S128x128_1_0 : (⟨S128x128, .f32⟩ : BufTy).Contents (Elt Ideal)) (shapeCast S1x128 ((m ((c : Thread nD τ).loc main_arg14)) : (⟨S128, .f32⟩ : BufTy).Contents (Elt Ideal)) shapeCasts_S128_S1x128 : (⟨S1x128, .f32⟩ : BufTy).Contents (Elt Ideal)) := by
  have e2 : V10 m ρ c (Pipeline.arrRef spec5 2) = (transpose S128x128 [1, 0] ((m ((c : Thread nD τ).loc main_arg12)) : (⟨S128x128, .f32⟩ : BufTy).Contents (Elt Ideal)) transposes_S128x128_S128x128_1_0 : (⟨S128x128, .f32⟩ : BufTy).Contents (Elt Ideal)) := Fold.entry5_main_v5 m ρ c
  have e3 : V10 m ρ c (Pipeline.arrRef spec5 3) = (transpose S128x128 [1, 0] ((m ((c : Thread nD τ).loc main_arg13)) : (⟨S128x128, .f32⟩ : BufTy).Contents (Elt Ideal)) transposes_S128x128_S128x128_1_0 : (⟨S128x128, .f32⟩ : BufTy).Contents (Elt Ideal)) := Fold.entry5_main_v6 m ρ c
  have e4 : V10 m ρ c (Pipeline.arrRef spec5 4) = (shapeCast S1x128 ((m ((c : Thread nD τ).loc main_arg14)) : (⟨S128, .f32⟩ : BufTy).Contents (Elt Ideal)) shapeCasts_S128_S1x128 : (⟨S1x128, .f32⟩ : BufTy).Contents (Elt Ideal)) := Fold.entry5_main_v14 m ρ c
  rw [RegVal.final5, h0, h1, e2, e3, e4]
  rfl

/-- The output kernel's result over the activations `X'` it finds. -/
theorem out6 (X' : (⟨S100000x128, .f32⟩ : BufTy).Contents (Elt Ideal)) (h0 : V11 m ρ c (Pipeline.arrRef spec6 0) = X') :
    (dat6 (F := Ideal) (V11 m ρ) c).arrAt 3 cfg6.N
      = Cert.BridgeC.outF X' (transpose S128x64 [1, 0] ((m ((c : Thread nD τ).loc main_arg15)) : (⟨S64x128, .f32⟩ : BufTy).Contents (Elt Ideal)) transposes_S64x128_S128x64_1_0 : (⟨S128x64, .f32⟩ : BufTy).Contents (Elt Ideal))
          (shapeCast S1x64 ((m ((c : Thread nD τ).loc main_arg16)) : (⟨S64, .f32⟩ : BufTy).Contents (Elt Ideal)) shapeCasts_S64_S1x64 : (⟨S1x64, .f32⟩ : BufTy).Contents (Elt Ideal)) := by
  have e1 : V11 m ρ c (Pipeline.arrRef spec6 1) = _ := Fold.entry6_main_v2 m ρ c
  have e2 : V11 m ρ c (Pipeline.arrRef spec6 2) = _ := Fold.entry6_main_v15 m ρ c
  rw [RegVal.final6, h0, e1, e2]
  rfl

/-! ## The reference's second layer is its first layer's stages on the first layer's output -/

theorem ref_norm2 (x0 : (⟨Cert.ReferenceIdeal.S100000x128, .f32⟩ : BufTy).Contents (Elt Ideal)) (x1 : (⟨Cert.ReferenceIdeal.S128x128, .f32⟩ : BufTy).Contents (Elt Ideal)) (x2 x3 x4 : (⟨Cert.ReferenceIdeal.S128, .f32⟩ : BufTy).Contents (Elt Ideal)) (x5 x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal)) (x9 x10 x11 : (⟨Cert.ReferenceIdeal.S128, .f32⟩ : BufTy).Contents (Elt Ideal)) (x17 x18 : (⟨Cert.ReferenceIdeal.S800000, .i32⟩ : BufTy).Contents (Elt Ideal)) :
    val_main_v89 (F := Ideal) x0 x1 x2 x3 x4 x5 x6 x7 x8 x9 x10 x11 x17 x18
      = val_main_v30 (F := Ideal) (val_main_v58 (F := Ideal) x0 x1 x2 x3 x4 x5 x6 x7 x17 x18) x8 x9 x10 x11 := rfl

/-! ## The chain, stage by stage -/

section
variable (hr1 : AllReal (val_main_v4 (F := Ideal) (m ((c : Thread nD τ).loc main_arg0)) (m ((c : Thread nD τ).loc main_arg1)) (m ((c : Thread nD τ).loc main_arg2))))
include hr1

set_option maxHeartbeats 4000000 in
/-- The first layer's normalised activations are the reference's. -/
theorem l1_norm : (dat1 (F := Ideal) (V3 m ρ) c).arrAt 5 cfg1.N = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  norm1 m ρ c (m ((c : Thread nD τ).loc main_arg0)) (Fold.entry0_main_arg0 m ρ c) hr1

set_option maxHeartbeats 4000000 in
/-- The first layer's neighbourhood mean is the reference's: the same host operations of the same activations. -/
theorem l1_aggr : V5 m ρ c (Pipeline.arrRef spec2 1) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg17)) (m ((c : Thread nD τ).loc main_arg18)) :=
  (aggr2 m ρ c _ (l1_norm m ρ c hr1)).trans (Cert.BridgeA.aggr1_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg17)) (m ((c : Thread nD τ).loc main_arg18)))

set_option maxHeartbeats 4000000 in
/-- The first layer's output is the reference's. -/
theorem l1_out : (dat2 (F := Ideal) (V5 m ρ) c).arrAt 5 cfg2.N = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg17)) (m ((c : Thread nD τ).loc main_arg18)) :=
  (comb2 m ρ c _ _ ((Fold.entry2_main_v23 m ρ c).trans (l1_norm m ρ c hr1)) (l1_aggr m ρ c hr1)).trans
    (Cert.BridgeC.comb1_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg17)) (m ((c : Thread nD τ).loc main_arg18)) _ _)

variable (hr2 : AllReal (val_main_v4 (F := Ideal) (val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg17)) (m ((c : Thread nD τ).loc main_arg18))) (m ((c : Thread nD τ).loc main_arg8)) (m ((c : Thread nD τ).loc main_arg9))))
include hr2

set_option maxHeartbeats 4000000 in
/-- The second layer's normalised activations are the reference's. -/
theorem l2_norm : (dat4 (F := Ideal) (V8 m ρ) c).arrAt 5 cfg4.N = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg17)) (m ((c : Thread nD τ).loc main_arg18)) :=
  (norm4 m ρ c (val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg17)) (m ((c : Thread nD τ).loc main_arg18))) ((Fold.entry3_main_v43 m ρ c).trans (l1_out m ρ c hr1)) hr2).trans (ref_norm2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg17)) (m ((c : Thread nD τ).loc main_arg18))).symm

set_option maxHeartbeats 4000000 in
/-- The second layer's neighbourhood mean is the reference's. -/
theorem l2_aggr : V10 m ρ c (Pipeline.arrRef spec5 1) = val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg17)) (m ((c : Thread nD τ).loc main_arg18)) :=
  (aggr5 m ρ c _ (l2_norm m ρ c hr1 hr2)).trans (Cert.BridgeA.aggr2_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg17)) (m ((c : Thread nD τ).loc main_arg18)))

set_option maxHeartbeats 4000000 in
/-- The second layer's output is the reference's. -/
theorem l2_out : (dat5 (F := Ideal) (V10 m ρ) c).arrAt 5 cfg5.N = val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) :=
  (comb5 m ρ c _ _ ((Fold.entry5_main_v51 m ρ c).trans (l2_norm m ρ c hr1 hr2)) (l2_aggr m ρ c hr1 hr2)).trans
    (Cert.BridgeC.comb2_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) _ _)

set_option maxHeartbeats 4000000 in
/-- The output projection is the reference's result. -/
theorem l3_out : (dat6 (F := Ideal) (V11 m ρ) c).arrAt 3 cfg6.N = val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  (out6 m ρ c _ ((Fold.entry6_main_v71 m ρ c).trans (l2_out m ρ c hr1 hr2))).trans (Cert.BridgeC.out_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) _ _)

end

/-! ## The result -/

set_option maxHeartbeats 4000000 in
/-- THE KERNEL PROGRAM'S RESULT: under the finite-inputs precondition, the contents the last region leaves in the
    result buffer are the reference's result stage of the same argument arrays. The precondition makes every float
    argument real; the first layer's dense stage and — through the whole first layer — the second layer's dense stage
    are then real, which is what the two variance identities need. -/
theorem result_eq [Cert.Pre_finite_inputs.Facts] (hpre : Cert.Pre_KernelIdeal m) :
    W12 m ρ c (Proc.devRef .tc main_v72) = val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  obtain ⟨r0, r1, r2, r3, r4, r5, r6, r7, r8, r9, -⟩ := Cert.RefReal.inputs_real_mem m hpre c
  have hr1 : AllReal (val_main_v4 (F := Ideal) (m ((c : Thread nD τ).loc main_arg0)) (m ((c : Thread nD τ).loc main_arg1)) (m ((c : Thread nD τ).loc main_arg2))) := Cert.RefReal.real_v4 r0 r1 r2
  have hr2 : AllReal (val_main_v4 (F := Ideal) (val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg17)) (m ((c : Thread nD τ).loc main_arg18))) (m ((c : Thread nD τ).loc main_arg8)) (m ((c : Thread nD τ).loc main_arg9))) :=
    Cert.RefReal.real_v4 (Cert.RefReal.real_v58 r0 r1 r2 r3 r4 r5 r6 r7) r8 r9
  exact (Fold.result m ρ c).trans (l3_out m ρ c hr1 hr2)

end Cert.KernelValue

end
-- ==== Proof.lean ====
/-
  A two-layer graph network over 100000 nodes with 128 features and 800000 edges, computed twice: by a program of
  seven kernel regions among host operations, and by a plain reference. Both are read over the extended reals, where
  every float operation is the exact one and a change of float format is the identity.

  Each layer is: a dense stage `y = x·Wᵀ + b`; the batch statistics of `y` over the rows; the normalised, scaled,
  shifted and rectified activation `max((y − μ)·rsqrt(v + ε)·γ + β, 0)`; the mean of the activation over each node's
  incoming edges (a gather, an accumulating scatter, a division by `max(degree, 1)`); and the rectified combination
  `max(x·Wₛᵀ + agg·Wₙᵀ + bₛ, 0)`. A final dense stage with a rectifier gives the 64 output features.

  Why the two agree. The kernel regions work on blocks of 5000 rows: a matrix product restricted to a block of rows
  is the block of the product, and the column totals `∑ y`, `∑ y²` accumulated block after block are the totals over
  all rows (a finite sum re-associates). The host operations between the regions are the reference's own. The one
  place where the two programs compute different expressions is the variance: the kernel program takes
  `(∑ y²)/N − ((∑ y)/N)²`, the reference `(∑ (y − (∑ y)/N)²)/N`. These are equal when every `y` is a real number, and
  not in general at an infinity. The precondition says every float input is finite, that is, a real; sums,
  differences, products and maxima of reals are reals, the variance is a mean of squares and so not negative, `ε` is
  positive, so the reciprocal square root is of a positive real, and the degree's maximum with one is at least one:
  hence every entry of the first layer's output is a real, and so is the second layer's dense stage, where the
  variance identity is used a second time.

  The frames: each program, from any memory with zero counters, terminates without a fault and leaves its argument
  arrays as it found them. The word-level kernel program and its idealization are the same text, read at two
  instances; the idealization rewrote nothing.
-/
import proofs.«150060_j45646912422072_1_alg».proof.Defs
import proofs.«150060_j45646912422072_1_alg».proof.Proof.Gen.Kernel
import proofs.«150060_j45646912422072_1_alg».proof.Proof.Gen.Kernel.Skeleton
import proofs.«150060_j45646912422072_1_alg».proof.Proof.Gen.Kernel.Launch
import proofs.«150060_j45646912422072_1_alg».proof.Proof.Gen.Kernel.Points
import proofs.«150060_j45646912422072_1_alg».proof.Proof.Gen.Kernel.Frame
import proofs.«150060_j45646912422072_1_alg».proof.Proof.Gen.KernelIdeal
import proofs.«150060_j45646912422072_1_alg».proof.Proof.Gen.KernelIdeal.Skeleton
import proofs.«150060_j45646912422072_1_alg».proof.Proof.Gen.KernelIdeal.Launch
import proofs.«150060_j45646912422072_1_alg».proof.Proof.Gen.KernelIdeal.Points
import proofs.«150060_j45646912422072_1_alg».proof.Proof.Gen.KernelIdeal.Frame
import proofs.«150060_j45646912422072_1_alg».proof.Proof.Gen.ReferenceIdeal
import proofs.«150060_j45646912422072_1_alg».proof.Proof.Gen.ReferenceIdeal.Run
import proofs.«150060_j45646912422072_1_alg».proof.Proof.Gen.ReferenceIdeal.Read
import proofs.«150060_j45646912422072_1_alg».proof.Proof.Gen.Pre_finite_inputs
import proofs.«150060_j45646912422072_1_alg».proof.Proof.KernelRun
import proofs.«150060_j45646912422072_1_alg».proof.Proof.KernelValue
import Idealize.ShloMosaic.Adequacy
import Idealize.ShloMosaic.Init

noncomputable section

open Idealize.ShloMosaic Idealize.SL.Sem

namespace Cert.Proof

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from memories that agree on the nineteen arguments, both programs end with the same
    result: the reference's function of the arguments. The kernel program's result is that function of its own
    arguments (under the precondition, which makes every input a real); the reference's is the same function of its
    arguments, which are the kernel's. -/
theorem algebraic : Cert.algebraic_KernelIdeal_ReferenceIdeal := by
  intro m ρ m' ρ' hpre hagree
  refine ⟨fun c => Cert.ReferenceIdeal.Read.val_main_v123 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13))
          (m ((c.tc : Thread Cert.KernelIdeal.nD Cert.KernelIdeal.τ).loc Cert.KernelIdeal.main_arg14))
          (m ((c.tc : Thread Cert.KernelIdeal.nD Cert.KernelIdeal.τ).loc Cert.KernelIdeal.main_arg15))
          (m ((c.tc : Thread Cert.KernelIdeal.nD Cert.KernelIdeal.τ).loc Cert.KernelIdeal.main_arg16))
          (m ((c.tc : Thread Cert.KernelIdeal.nD Cert.KernelIdeal.τ).loc Cert.KernelIdeal.main_arg17))
          (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.KernelValue.result_eq m ρ c hpre), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18⟩ := hagree c
    rw [Cert.ReferenceIdeal.Read.val_main_v123_eq, e0, e1, e2, e3, e4, e5, e6, e7, e8, e9, e10, e11, e12, e13, e14, e15, e16, e17, e18]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
